-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S262144x128 : Shape := ⟨2, ![262144, 128]⟩
abbrev S1024x128 : Shape := ⟨2, ![1024, 128]⟩
abbrev S262144 : Shape := ⟨1, ![262144]⟩
abbrev S131072 : Shape := ⟨1, ![131072]⟩
abbrev S1024 : Shape := ⟨1, ![1024]⟩
abbrev S416x1024 : Shape := ⟨2, ![416, 1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩

class Facts : Prop where
  bcast_S_S262144x32 : S_.BroadcastsInDim S262144x32 (![] : Fin 0 → Fin S262144x32.rank)
  reducesTo_S262144x32_S_d0_1 : S262144x32.ReducesTo [0, 1] S_
  h_S_ : 0 < S_.numel
  bcast_S_S262144x128 : S_.BroadcastsInDim S262144x128 (![] : Fin 0 → Fin S262144x128.rank)
  reducesTo_S262144x128_S_d0_1 : S262144x128.ReducesTo [0, 1] S_
  bcast_S_S1024x128 : S_.BroadcastsInDim S1024x128 (![] : Fin 0 → Fin S1024x128.rank)
  reducesTo_S1024x128_S_d0_1 : S1024x128.ReducesTo [0, 1] S_
  bcast_S_S416x1024 : S_.BroadcastsInDim S416x1024 (![] : Fin 0 → Fin S416x1024.rank)
  reducesTo_S416x1024_S_d0_1 : S416x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S1024 .f32) (main_arg11 : FVec F S1024x1 .f32) (main_arg12 : FVec F S1 .f32) (main_v33 : IVec S_ 1) : IVec S_ 1 :=
  let main_v34 : FVec F S1024 .f32 := Host.absf main_arg10
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1 .f32 := Host.absf main_arg11
  let main_cst_14 : FVec F S_ .f32 := constant S_ .f32 0x7F800000#32
  let main_v40 : FVec F S1024x1 .f32 := broadcastInDim S1024x1 ![] bcast_S_S1024x1 main_cst_14
  let main_v41 : IVec S1024x1 1 := cmpf .olt main_v39 main_v40
  let main_c_15 : IVec S_ 1 := constantI S_ 1 1#1
  let main_v42 : IVec S_ 1 := (fun x v => Host.reduce IntOp.andi x v reducesTo_S1024x1_S_d0_1 h_S_) main_v41 main_c_15
  let main_v43 : IVec S_ 1 := andi main_v38 main_v42
  let main_v44 : FVec F S1 .f32 := Host.absf main_arg12
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg7 : FVec F S416x1024 .f32) (main_arg8 : FVec F S1024 .f32) (main_arg9 : FVec F S1024x1024 .f32) (main_arg10 : FVec F S1024 .f32) (main_arg11 : FVec F S1024x1 .f32) (main_arg12 : FVec F S1 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S416x1024 .f32 := Host.absf main_arg7
  let main_cst_6 : FVec F S_ .f32 := constant S_ .f32 0x7F800000#32
  let main_v20 : FVec F S416x1024 .f32 := broadcastInDim S416x1024 ![] bcast_S_S416x1024 main_cst_6
  let main_v21 : IVec S416x1024 1 := cmpf .olt main_v19 main_v20
  let main_c_7 : IVec S_ 1 := constantI S_ 1 1#1
  let main_v22 : IVec S_ 1 := (fun x v => Host.reduce IntOp.andi x v reducesTo_S416x1024_S_d0_1 h_S_) main_v21 main_c_7
  let main_v23 : IVec S_ 1 := andi main_v18 main_v22
  let main_v24 : FVec F S1024 .f32 := Host.absf main_arg8
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg9
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg10 main_arg11 main_arg12 main_v33

def fn {F : FTy → Type} [FloatOps F] (main_arg0 : FVec F S262144x32 .f32) (main_arg1 : FVec F S262144x128 .f32) (main_arg2 : FVec F S1024x128 .f32) (main_arg3 : FVec F S1024x128 .f32) (main_arg4 : IVec S262144 32) (main_arg5 : IVec S131072 32) (main_arg6 : IVec S1024 32) (main_arg7 : FVec F S416x1024 .f32) (main_arg8 : FVec F S1024 .f32) (main_arg9 : FVec F S1024x1024 .f32) (main_arg10 : FVec F S1024 .f32) (main_arg11 : FVec F S1024x1 .f32) (main_arg12 : FVec F S1 .f32) : IVec S_ 1 :=
  let main_v0 : FVec F S262144x32 .f32 := Host.absf main_arg0
  let main_cst : FVec F S_ .f32 := constant S_ .f32 0x7F800000#32
  let main_v1 : FVec F S262144x32 .f32 := broadcastInDim S262144x32 ![] bcast_S_S262144x32 main_cst
  let main_v2 : IVec S262144x32 1 := cmpf .olt main_v0 main_v1
  let main_c : IVec S_ 1 := constantI S_ 1 1#1
  let main_v3 : IVec S_ 1 := (fun x v => Host.reduce IntOp.andi x v reducesTo_S262144x32_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg7 main_arg8 main_arg9 main_arg10 main_arg11 main_arg12 main_v13 main_v16
-- ==== Kernel.lean ====
abbrev S262144x32 : Shape := ⟨2, ![262144, 32]⟩
abbrev S262144x128 : Shape := ⟨2, ![262144, 128]⟩
abbrev S1024x128 : Shape := ⟨2, ![1024, 128]⟩
abbrev S262144 : Shape := ⟨1, ![262144]⟩
abbrev S131072 : Shape := ⟨1, ![131072]⟩
abbrev S1024 : Shape := ⟨1, ![1024]⟩
abbrev S416x1024 : Shape := ⟨2, ![416, 1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩
abbrev S131072x1 : Shape := ⟨2, ![131072, 1]⟩
abbrev S131072x32 : Shape := ⟨2, ![131072, 32]⟩
abbrev S131072x128 : Shape := ⟨2, ![131072, 128]⟩
abbrev S1023 : Shape := ⟨1, ![1023]⟩
abbrev S1x1 : Shape := ⟨2, ![1, 1]⟩
abbrev S32x1024 : Shape := ⟨2, ![32, 1024]⟩
abbrev S128x1024 : Shape := ⟨2, ![128, 1024]⟩
abbrev S1x1024 : Shape := ⟨2, ![1, 1024]⟩
abbrev S2048x32 : Shape := ⟨2, ![2048, 32]⟩
abbrev S2048x128 : Shape := ⟨2, ![2048, 128]⟩
abbrev S2048x1 : Shape := ⟨2, ![2048, 1]⟩
abbrev S2048x1024 : Shape := ⟨2, ![2048, 1024]⟩

abbrev nBuf : Space → Nat
  | .hbm => 120
  | .vmem => 19
  | .smem => 0
  | _ => 0

abbrev bufTy : (tb : Table) → Fin (tcTables nBuf tb) → BufTy
  | .hbm, ⟨0, _⟩ => ⟨S262144x32, .f32⟩
  | .hbm, ⟨1, _⟩ => ⟨S262144x128, .f32⟩
  | .hbm, ⟨2, _⟩ => ⟨S1024x128, .f32⟩
  | .hbm, ⟨3, _⟩ => ⟨S1024x128, .f32⟩
  | .hbm, ⟨4, _⟩ => ⟨S262144, .i32⟩
  | .hbm, ⟨5, _⟩ => ⟨S131072, .i32⟩
  | .hbm, ⟨6, _⟩ => ⟨S1024, .i32⟩
  | .hbm, ⟨7, _⟩ => ⟨S416x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1, .f32⟩
  | .hbm, ⟨12, _⟩ => ⟨S1, .f32⟩
  | .hbm, ⟨13, _⟩ => ⟨S_, .i32⟩
  | .hbm, ⟨14, _⟩ => ⟨S131072, .i32⟩
  | .hbm, ⟨15, _⟩ => ⟨S131072, .i1⟩
  | .hbm, ⟨16, _⟩ => ⟨S_, .i32⟩
  | .hbm, ⟨17, _⟩ => ⟨S131072, .i32⟩
  | .hbm, ⟨18, _⟩ => ⟨S131072, .i32⟩
  | .hbm, ⟨19, _⟩ => ⟨S131072, .i32⟩
  | .hbm, ⟨20, _⟩ => ⟨S131072x1, .i32⟩
  | .hbm, ⟨21, _⟩ => ⟨S131072x32, .f32⟩
  | .hbm, ⟨22, _⟩ => ⟨S131072x32, .bf16⟩
  | .hbm, ⟨23, _⟩ => ⟨S_, .i32⟩
  | .hbm, ⟨24, _⟩ => ⟨S131072, .i32⟩
  | .hbm, ⟨25, _⟩ => ⟨S131072, .i1⟩
  | .hbm, ⟨26, _⟩ => ⟨S_, .i32⟩
  | .hbm, ⟨27, _⟩ => ⟨S131072, .i32⟩
  | .hbm, ⟨28, _⟩ => ⟨S131072, .i32⟩
  | .hbm, ⟨29, _⟩ => ⟨S131072, .i32⟩
  | .hbm, ⟨30, _⟩ => ⟨S131072x1, .i32⟩
  | .hbm, ⟨31, _⟩ => ⟨S131072x128, .f32⟩
  | .hbm, ⟨32, _⟩ => ⟨S131072x128, .bf16⟩
  | .hbm, ⟨33, _⟩ => ⟨S_, .i32⟩
  | .hbm, ⟨34, _⟩ => ⟨S131072, .i32⟩
  | .hbm, ⟨35, _⟩ => ⟨S131072, .i1⟩
  | .hbm, ⟨36, _⟩ => ⟨S_, .i32⟩
  | .hbm, ⟨37, _⟩ => ⟨S131072, .i32⟩
  | .hbm, ⟨38, _⟩ => ⟨S131072, .i32⟩
  | .hbm, ⟨39, _⟩ => ⟨S131072, .i32⟩
  | .hbm, ⟨40, _⟩ => ⟨S131072x1, .i32⟩
  | .hbm, ⟨41, _⟩ => ⟨S131072, .i32⟩
  | .hbm, ⟨42, _⟩ => ⟨S_, .i32⟩
  | .hbm, ⟨43, _⟩ => ⟨S131072, .i32⟩
  | .hbm, ⟨44, _⟩ => ⟨S131072, .i1⟩
  | .hbm, ⟨45, _⟩ => ⟨S_, .i32⟩
  | .hbm, ⟨46, _⟩ => ⟨S131072, .i32⟩
  | .hbm, ⟨47, _⟩ => ⟨S131072, .i32⟩
  | .hbm, ⟨48, _⟩ => ⟨S131072, .i32⟩
  | .hbm, ⟨49, _⟩ => ⟨S131072x1, .i32⟩
  | .hbm, ⟨50, _⟩ => ⟨S131072x128, .f32⟩
  | .hbm, ⟨51, _⟩ => ⟨S131072x128, .bf16⟩
  | .hbm, ⟨52, _⟩ => ⟨S1, .i32⟩
  | .hbm, ⟨53, _⟩ => ⟨S1023, .i32⟩
  | .hbm, ⟨54, _⟩ => ⟨S1024, .i32⟩
  | .hbm, ⟨55, _⟩ => ⟨S_, .i32⟩
  | .hbm, ⟨56, _⟩ => ⟨S1, .i32⟩
  | .hbm, ⟨57, _⟩ => ⟨S_, .i32⟩
  | .hbm, ⟨58, _⟩ => ⟨S1024, .i32⟩
  | .hbm, ⟨59, _⟩ => ⟨S_, .i32⟩
  | .hbm, ⟨60, _⟩ => ⟨S_, .i32⟩
  | .hbm, ⟨61, _⟩ => ⟨S1024, .i32⟩
  | .hbm, ⟨62, _⟩ => ⟨S_, .i32⟩
  | .hbm, ⟨63, _⟩ => ⟨S131072, .i32⟩
  | .hbm, ⟨64, _⟩ => ⟨S_, .i32⟩
  | .hbm, ⟨65, _⟩ => ⟨S1024, .i32⟩
  | .hbm, ⟨66, _⟩ => ⟨S1024, .i1⟩
  | .hbm, ⟨67, _⟩ => ⟨S_, .i32⟩
  | .hbm, ⟨68, _⟩ => ⟨S1024, .i32⟩
  | .hbm, ⟨69, _⟩ => ⟨S1024, .i32⟩
  | .hbm, ⟨70, _⟩ => ⟨S1024, .i32⟩
  | .hbm, ⟨71, _⟩ => ⟨S1024x1, .i32⟩
  | .hbm, ⟨72, _⟩ => ⟨S_, .i32⟩
  | .hbm, ⟨73, _⟩ => ⟨S1024, .i32⟩
  | .hbm, ⟨74, _⟩ => ⟨S131072, .i32⟩
  | .hbm, ⟨75, _⟩ => ⟨S_, .i32⟩
  | .hbm, ⟨76, _⟩ => ⟨S_, .i32⟩
  | .hbm, ⟨77, _⟩ => ⟨S131072, .i32⟩
  | .hbm, ⟨78, _⟩ => ⟨S_, .i32⟩
  | .hbm, ⟨79, _⟩ => ⟨S131072, .i32⟩
  | .hbm, ⟨80, _⟩ => ⟨S131072, .i32⟩
  | .hbm, ⟨81, _⟩ => ⟨S_, .i32⟩
  | .hbm, ⟨82, _⟩ => ⟨S131072, .i32⟩
  | .hbm, ⟨83, _⟩ => ⟨S131072, .i1⟩
  | .hbm, ⟨84, _⟩ => ⟨S_, .i32⟩
  | .hbm, ⟨85, _⟩ => ⟨S131072, .i32⟩
  | .hbm, ⟨86, _⟩ => ⟨S131072, .i32⟩
  | .hbm, ⟨87, _⟩ => ⟨S131072, .i32⟩
  | .hbm, ⟨88, _⟩ => ⟨S131072x1, .i32⟩
  | .hbm, ⟨89, _⟩ => ⟨S1, .i32⟩
  | .hbm, ⟨90, _⟩ => ⟨S_, .i32⟩
  | .hbm, ⟨91, _⟩ => ⟨S131072x1, .i32⟩
  | .hbm, ⟨92, _⟩ => ⟨S131072x1, .i1⟩
  | .hbm, ⟨93, _⟩ => ⟨S1x1, .i32⟩
  | .hbm, ⟨94, _⟩ => ⟨S131072x1, .i32⟩
  | .hbm, ⟨95, _⟩ => ⟨S131072x1, .i1⟩
  | .hbm, ⟨96, _⟩ => ⟨S131072x1, .i1⟩
  | .hbm, ⟨97, _⟩ => ⟨S_, .i1⟩
  | .hbm, ⟨98, _⟩ => ⟨S131072, .i1⟩
  | .hbm, ⟨99, _⟩ => ⟨S131072x128, .f32⟩
  | .hbm, ⟨100, _⟩ => ⟨S131072x128, .i1⟩
  | .hbm, ⟨101, _⟩ => ⟨S_, .f32⟩
  | .hbm, ⟨102, _⟩ => ⟨S131072x128, .f32⟩
  | .hbm, ⟨103, _⟩ => ⟨S131072x128, .f32⟩
  | .hbm, ⟨104, _⟩ => ⟨S131072x128, .bf16⟩
  | .hbm, ⟨105, _⟩ => ⟨S32x1024, .f32⟩
  | .hbm, ⟨106, _⟩ => ⟨S32x1024, .bf16⟩
  | .hbm, ⟨107, _⟩ => ⟨S128x1024, .f32⟩
  | .hbm, ⟨108, _⟩ => ⟨S128x1024, .bf16⟩
  | .hbm, ⟨109, _⟩ => ⟨S128x1024, .f32⟩
  | .hbm, ⟨110, _⟩ => ⟨S128x1024, .bf16⟩
  | .hbm, ⟨111, _⟩ => ⟨S128x1024, .f32⟩
  | .hbm, ⟨112, _⟩ => ⟨S128x1024, .bf16⟩
  | .hbm, ⟨113, _⟩ => ⟨S1024x1024, .bf16⟩
  | .hbm, ⟨114, _⟩ => ⟨S1024x1, .bf16⟩
  | .hbm, ⟨115, _⟩ => ⟨S1x1024, .f32⟩
  | .hbm, ⟨116, _⟩ => ⟨S1x1024, .f32⟩
  | .hbm, ⟨117, _⟩ => ⟨S1x1, .f32⟩
  | .hbm, ⟨118, _⟩ => ⟨S131072x1, .f32⟩
  | .hbm, ⟨119, _⟩ => ⟨S131072, .f32⟩
  | .local _ .vmem, ⟨0, _⟩ => ⟨S2048x32, .bf16⟩
  | .local _ .vmem, ⟨1, _⟩ => ⟨S2048x32, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S32x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S1024x1, .bf16⟩
  | .local _ .vmem, ⟨16, _⟩ => ⟨S1x1, .f32⟩
  | .local _ .vmem, ⟨17, _⟩ => ⟨S2048x1, .f32⟩
  | .local _ .vmem, ⟨18, _⟩ => ⟨S2048x1, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_v0 : Ref sig .tc := ⟨.hbm, 52, rfl⟩
abbrev main_call0_v1 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_call1_call0_c : Ref sig .tc := ⟨.hbm, 59, rfl⟩
abbrev main_call1_call0_v0 : Ref sig .tc := ⟨.hbm, 60, rfl⟩
abbrev main_v34 : Ref sig .tc := ⟨.hbm, 61, rfl⟩
abbrev main_c_9 : Ref sig .tc := ⟨.hbm, 62, rfl⟩
abbrev main_v35 : Ref sig .tc := ⟨.hbm, 63, rfl⟩
abbrev main_c_10 : Ref sig .tc := ⟨.hbm, 64, rfl⟩
abbrev main_v36 : Ref sig .tc := ⟨.hbm, 65, rfl⟩
abbrev main_v37 : Ref sig .tc := ⟨.hbm, 66, rfl⟩
abbrev main_c_11 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_12 : Ref sig .tc := ⟨.hbm, 72, rfl⟩
abbrev main_v42 : Ref sig .tc := ⟨.hbm, 73, rfl⟩
abbrev main_v43 : Ref sig .tc := ⟨.hbm, 74, rfl⟩
abbrev main_call2_call0_c : Ref sig .tc := ⟨.hbm, 75, rfl⟩
abbrev main_call2_call0_v0 : Ref sig .tc := ⟨.hbm, 76, rfl⟩
abbrev main_v44 : Ref sig .tc := ⟨.hbm, 77, rfl⟩
abbrev main_c_13 : Ref sig .tc := ⟨.hbm, 78, rfl⟩
abbrev main_v45 : Ref sig .tc := ⟨.hbm, 79, rfl⟩
abbrev main_v46 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_c_1 : Ref sig .tc := ⟨.hbm, 89, rfl⟩
abbrev main_call3_c_2 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_3 : Ref sig .tc := ⟨.hbm, 97, rfl⟩
abbrev main_call3_v12 : Ref sig .tc := ⟨.hbm, 98, rfl⟩
abbrev main_call3_v13 : Ref sig .tc := ⟨.hbm, 99, rfl⟩
abbrev main_call3_v14 : Ref sig .tc := ⟨.hbm, 100, rfl⟩
abbrev main_call3_cst : Ref sig .tc := ⟨.hbm, 101, rfl⟩
abbrev main_call3_v15 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bitsLt_bf16_f32 : FTy.bits .bf16 < FTy.bits .f32
  slices_S1024_S1_1023 : S1024.Slices ![1023] S1
  slices_S1024_S1023_0 : S1024.Slices ![0] S1023
  concatenates_S1_S1023_S1024_d0 : Shape.Concatenates [S1, S1023] S1024 0
  bcast_S_S1 : S_.BroadcastsInDim S1 (![] : Fin 0 → Fin S1.rank)
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  reduceWindows_S131072_S131072_w131072s1p131071_0 : S131072.ReduceWindows (![131072] : Fin 1 → Nat) ![1] ![131071] ![0] S131072
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  bcast_S131072_S131072x128_0 : S131072.BroadcastsInDim S131072x128 (![0] : Fin 1 → Fin S131072x128.rank)
  bcast_S_S131072x128 : S_.BroadcastsInDim S131072x128 (![] : Fin 0 → Fin S131072x128.rank)
  slices_S416x1024_S32x1024_0_0 : S416x1024.Slices ![0, 0] S32x1024
  slices_S416x1024_S128x1024_32_0 : S416x1024.Slices ![32, 0] S128x1024
  slices_S416x1024_S128x1024_160_0 : S416x1024.Slices ![160, 0] S128x1024
  slices_S416x1024_S128x1024_288_0 : S416x1024.Slices ![288, 0] S128x1024
  shapeCasts_S1024_S1x1024 : S1024.ShapeCasts S1x1024
  shapeCasts_S1_S1x1 : S1.ShapeCasts S1x1
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S131072x1_S131072 : S131072x1.ShapeCasts S131072
  gather_S262144x32_S131072x1_S131072x32_1_0_n_n_0_1_132_wf : GatherDims.WF S262144x32 S131072x1 S131072x32 [1] [0] [] [0] [] 1 ![1, 32]
  gather_S262144x128_S131072x1_S131072x128_1_0_n_n_0_1_1128_wf : GatherDims.WF S262144x128 S131072x1 S131072x128 [1] [0] [] [0] [] 1 ![1, 128]
  gather_S262144_S131072x1_S131072_n_0_n_n_0_1_1_wf : GatherDims.WF S262144 S131072x1 S131072 [] [0] [] [0] [] 1 ![1]
  gather_S1024x128_S131072x1_S131072x128_1_0_n_n_0_1_1128_wf : GatherDims.WF S1024x128 S131072x1 S131072x128 [1] [0] [] [0] [] 1 ![1, 128]
  scatter_S1024_S1_S__n_0_0_0_wf : ScatterDims.WF S1024 S1 S_ [] [0] [0] 0
  scatter_S131072_S1024x1_S1024_n_0_0_1_wf : ScatterDims.WF S131072 S1024x1 S1024 [] [0] [0] 1
  dot_S2048x32_S32x1024_S2048x1024_1_0_0_1_n_n_wf : DotDims.WF S2048x32 S32x1024 S2048x1024 [1] [0] [0] [1] [] []
  dot_S2048x128_S128x1024_S2048x1024_1_0_0_1_n_n_wf : DotDims.WF S2048x128 S128x1024 S2048x1024 [1] [0] [0] [1] [] []
  dot_S2048x1024_S1024x1024_S2048x1024_1_0_0_1_n_n_wf : DotDims.WF S2048x1024 S1024x1024 S2048x1024 [1] [0] [0] [1] [] []
  dot_S2048x1024_S1024x1_S2048x1_1_0_0_1_n_n_wf : DotDims.WF S2048x1024 S1024x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S131072x32.size a
  hwx0_0 : ∀ i : grid0.Coords, EltTy.bits .bf16 = 32 ∨ (Rect.block (s := S131072x32) S2048x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .bf16 = 32 ∨ (Rect.block (s := S131072x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .bf16 = 32 ∨ (Rect.block (s := S131072x128) S2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S131072x128.size a
  hwx0_3 : ∀ i : grid0.Coords, EltTy.bits .bf16 = 32 ∨ (Rect.block (s := S131072x128) S2048x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S32x1024.size a
  hwx0_4 : ∀ i : grid0.Coords, EltTy.bits .bf16 = 32 ∨ (Rect.block (s := S32x1024) S32x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S128x1024.size a
  hwx0_5 : ∀ i : grid0.Coords, EltTy.bits .bf16 = 32 ∨ (Rect.block (s := S128x1024) S128x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S128x1024.size a
  hwx0_6 : ∀ i : grid0.Coords, EltTy.bits .bf16 = 32 ∨ (Rect.block (s := S128x1024) S128x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S128x1024.size a
  hwx0_7 : ∀ i : grid0.Coords, EltTy.bits .bf16 = 32 ∨ (Rect.block (s := S128x1024) S128x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1.size a ≤ S1024x1.size a
  hwx0_11 : ∀ i : grid0.Coords, EltTy.bits .bf16 = 32 ∨ (Rect.block (s := S1024x1) S1024x1.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x1.size a ≤ S131072x1.size a
  hwx0_13 : ∀ i : grid0.Coords, EltTy.bits .f32 = 32 ∨ (Rect.block (s := S131072x1) S2048x1.size (cc0_transform_13 i) (hinb0_13 i)).WholeWords (EltTy.packing .f32)

variable [Facts₀]

def gather_S262144x32_S131072x1_S131072x32_1_0_n_n_0_1_132 : GatherDims S262144x32 S131072x1 S131072x32 where
  offsetDims := [1]
  collapsedSliceDims := [0]
  operandBatchingDims := []
  startIndicesBatchingDims := []
  startIndexMap := [0]
  indexVectorDim := 1
  sliceSizes := ![1, 32]
  wf := gather_S262144x32_S131072x1_S131072x32_1_0_n_n_0_1_132_wf
def gather_S262144x128_S131072x1_S131072x128_1_0_n_n_0_1_1128 : GatherDims S262144x128 S131072x1 S131072x128 where
  offsetDims := [1]
  collapsedSliceDims := [0]
  operandBatchingDims := []
  startIndicesBatchingDims := []
  startIndexMap := [0]
  indexVectorDim := 1
  sliceSizes := ![1, 128]
  wf := gather_S262144x128_S131072x1_S131072x128_1_0_n_n_0_1_1128_wf
def gather_S262144_S131072x1_S131072_n_0_n_n_0_1_1 : GatherDims S262144 S131072x1 S131072 where
  offsetDims := []
  collapsedSliceDims := [0]
  operandBatchingDims := []
  startIndicesBatchingDims := []
  startIndexMap := [0]
  indexVectorDim := 1
  sliceSizes := ![1]
  wf := gather_S262144_S131072x1_S131072_n_0_n_n_0_1_1_wf
def gather_S1024x128_S131072x1_S131072x128_1_0_n_n_0_1_1128 : GatherDims S1024x128 S131072x1 S131072x128 where
  offsetDims := [1]
  collapsedSliceDims := [0]
  operandBatchingDims := []
  startIndicesBatchingDims := []
  startIndexMap := [0]
  indexVectorDim := 1
  sliceSizes := ![1, 128]
  wf := gather_S1024x128_S131072x1_S131072x128_1_0_n_n_0_1_1128_wf
def scatter_S1024_S1_S__n_0_0_0 : ScatterDims S1024 S1 S_ where
  updateWindowDims := []
  insertedWindowDims := [0]
  scatterDimsToOperandDims := [0]
  indexVectorDim := 0
  wf := scatter_S1024_S1_S__n_0_0_0_wf
def scatter_S131072_S1024x1_S1024_n_0_0_1 : ScatterDims S131072 S1024x1 S1024 where
  updateWindowDims := []
  insertedWindowDims := [0]
  scatterDimsToOperandDims := [0]
  indexVectorDim := 1
  wf := scatter_S131072_S1024x1_S1024_n_0_0_1_wf
def dot_S2048x32_S32x1024_S2048x1024_1_0_0_1_n_n : DotDims S2048x32 S32x1024 S2048x1024 where
  lhsContracting := [1]
  rhsContracting := [0]
  lhsNonContracting := [0]
  rhsNonContracting := [1]
  lhsBatch := []
  rhsBatch := []
  wf := dot_S2048x32_S32x1024_S2048x1024_1_0_0_1_n_n_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x1_S2048x1_1_0_0_1_n_n : DotDims S2048x1024 S1024x1 S2048x1 where
  lhsContracting := [1]
  rhsContracting := [0]
  lhsNonContracting := [0]
  rhsNonContracting := [1]
  lhsBatch := []
  rhsBatch := []
  wf := dot_S2048x1024_S1024x1_S2048x1_1_0_0_1_n_n_wf

abbrev win0_0 : Pipeline.Window sig grid0 :=
  Pipeline.Window.ofSpec (Memref.whole main_v7) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v48) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v50) S32x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v52) S128x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v54) S128x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v56) S128x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v59) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v57) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v60) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v58) S1024x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v61) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v62) S2048x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S262144x32 : Shape := ⟨2, ![262144, 32]⟩
abbrev S262144x128 : Shape := ⟨2, ![262144, 128]⟩
abbrev S1024x128 : Shape := ⟨2, ![1024, 128]⟩
abbrev S262144 : Shape := ⟨1, ![262144]⟩
abbrev S131072 : Shape := ⟨1, ![131072]⟩
abbrev S1024 : Shape := ⟨1, ![1024]⟩
abbrev S416x1024 : Shape := ⟨2, ![416, 1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩
abbrev S131072x1 : Shape := ⟨2, ![131072, 1]⟩
abbrev S131072x32 : Shape := ⟨2, ![131072, 32]⟩
abbrev S131072x128 : Shape := ⟨2, ![131072, 128]⟩
abbrev S1023 : Shape := ⟨1, ![1023]⟩
abbrev S1x1 : Shape := ⟨2, ![1, 1]⟩
abbrev S131072x416 : Shape := ⟨2, ![131072, 416]⟩
abbrev S131072x1024 : Shape := ⟨2, ![131072, 1024]⟩
abbrev S1x1024 : Shape := ⟨2, ![1, 1024]⟩

abbrev nBuf : Space → Nat
  | .hbm => 121
  | .vmem => 0
  | .smem => 0
  | _ => 0

abbrev bufTy : (tb : Table) → Fin (tcTables nBuf tb) → BufTy
  | .hbm, ⟨0, _⟩ => ⟨S262144x32, .f32⟩
  | .hbm, ⟨1, _⟩ => ⟨S262144x128, .f32⟩
  | .hbm, ⟨2, _⟩ => ⟨S1024x128, .f32⟩
  | .hbm, ⟨3, _⟩ => ⟨S1024x128, .f32⟩
  | .hbm, ⟨4, _⟩ => ⟨S262144, .i32⟩
  | .hbm, ⟨5, _⟩ => ⟨S131072, .i32⟩
  | .hbm, ⟨6, _⟩ => ⟨S1024, .i32⟩
  | .hbm, ⟨7, _⟩ => ⟨S416x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1, .f32⟩
  | .hbm, ⟨12, _⟩ => ⟨S1, .f32⟩
  | .hbm, ⟨13, _⟩ => ⟨S_, .i32⟩
  | .hbm, ⟨14, _⟩ => ⟨S131072, .i32⟩
  | .hbm, ⟨15, _⟩ => ⟨S131072, .i1⟩
  | .hbm, ⟨16, _⟩ => ⟨S_, .i32⟩
  | .hbm, ⟨17, _⟩ => ⟨S131072, .i32⟩
  | .hbm, ⟨18, _⟩ => ⟨S131072, .i32⟩
  | .hbm, ⟨19, _⟩ => ⟨S131072, .i32⟩
  | .hbm, ⟨20, _⟩ => ⟨S131072x1, .i32⟩
  | .hbm, ⟨21, _⟩ => ⟨S131072x32, .f32⟩
  | .hbm, ⟨22, _⟩ => ⟨S_, .i32⟩
  | .hbm, ⟨23, _⟩ => ⟨S131072, .i32⟩
  | .hbm, ⟨24, _⟩ => ⟨S131072, .i1⟩
  | .hbm, ⟨25, _⟩ => ⟨S_, .i32⟩
  | .hbm, ⟨26, _⟩ => ⟨S131072, .i32⟩
  | .hbm, ⟨27, _⟩ => ⟨S131072, .i32⟩
  | .hbm, ⟨28, _⟩ => ⟨S131072, .i32⟩
  | .hbm, ⟨29, _⟩ => ⟨S131072x1, .i32⟩
  | .hbm, ⟨30, _⟩ => ⟨S131072x128, .f32⟩
  | .hbm, ⟨31, _⟩ => ⟨S_, .i32⟩
  | .hbm, ⟨32, _⟩ => ⟨S131072, .i32⟩
  | .hbm, ⟨33, _⟩ => ⟨S131072, .i1⟩
  | .hbm, ⟨34, _⟩ => ⟨S_, .i32⟩
  | .hbm, ⟨35, _⟩ => ⟨S131072, .i32⟩
  | .hbm, ⟨36, _⟩ => ⟨S131072, .i32⟩
  | .hbm, ⟨37, _⟩ => ⟨S131072, .i32⟩
  | .hbm, ⟨38, _⟩ => ⟨S131072x1, .i32⟩
  | .hbm, ⟨39, _⟩ => ⟨S131072, .i32⟩
  | .hbm, ⟨40, _⟩ => ⟨S_, .i32⟩
  | .hbm, ⟨41, _⟩ => ⟨S131072, .i32⟩
  | .hbm, ⟨42, _⟩ => ⟨S131072, .i1⟩
  | .hbm, ⟨43, _⟩ => ⟨S_, .i32⟩
  | .hbm, ⟨44, _⟩ => ⟨S131072, .i32⟩
  | .hbm, ⟨45, _⟩ => ⟨S131072, .i32⟩
  | .hbm, ⟨46, _⟩ => ⟨S131072, .i32⟩
  | .hbm, ⟨47, _⟩ => ⟨S131072x1, .i32⟩
  | .hbm, ⟨48, _⟩ => ⟨S131072x128, .f32⟩
  | .hbm, ⟨49, _⟩ => ⟨S1, .i32⟩
  | .hbm, ⟨50, _⟩ => ⟨S1023, .i32⟩
  | .hbm, ⟨51, _⟩ => ⟨S1024, .i32⟩
  | .hbm, ⟨52, _⟩ => ⟨S_, .i32⟩
  | .hbm, ⟨53, _⟩ => ⟨S1, .i32⟩
  | .hbm, ⟨54, _⟩ => ⟨S_, .i32⟩
  | .hbm, ⟨55, _⟩ => ⟨S1024, .i32⟩
  | .hbm, ⟨56, _⟩ => ⟨S_, .i32⟩
  | .hbm, ⟨57, _⟩ => ⟨S_, .i32⟩
  | .hbm, ⟨58, _⟩ => ⟨S1024, .i32⟩
  | .hbm, ⟨59, _⟩ => ⟨S_, .i32⟩
  | .hbm, ⟨60, _⟩ => ⟨S131072, .i32⟩
  | .hbm, ⟨61, _⟩ => ⟨S_, .i32⟩
  | .hbm, ⟨62, _⟩ => ⟨S1024, .i32⟩
  | .hbm, ⟨63, _⟩ => ⟨S1024, .i1⟩
  | .hbm, ⟨64, _⟩ => ⟨S_, .i32⟩
  | .hbm, ⟨65, _⟩ => ⟨S1024, .i32⟩
  | .hbm, ⟨66, _⟩ => ⟨S1024, .i32⟩
  | .hbm, ⟨67, _⟩ => ⟨S1024, .i32⟩
  | .hbm, ⟨68, _⟩ => ⟨S1024x1, .i32⟩
  | .hbm, ⟨69, _⟩ => ⟨S_, .i32⟩
  | .hbm, ⟨70, _⟩ => ⟨S1024, .i32⟩
  | .hbm, ⟨71, _⟩ => ⟨S131072, .i32⟩
  | .hbm, ⟨72, _⟩ => ⟨S_, .i32⟩
  | .hbm, ⟨73, _⟩ => ⟨S_, .i32⟩
  | .hbm, ⟨74, _⟩ => ⟨S131072, .i32⟩
  | .hbm, ⟨75, _⟩ => ⟨S_, .i32⟩
  | .hbm, ⟨76, _⟩ => ⟨S131072, .i32⟩
  | .hbm, ⟨77, _⟩ => ⟨S131072, .i32⟩
  | .hbm, ⟨78, _⟩ => ⟨S_, .i32⟩
  | .hbm, ⟨79, _⟩ => ⟨S131072, .i32⟩
  | .hbm, ⟨80, _⟩ => ⟨S131072, .i1⟩
  | .hbm, ⟨81, _⟩ => ⟨S_, .i32⟩
  | .hbm, ⟨82, _⟩ => ⟨S131072, .i32⟩
  | .hbm, ⟨83, _⟩ => ⟨S131072, .i32⟩
  | .hbm, ⟨84, _⟩ => ⟨S131072, .i32⟩
  | .hbm, ⟨85, _⟩ => ⟨S131072x1, .i32⟩
  | .hbm, ⟨86, _⟩ => ⟨S1, .i32⟩
  | .hbm, ⟨87, _⟩ => ⟨S_, .i32⟩
  | .hbm, ⟨88, _⟩ => ⟨S131072x1, .i32⟩
  | .hbm, ⟨89, _⟩ => ⟨S131072x1, .i1⟩
  | .hbm, ⟨90, _⟩ => ⟨S1x1, .i32⟩
  | .hbm, ⟨91, _⟩ => ⟨S131072x1, .i32⟩
  | .hbm, ⟨92, _⟩ => ⟨S131072x1, .i1⟩
  | .hbm, ⟨93, _⟩ => ⟨S131072x1, .i1⟩
  | .hbm, ⟨94, _⟩ => ⟨S_, .i1⟩
  | .hbm, ⟨95, _⟩ => ⟨S131072, .i1⟩
  | .hbm, ⟨96, _⟩ => ⟨S131072x128, .f32⟩
  | .hbm, ⟨97, _⟩ => ⟨S131072x128, .i1⟩
  | .hbm, ⟨98, _⟩ => ⟨S_, .f32⟩
  | .hbm, ⟨99, _⟩ => ⟨S131072x128, .f32⟩
  | .hbm, ⟨100, _⟩ => ⟨S131072x128, .f32⟩
  | .hbm, ⟨101, _⟩ => ⟨S131072x416, .f32⟩
  | .hbm, ⟨102, _⟩ => ⟨S131072x1024, .f32⟩
  | .hbm, ⟨103, _⟩ => ⟨S1x1024, .f32⟩
  | .hbm, ⟨104, _⟩ => ⟨S131072x1024, .f32⟩
  | .hbm, ⟨105, _⟩ => ⟨S131072x1024, .f32⟩
  | .hbm, ⟨106, _⟩ => ⟨S_, .f32⟩
  | .hbm, ⟨107, _⟩ => ⟨S131072x1024, .f32⟩
  | .hbm, ⟨108, _⟩ => ⟨S131072x1024, .f32⟩
  | .hbm, ⟨109, _⟩ => ⟨S131072x1024, .f32⟩
  | .hbm, ⟨110, _⟩ => ⟨S1x1024, .f32⟩
  | .hbm, ⟨111, _⟩ => ⟨S131072x1024, .f32⟩
  | .hbm, ⟨112, _⟩ => ⟨S131072x1024, .f32⟩
  | .hbm, ⟨113, _⟩ => ⟨S_, .f32⟩
  | .hbm, ⟨114, _⟩ => ⟨S131072x1024, .f32⟩
  | .hbm, ⟨115, _⟩ => ⟨S131072x1024, .f32⟩
  | .hbm, ⟨116, _⟩ => ⟨S131072x1, .f32⟩
  | .hbm, ⟨117, _⟩ => ⟨S1x1, .f32⟩
  | .hbm, ⟨118, _⟩ => ⟨S131072x1, .f32⟩
  | .hbm, ⟨119, _⟩ => ⟨S131072x1, .f32⟩
  | .hbm, ⟨120, _⟩ => ⟨S131072, .f32⟩
  | _, _ => ⟨S262144x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call0_v0 : Ref sig .tc := ⟨.hbm, 49, rfl⟩
abbrev main_call0_v1 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_c_8 : Ref sig .tc := ⟨.hbm, 54, rfl⟩
abbrev main_v30 : Ref sig .tc := ⟨.hbm, 55, rfl⟩
abbrev main_call1_call0_c : Ref sig .tc := ⟨.hbm, 56, rfl⟩
abbrev main_call1_call0_v0 : Ref sig .tc := ⟨.hbm, 57, rfl⟩
abbrev main_v31 : Ref sig .tc := ⟨.hbm, 58, rfl⟩
abbrev main_c_9 : Ref sig .tc := ⟨.hbm, 59, rfl⟩
abbrev main_v32 : Ref sig .tc := ⟨.hbm, 60, rfl⟩
abbrev main_c_10 : Ref sig .tc := ⟨.hbm, 61, rfl⟩
abbrev main_v33 : Ref sig .tc := ⟨.hbm, 62, rfl⟩
abbrev main_v34 : Ref sig .tc := ⟨.hbm, 63, rfl⟩
abbrev main_c_11 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_12 : Ref sig .tc := ⟨.hbm, 69, rfl⟩
abbrev main_v39 : Ref sig .tc := ⟨.hbm, 70, rfl⟩
abbrev main_v40 : Ref sig .tc := ⟨.hbm, 71, rfl⟩
abbrev main_call2_call0_c : Ref sig .tc := ⟨.hbm, 72, rfl⟩
abbrev main_call2_call0_v0 : Ref sig .tc := ⟨.hbm, 73, rfl⟩
abbrev main_v41 : Ref sig .tc := ⟨.hbm, 74, rfl⟩
abbrev main_c_13 : Ref sig .tc := ⟨.hbm, 75, rfl⟩
abbrev main_v42 : Ref sig .tc := ⟨.hbm, 76, rfl⟩
abbrev main_v43 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_call3_cst : Ref sig .tc := ⟨.hbm, 98, rfl⟩
abbrev main_call3_v15 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_call4_cst : Ref sig .tc := ⟨.hbm, 106, rfl⟩
abbrev main_call4_v0 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_call5_cst : Ref sig .tc := ⟨.hbm, 113, rfl⟩
abbrev main_call5_v0 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  slices_S1024_S1_1023 : S1024.Slices ![1023] S1
  slices_S1024_S1023_0 : S1024.Slices ![0] S1023
  concatenates_S1_S1023_S1024_d0 : Shape.Concatenates [S1, S1023] S1024 0
  bcast_S_S1 : S_.BroadcastsInDim S1 (![] : Fin 0 → Fin S1.rank)
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  reduceWindows_S131072_S131072_w131072s1p131071_0 : S131072.ReduceWindows (![131072] : Fin 1 → Nat) ![1] ![131071] ![0] S131072
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  bcast_S131072_S131072x128_0 : S131072.BroadcastsInDim S131072x128 (![0] : Fin 1 → Fin S131072x128.rank)
  bcast_S_S131072x128 : S_.BroadcastsInDim S131072x128 (![] : Fin 0 → Fin S131072x128.rank)
  concatenates_S131072x32_S131072x128_S131072x128_S131072x128_S131072x416_d1 : Shape.Concatenates [S131072x32, S131072x128, S131072x128, S131072x128] S131072x416 1
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  bcast_S_S131072x1024 : S_.BroadcastsInDim S131072x1024 (![] : Fin 0 → Fin S131072x1024.rank)
  shapeCasts_S131072x1_S131072 : S131072x1.ShapeCasts S131072
  gather_S262144x32_S131072x1_S131072x32_1_0_n_n_0_1_132_wf : GatherDims.WF S262144x32 S131072x1 S131072x32 [1] [0] [] [0] [] 1 ![1, 32]
  gather_S262144x128_S131072x1_S131072x128_1_0_n_n_0_1_1128_wf : GatherDims.WF S262144x128 S131072x1 S131072x128 [1] [0] [] [0] [] 1 ![1, 128]
  gather_S262144_S131072x1_S131072_n_0_n_n_0_1_1_wf : GatherDims.WF S262144 S131072x1 S131072 [] [0] [] [0] [] 1 ![1]
  gather_S1024x128_S131072x1_S131072x128_1_0_n_n_0_1_1128_wf : GatherDims.WF S1024x128 S131072x1 S131072x128 [1] [0] [] [0] [] 1 ![1, 128]
  scatter_S1024_S1_S__n_0_0_0_wf : ScatterDims.WF S1024 S1 S_ [] [0] [0] 0
  scatter_S131072_S1024x1_S1024_n_0_0_1_wf : ScatterDims.WF S131072 S1024x1 S1024 [] [0] [0] 1
  dot_S131072x416_S416x1024_S131072x1024_1_0_0_1_n_n_wf : DotDims.WF S131072x416 S416x1024 S131072x1024 [1] [0] [0] [1] [] []
  dot_S131072x1024_S1024x1024_S131072x1024_1_0_0_1_n_n_wf : DotDims.WF S131072x1024 S1024x1024 S131072x1024 [1] [0] [0] [1] [] []
  dot_S131072x1024_S1024x1_S131072x1_1_0_0_1_n_n_wf : DotDims.WF S131072x1024 S1024x1 S131072x1 [1] [0] [0] [1] [] []

variable [Facts₀]

def gather_S262144x32_S131072x1_S131072x32_1_0_n_n_0_1_132 : GatherDims S262144x32 S131072x1 S131072x32 where
  offsetDims := [1]
  collapsedSliceDims := [0]
  operandBatchingDims := []
  startIndicesBatchingDims := []
  startIndexMap := [0]
  indexVectorDim := 1
  sliceSizes := ![1, 32]
  wf := gather_S262144x32_S131072x1_S131072x32_1_0_n_n_0_1_132_wf
def gather_S262144x128_S131072x1_S131072x128_1_0_n_n_0_1_1128 : GatherDims S262144x128 S131072x1 S131072x128 where
  offsetDims := [1]
  collapsedSliceDims := [0]
  operandBatchingDims := []
  startIndicesBatchingDims := []
  startIndexMap := [0]
  indexVectorDim := 1
  sliceSizes := ![1, 128]
  wf := gather_S262144x128_S131072x1_S131072x128_1_0_n_n_0_1_1128_wf
def gather_S262144_S131072x1_S131072_n_0_n_n_0_1_1 : GatherDims S262144 S131072x1 S131072 where
  offsetDims := []
  collapsedSliceDims := [0]
  operandBatchingDims := []
  startIndicesBatchingDims := []
  startIndexMap := [0]
  indexVectorDim := 1
  sliceSizes := ![1]
  wf := gather_S262144_S131072x1_S131072_n_0_n_n_0_1_1_wf
def gather_S1024x128_S131072x1_S131072x128_1_0_n_n_0_1_1128 : GatherDims S1024x128 S131072x1 S131072x128 where
  offsetDims := [1]
  collapsedSliceDims := [0]
  operandBatchingDims := []
  startIndicesBatchingDims := []
  startIndexMap := [0]
  indexVectorDim := 1
  sliceSizes := ![1, 128]
  wf := gather_S1024x128_S131072x1_S131072x128_1_0_n_n_0_1_1128_wf
def scatter_S1024_S1_S__n_0_0_0 : ScatterDims S1024 S1 S_ where
  updateWindowDims := []
  insertedWindowDims := [0]
  scatterDimsToOperandDims := [0]
  indexVectorDim := 0
  wf := scatter_S1024_S1_S__n_0_0_0_wf
def scatter_S131072_S1024x1_S1024_n_0_0_1 : ScatterDims S131072 S1024x1 S1024 where
  updateWindowDims := []
  insertedWindowDims := [0]
  scatterDimsToOperandDims := [0]
  indexVectorDim := 1
  wf := scatter_S131072_S1024x1_S1024_n_0_0_1_wf
def dot_S131072x416_S416x1024_S131072x1024_1_0_0_1_n_n : DotDims S131072x416 S416x1024 S131072x1024 where
  lhsContracting := [1]
  rhsContracting := [0]
  lhsNonContracting := [0]
  rhsNonContracting := [1]
  lhsBatch := []
  rhsBatch := []
  wf := dot_S131072x416_S416x1024_S131072x1024_1_0_0_1_n_n_wf
def dot_S131072x1024_S1024x1024_S131072x1024_1_0_0_1_n_n : DotDims S131072x1024 S1024x1024 S131072x1024 where
  lhsContracting := [1]
  rhsContracting := [0]
  lhsNonContracting := [0]
  rhsNonContracting := [1]
  lhsBatch := []
  rhsBatch := []
  wf := dot_S131072x1024_S1024x1024_S131072x1024_1_0_0_1_n_n_wf
def dot_S131072x1024_S1024x1_S131072x1_1_0_0_1_n_n : DotDims S131072x1024 S1024x1 S131072x1 where
  lhsContracting := [1]
  rhsContracting := [0]
  lhsNonContracting := [0]
  rhsNonContracting := [1]
  lhsBatch := []
  rhsBatch := []
  wf := dot_S131072x1024_S1024x1_S131072x1_1_0_0_1_n_n_wf

class Facts : Prop extends Facts₀ where

variable [Facts]
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«157430_j12979391169442_2_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.LibGatherScatterRows.lean ====
import Idealize.ShloMosaic.Lib.ValueIdx

/-!
# Gather and scatter of whole rows, and gather of flat entries

Three literal records of StableHLO gather / scatter dimension numbers over generic extents, with what the
operation reads or writes at an index: taking whole rows of a matrix, taking entries of a flat array, and
scattering whole rows into a matrix.
-/

noncomputable section

namespace Idealize.ShloMosaic.ValueIdx

open Idealize.ShloMosaic

/-! ## Scattering whole rows: operand `[N, C]`, scatter indices `[E, 1]`, updates `[E, C]` -/

section ScatterRows

/-- The dimension numbers for scattering rows: update window axis `1`, inserted window axis `0`, the single
    component of a scatter index names operand axis `0`, the index vector on axis `1`. -/
abbrev rowsScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update element `j` that lands on operand element `i` has its scatter index `idx[j₀, 0]`, read signed and
    not clamped, equal to the row `i₀`. -/
theorem scatter_rows_row {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowsScatterDims N E C wf).resultIdx? j idx = some i) :
    (idx (ix2 (j 0) ⟨0, Nat.one_pos⟩)).toInt = ((i 0).val : Int) := by
  unfold ScatterDims.resultIdx? at h
  split at h
  · rename_i hall
    have h0 : ((rowsScatterDims N E C wf).start j idx 0 + (rowsScatterDims N E C wf).window j 0).toNat = (i 0).val :=
      congrArg (fun f : (⟨2, ![N, C]⟩ : Shape).Idx => (f 0).val) (Option.some.inj h)
    have hw : (rowsScatterDims N E C wf).window j 0 = 0 := by
      unfold ScatterDims.window
      rw [dif_neg]
      simp [ScatterDims.sKept, Shape.kept, List.mem_filter]
    have hs : (rowsScatterDims N E C wf).start j idx 0 = (idx (ix2 (j 0) ⟨0, Nat.one_pos⟩)).toInt := by
      unfold ScatterDims.start
      rw [dif_pos (show (0 : Fin 2) ∈ (rowsScatterDims N E C wf).scatterDimsToOperandDims from
        List.mem_singleton.mpr rfl)]
      have hsi : (rowsScatterDims N E C wf).siIdx j
          ⟨List.idxOf (0 : Fin 2) (rowsScatterDims N E C wf).scatterDimsToOperandDims,
            List.idxOf_lt_length_iff.2 (List.mem_singleton.mpr rfl)⟩ = ix2 (j 0) ⟨0, Nat.one_pos⟩ := by
        funext b; refine Fin.ext ?_
        match b with
        | ⟨0, _⟩ => rfl
        | ⟨1, _⟩ => rfl
      rw [hsi]
      rfl
    have hnn := (hall 0).1
    rw [hs, hw] at hnn h0
    simp only [Nat.cast_zero, Int.add_zero] at hnn h0
    rw [← h0, Int.toNat_of_nonneg hnn]
  · exact absurd h (by simp)

end ScatterRows

/-! ## Taking whole rows: operand `[N, C]`, start indices `[E, 1]`, result `[E, C]` -/

section GatherRows
variable {α : Type}

/-- The dimension numbers for taking rows: offset axis `1`, collapsed operand axis `0`, the single component of a
    start index names operand axis `0`, the index vector on axis `1`, slices of one row by all `C` columns. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result element `(e, c)` of the row gather is the operand at row `idx[e, 0]`, read signed and clamped into
    `[0, N − 1]`, and column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGatherDims N E C wf) x idx (ix2 e c) =
      x (ix2 ⟨min (idx (ix2 e ⟨0, Nat.one_pos⟩)).toInt.toNat (N - 1), by omega⟩ c) := by
  have h0 : ((rowsGatherDims N E C wf).operandIdx (ix2 e c) idx (0 : Fin 2)).val =
      min (idx (ix2 e ⟨0, Nat.one_pos⟩)).toInt.toNat (N - 1) := by
    show (rowsGatherDims N E C wf).start (ix2 e c) idx 0 + (rowsGatherDims N E C wf).batchCoord (ix2 e c) 0
      + (rowsGatherDims N E C wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e c)
        ⟨List.idxOf (0 : Fin 2) (rowsGatherDims N E C wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  have h1 : ((rowsGatherDims N E C wf).operandIdx (ix2 e c) idx (1 : Fin 2)).val = c.val := by
    show (rowsGatherDims N E C wf).start (ix2 e c) idx 1 + (rowsGatherDims N E C wf).batchCoord (ix2 e c) 1
      + (rowsGatherDims N E C wf).offCoord (ix2 e c) 1 = _
    have hst : (rowsGatherDims N E C wf).start (ix2 e c) idx (1 : Fin 2) = 0 := by
      unfold GatherDims.start
      rw [dif_neg (fun h => absurd (show (1 : Nat) = 0 from congrArg Fin.val (List.mem_singleton.mp h)) Nat.one_ne_zero)]
    have hk : (1 : Fin 2) ∈ (rowsGatherDims N E C wf).sKept :=
      (GatherDims.mem_sKept _ _).mpr ⟨(fun h => absurd (show (1 : Nat) = 0 from congrArg Fin.val (List.mem_singleton.mp h)) Nat.one_ne_zero), List.not_mem_nil⟩
    have hoff : (rowsGatherDims N E C wf).offCoord (ix2 e c) (1 : Fin 2) = c.val := by
      unfold GatherDims.offCoord
      rw [dif_pos hk]
      rfl
    rw [GatherDims.batchCoord_eq_zero _ _ _ List.not_mem_nil, hst, hoff, Nat.add_zero, Nat.zero_add]
  unfold Host.gather
  congr 1
  funext a
  refine Fin.ext ?_
  match a with
  | ⟨0, _⟩ => exact h0
  | ⟨1, _⟩ => exact h1

end GatherRows

/-! ## Taking entries of a flat array: operand `[N]`, start indices `[E, 1]`, result `[E]` -/

section GatherFlat
variable {α : Type}

/-- The dimension numbers for taking entries: no offset axis, collapsed operand axis `0`, the single component of
    a start index names operand axis `0`, the index vector on axis `1`, slices of one entry. -/
abbrev flatGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` of the flat gather is the operand at position `idx[e, 0]`, read signed and clamped into
    `[0, N − 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGatherDims N E wf) x idx (ix1 e) =
      x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (flatGatherDims N E wf).start (ix1 e) idx 0 + (flatGatherDims N E wf).batchCoord (ix1 e) 0
    + (flatGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx (ix1 e)
      ⟨List.idxOf (0 : Fin 1) (flatGatherDims N E wf).startIndexMap,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end GatherFlat

end Idealize.ShloMosaic.ValueIdx

end
-- ==== Proof.LibBroadcastEntry.lean ====
/-
  Broadcasts of small shapes read at one entry, for the shapes a dense layer with a per-row factor and a per-column
  bias meets:

  * a column `[a, 1]` broadcast over the columns of `[a, b]` — by `vector.broadcast` and by the host's
    `broadcast_in_dim` along `[0, 1]` — reads, at `(p, c)`, the column's entry `(p, 0)`;
  * a row `[1, b]` broadcast over the rows of `[a, b]` by `broadcast_in_dim` along `[0, 1]` reads, at `(p, c)`, the
    row's entry `(0, c)`;
  * a vector `[b]` placed as the row of `[1, b]` by `broadcast_in_dim` along `[1]` reads, at `(u, c)`, the vector's
    entry `c`;
  * a scalar broadcast to any shape reads the scalar everywhere.
-/
import Idealize.ShloMosaic.Lib.ValueLayout
import Idealize.ShloMosaic.Lib.Pipeline.Value

namespace Idealize.ShloMosaic.ValueIdx

variable {α : Type}

/-- A `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[a, 1]` column along `[0, 1]` to `[a, b]` reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[1, b]` row along `[0, 1]` to `[a, b]` reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's placing of a `[b]` vector as the row of `[1, b]` (along `[1]`) reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- The host's broadcast of a scalar to any shape reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

end Idealize.ShloMosaic.ValueIdx
-- ==== Proof.LibDenseRows.lean ====
/-
  Dense layers on extended-real matrices indexed by literal rank-2 shapes, and their row-locality.

  * `mm a b`: rows times columns, entry `(p, q)` is `Σ_k a[p, k] · b[k, q]`; `dense x W b`: `x · W` plus the bias row `b` (a
    `[1, N]` matrix) added to every row; `silu z = z · logistic z`; `mlp x W₁ b₁ W₂ b₂ = dense (silu ∘ dense x W₁ b₁) W₂ b₂`;
    `row v`: a vector as a one-row matrix.
  * ROW-LOCALITY (`mm_rows`, `dense_rows`, `mlp_rows`, `mm_at`): row `p` of the result depends on row `p` of the left
    operand only — so a tile of rows is computed from the same tile of the operand, and a selection of rows may be
    taken before or after a product: `mm_gather_rows`, `(h · W)[r] = h[r] · W` for a row gather with any start indices.
  * A matrix-unit product into a zero accumulator (`matmul_eq_mm`) and the host's general product (`dotGeneral_eq_mm`,
    `host_dot_eq_mm`) are both `mm`; a kernel body's dense layer over a broadcast bias row is `dense` (`dense_vec`), its
    `x · logistic x` is `silu` (`silu_vec`); the host's dense layer with the bias vector broadcast twice is `dense … (row b)`
    (`host_dense`), jax's expansion `z · (1 / (1 + e^(−z)))` is `silu` (`host_silu`), a bias vector reshaped to one row is
    `row` (`shapeCast_row`). Generic extents throughout.
-/
import proofs.«157430_j12979391169442_2_alg».proof.Proof.LibDotGeneralEntry
import proofs.«157430_j12979391169442_2_alg».proof.Proof.LibGatherScatterRows
import proofs.«157430_j12979391169442_2_alg».proof.Proof.LibBroadcastEntry

noncomputable section

open scoped BigOperators

namespace Cert.Spec

open Idealize.ShloMosaic Idealize.ShloMosaic.ValueIdx

/-- An `M × N` matrix of extended reals, indexed as the printed programs index a rank-2 array. -/
abbrev Mat (M N : Nat) : Type := (⟨2, ![M, N]⟩ : Shape).Idx → EReal

/-- Rows times columns. -/
def mm {M K N : Nat} (a : Mat M K) (b : Mat K N) : Mat M N :=
  fun i => ∑ k : Fin K, a (ix2 (i 0) k) * b (ix2 k (i 1))

theorem mm_ix2 {M K N : Nat} (a : Mat M K) (b : Mat K N) (p : Fin M) (q : Fin N) :
    mm a b (ix2 p q) = ∑ k : Fin K, a (ix2 p k) * b (ix2 k q) := rfl

/-- The sigmoid-weighted unit. -/
def silu (z : EReal) : EReal := z * Ideal.logistic z

/-- A dense layer: the product plus a bias row. -/
def dense {M K N : Nat} (x : Mat M K) (W : Mat K N) (b : Mat 1 N) : Mat M N :=
  fun i => mm x W i + b (ix2 (0 : Fin 1) (i 1))

/-- Two dense layers with the sigmoid-weighted unit between them. -/
def mlp {M K H N : Nat} (x : Mat M K) (W₁ : Mat K H) (b₁ : Mat 1 H) (W₂ : Mat H N) (b₂ : Mat 1 N) : Mat M N :=
  dense (fun i => silu (dense x W₁ b₁ i)) W₂ b₂

/-- A vector laid out as a one-row matrix. -/
def row {N : Nat} (v : (⟨1, ![N]⟩ : Shape).Idx → EReal) : Mat 1 N := fun j => v (ix1 (j 1))

/-! ## Row-locality -/

theorem mm_rows {M M' K N : Nat} (a : Mat M K) (a' : Mat M' K) (b : Mat K N) (p : Fin M) (p' : Fin M') (q : Fin N)
    (h : ∀ k, a (ix2 p k) = a' (ix2 p' k)) : mm a b (ix2 p q) = mm a' b (ix2 p' q) := by
  rw [mm_ix2, mm_ix2]
  exact Finset.sum_congr rfl fun k _ => by rw [h k]

theorem dense_rows {M M' K N : Nat} (x : Mat M K) (x' : Mat M' K) (W : Mat K N) (b : Mat 1 N) (p : Fin M) (p' : Fin M')
    (q : Fin N) (h : ∀ k, x (ix2 p k) = x' (ix2 p' k)) : dense x W b (ix2 p q) = dense x' W b (ix2 p' q) := by
  show mm x W (ix2 p q) + _ = mm x' W (ix2 p' q) + _
  rw [mm_rows x x' W p p' q h]
  rfl

theorem mlp_rows {M M' K H N : Nat} (x : Mat M K) (x' : Mat M' K) (W₁ : Mat K H) (b₁ : Mat 1 H) (W₂ : Mat H N)
    (b₂ : Mat 1 N) (p : Fin M) (p' : Fin M') (q : Fin N) (h : ∀ k, x (ix2 p k) = x' (ix2 p' k)) :
    mlp x W₁ b₁ W₂ b₂ (ix2 p q) = mlp x' W₁ b₁ W₂ b₂ (ix2 p' q) :=
  dense_rows _ _ W₂ b₂ p p' q fun k => by
    show silu (dense x W₁ b₁ (ix2 p k)) = silu (dense x' W₁ b₁ (ix2 p' k))
    rw [dense_rows x x' W₁ b₁ p p' k h]

/-! ## Row-locality, between a tile's entry and the array's entry it sits at -/

theorem mm_at {B M K N : Nat} (xb : Mat B K) (x : Mat M K) (W : Mat K N) (j : (⟨2, ![B, N]⟩ : Shape).Idx)
    (i : (⟨2, ![M, N]⟩ : Shape).Idx) (hq : i 1 = j 1) (hx : ∀ k, xb (ix2 (j 0) k) = x (ix2 (i 0) k)) :
    mm xb W j = mm x W i := by
  obtain ⟨p, q, rfl⟩ : ∃ (p : Fin B) (q : Fin N), j = ix2 p q := ⟨j 0, j 1, eq_ix2 j⟩
  obtain ⟨p', q', rfl⟩ : ∃ (p' : Fin M) (q' : Fin N), i = ix2 p' q' := ⟨i 0, i 1, eq_ix2 i⟩
  have e : q' = q := hq
  subst e
  exact mm_rows xb x W p p' q' hx

/-! ## The two matrix products of the programs are `mm` -/

/-- The matrix unit's product of two matrices into the zero accumulator. -/
theorem matmul_eq_mm {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂) :
    FloatOps.matmul D prec a b (constant ⟨2, ![M, N]⟩ .f32 0x00000000#32) = mm a b := by
  funext i
  rw [eq_ix2 i]
  exact Ideal.matmul_rows_cols D hlb hln hlc hrb hrn hrc prec a b (i 0) (i 1)

/-- The host's general product of two matrices. -/
theorem dotGeneral_eq_mm {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁)
    (b : FVec Ideal ⟨2, ![K, N]⟩ φ₂) :
    FloatOps.dotGeneral D prec sched a b = mm a b := by
  funext i
  rw [eq_ix2 i]
  exact Ideal.dotGeneral_rows_cols D hlb hln hlc hrb hrn hrc prec sched a b (i 0) (i 1)

/-- The same, in the spelling a printed host line has. -/
theorem host_dot_eq_mm {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (a : FVec Ideal ⟨2, ![M, K]⟩ φ₁) (b : FVec Ideal ⟨2, ![K, N]⟩ φ₂) :
    Host.dotGeneral D none a b = mm a b :=
  dotGeneral_eq_mm D hlb hln hlc hrb hrn hrc none .single a b

/-! ## Selecting rows commutes with a product on the right -/

/-- Rows taken out of a product are the product of the rows taken: `(h · W)[r(e)] = (h[r(·)] · W)[e]`, whatever the
    row selection `r` the start indices denote (read signed, clamped into the table). -/
theorem mm_gather_rows {N E C C' w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (h : Mat N C) (W : Mat C C') (idx : IVec ⟨2, ![E, 1]⟩ w) :
    Host.gather (rowsGatherDims N E C' wf') (mm h W) idx = mm (Host.gather (rowsGatherDims N E C wf) h idx) W := by
  funext i
  obtain ⟨e, c, rfl⟩ : ∃ (e : Fin E) (c : Fin C'), i = ix2 e c := ⟨i 0, i 1, eq_ix2 i⟩
  rw [gather_rows_apply hN wf' (mm h W) idx e c, mm_ix2, mm_ix2]
  exact Finset.sum_congr rfl fun k _ => by rw [gather_rows_apply hN wf h idx e k]

/-! ## A kernel body's dense layer and its sigmoid-weighted unit, as whole tiles -/

/-- The matrix unit's product into the zero accumulator plus a bias row broadcast over the tile's rows. -/
theorem dense_vec {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) :
    addf (FloatOps.matmul D none x W (constant ⟨2, ![M, N]⟩ .f32 0x00000000#32)) (broadcastTo ⟨2, ![M, N]⟩ b hb)
      = dense x W b := by
  rw [matmul_eq_mm D hlb hln hlc hrb hrn hrc]
  funext i
  obtain ⟨p, q, rfl⟩ : ∃ (p : Fin M) (q : Fin N), i = ix2 p q := ⟨i 0, i 1, eq_ix2 i⟩
  show mm x W (ix2 p q) + broadcastTo ⟨2, ![M, N]⟩ b hb (ix2 p q) = mm x W (ix2 p q) + b (ix2 (0 : Fin 1) q)
  rw [broadcastTo_1b_ab_apply]

/-- A tile times its logistic, entry by entry. -/
theorem silu_vec {s : Shape} (z : FVec Ideal s .f32) : mulf z (logistic z) = fun i => silu (z i) := rfl

/-! ## The reference's spelling of the sigmoid-weighted unit and of a bias -/

/-- `1` as the programs write it. -/
theorem ofBits_one : Ideal.ofBits .f32 0x3F800000#32 = (1 : EReal) := by
  simp [Ideal.ofBits, Ideal.ieee, -EReal.coe_mul]; norm_num

/-- jax's expansion `z · (1 / (1 + e^(−z)))` on the host is the sigmoid-weighted unit. -/
theorem host_silu {s : Shape} (z : FVec Ideal s .f32) (h1 : (⟨0, ![]⟩ : Shape).BroadcastsInDim s ![]) :
    mulf z (Host.divf (broadcastInDim s ![] h1 (constant (F := Ideal) ⟨0, ![]⟩ .f32 0x3F800000#32))
      (addf (broadcastInDim s ![] h1 (constant (F := Ideal) ⟨0, ![]⟩ .f32 0x3F800000#32)) (Host.exp (Host.negf z))))
      = fun i => silu (z i) := by
  funext i
  have e1 : broadcastInDim s ![] h1 (constant (F := Ideal) ⟨0, ![]⟩ .f32 0x3F800000#32) i = (1 : EReal) := by
    rw [broadcastInDim_scalar_apply]
    exact ofBits_one
  show z i * Ideal.div (broadcastInDim s ![] h1 (constant (F := Ideal) ⟨0, ![]⟩ .f32 0x3F800000#32) i)
      (broadcastInDim s ![] h1 (constant (F := Ideal) ⟨0, ![]⟩ .f32 0x3F800000#32) i + Ideal.exp (-(z i))) = silu (z i)
  rw [e1]
  rfl

/-- The host's dense layer: the general product plus the bias vector broadcast as a row over every row. -/
theorem host_dense {M K N : Nat} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D none x W) (broadcastInDim ⟨2, ![M, N]⟩ ![0, 1] h2 (broadcastInDim ⟨2, ![1, N]⟩ ![1] h1 b))
      = dense x W (row b) := by
  funext i
  show FloatOps.dotGeneral D none .single x W i + _ = mm x W i + row b (ix2 (0 : Fin 1) (i 1))
  rw [dotGeneral_eq_mm D hlb hln hlc hrb hrn hrc]
  refine congrArg (mm x W i + ·) ?_
  obtain ⟨p, q, rfl⟩ : ∃ (p : Fin M) (q : Fin N), i = ix2 p q := ⟨i 0, i 1, eq_ix2 i⟩
  rw [broadcastInDim_1b_ab_apply, broadcastInDim_b_1b_apply]
  rfl

/-- A bias vector reshaped to one row is that row. -/
theorem shapeCast_row {N : Nat} (b : (⟨1, ![N]⟩ : Shape).Idx → EReal) (h : (⟨1, ![N]⟩ : Shape).ShapeCasts ⟨2, ![1, N]⟩) :
    shapeCast ⟨2, ![1, N]⟩ b h = row b := by
  funext j
  obtain ⟨u, q, rfl⟩ : ∃ (u : Fin 1) (q : Fin N), j = ix2 u q := ⟨j 0, j 1, eq_ix2 j⟩
  rw [shapeCast_a_1a_apply]
  rfl

end Cert.Spec

end
-- ==== Proof.StageNet.lean ====
/-
  The three-layer rectified network on extended-real matrices, in the two arrangements the two programs use.

  * `relu z = max z 0`, `layer x W b = relu ∘ (x · W + b)` (the bias a one-row matrix added to every row), and
    `net X W₁ b₁ W₂ b₂ W₃ b₃ = layer (layer X W₁ b₁) W₂ b₂ · W₃ + b₃`: the first layer over ONE input matrix.
  * `first4`: the first layer over FOUR input matrices side by side, each multiplied by its own group of rows of the
    weight — `relu (x₀ · Wₐ + x₁ · W_b + x₂ · W_c + x₃ · W_d + b)` — and `net4`, the network over it.
  * `mm_split4`: a product whose inner extent is `a + b + c + d` is the sum of the four products over the four
    consecutive groups of columns of the left factor and of rows of the right one.  Only the sum over the inner index
    is regrouped (addition of extended reals is commutative and associative); no term is moved across a product, so
    nothing need be finite.  `first4_eq_layer`, `net4_eq_net`: hence the two arrangements agree.
  * Row-locality (`first4_rows`, `layer_rows`, `net4_rows`): row `p` of the result depends on row `p` of the
    inputs only, so a tile of rows of the result is computed from the same tile of rows of the inputs.
-/
import proofs.«157430_j12979391169442_2_alg».proof.Proof.LibDenseRows

noncomputable section

open scoped BigOperators

namespace Cert.StageNet

open Idealize.ShloMosaic Idealize.ShloMosaic.ValueIdx Cert.Spec

/-- The rectifier, against the zero the programs write. -/
def relu (z : EReal) : EReal := max z (FloatOps.ofBits (F := Ideal) .f32 0x00000000#32)

/-- A rectified dense layer. -/
def layer {M K N : Nat} (x : Mat M K) (W : Mat K N) (b : Mat 1 N) : Mat M N := fun i => relu (dense x W b i)

/-- The network over one input matrix. -/
def net {M K H N : Nat} (X : Mat M K) (W₁ : Mat K H) (b₁ : Mat 1 H) (W₂ : Mat H H) (b₂ : Mat 1 H) (W₃ : Mat H N)
    (b₃ : Mat 1 N) : Mat M N :=
  dense (layer (layer X W₁ b₁) W₂ b₂) W₃ b₃

/-- The first layer over four input matrices side by side, each against its own rows of the weight. -/
def first4 {M a b c d H : Nat} (x₀ : Mat M a) (x₁ : Mat M b) (x₂ : Mat M c) (x₃ : Mat M d) (Wa : Mat a H) (Wb : Mat b H)
    (Wc : Mat c H) (Wd : Mat d H) (b₁ : Mat 1 H) : Mat M H :=
  fun i => relu ((((mm x₀ Wa i + mm x₁ Wb i) + mm x₂ Wc i) + mm x₃ Wd i) + b₁ (ix2 (0 : Fin 1) (i 1)))

/-- The network over four input matrices side by side. -/
def net4 {M a b c d H N : Nat} (x₀ : Mat M a) (x₁ : Mat M b) (x₂ : Mat M c) (x₃ : Mat M d) (Wa : Mat a H) (Wb : Mat b H)
    (Wc : Mat c H) (Wd : Mat d H) (b₁ : Mat 1 H) (W₂ : Mat H H) (b₂ : Mat 1 H) (W₃ : Mat H N) (b₃ : Mat 1 N) : Mat M N :=
  dense (layer (first4 x₀ x₁ x₂ x₃ Wa Wb Wc Wd b₁) W₂ b₂) W₃ b₃

/-! ## A sum over `a + b + c + d` indices, in four consecutive groups -/

theorem sum_split4 {α : Type} [AddCommMonoid α] (a b c d : Nat) (f : Fin (a + b + c + d) → α) :
    ∑ j, f j = ((∑ k : Fin a, f (Fin.castAdd d (Fin.castAdd c (Fin.castAdd b k)))
        + ∑ k : Fin b, f (Fin.castAdd d (Fin.castAdd c (Fin.natAdd a k))))
        + ∑ k : Fin c, f (Fin.castAdd d (Fin.natAdd (a + b) k)))
        + ∑ k : Fin d, f (Fin.natAdd (a + b + c) k) := by
  rw [Fin.sum_univ_add, Fin.sum_univ_add, Fin.sum_univ_add]

/-- A product over an inner extent `a + b + c + d` is the sum of the products over the four groups. -/
theorem mm_split4 {M a b c d t N : Nat} (ht : t = a + b + c + d) (X : Mat M t) (W : Mat t N)
    (x₀ : Mat M a) (x₁ : Mat M b) (x₂ : Mat M c) (x₃ : Mat M d) (Wa : Mat a N) (Wb : Mat b N) (Wc : Mat c N) (Wd : Mat d N)
    (h₀ : ∀ (p : Fin M) (k : Fin a) (j : Fin t), j.val = k.val → X (ix2 p j) = x₀ (ix2 p k))
    (h₁ : ∀ (p : Fin M) (k : Fin b) (j : Fin t), j.val = a + k.val → X (ix2 p j) = x₁ (ix2 p k))
    (h₂ : ∀ (p : Fin M) (k : Fin c) (j : Fin t), j.val = a + b + k.val → X (ix2 p j) = x₂ (ix2 p k))
    (h₃ : ∀ (p : Fin M) (k : Fin d) (j : Fin t), j.val = a + b + c + k.val → X (ix2 p j) = x₃ (ix2 p k))
    (g₀ : ∀ (k : Fin a) (j : Fin t) (q : Fin N), j.val = k.val → W (ix2 j q) = Wa (ix2 k q))
    (g₁ : ∀ (k : Fin b) (j : Fin t) (q : Fin N), j.val = a + k.val → W (ix2 j q) = Wb (ix2 k q))
    (g₂ : ∀ (k : Fin c) (j : Fin t) (q : Fin N), j.val = a + b + k.val → W (ix2 j q) = Wc (ix2 k q))
    (g₃ : ∀ (k : Fin d) (j : Fin t) (q : Fin N), j.val = a + b + c + k.val → W (ix2 j q) = Wd (ix2 k q))
    (p : Fin M) (q : Fin N) :
    mm X W (ix2 p q) = ((mm x₀ Wa (ix2 p q) + mm x₁ Wb (ix2 p q)) + mm x₂ Wc (ix2 p q)) + mm x₃ Wd (ix2 p q) := by
  subst ht
  rw [mm_ix2, mm_ix2, mm_ix2, mm_ix2, mm_ix2, sum_split4]
  congr 1
  · congr 1
    · congr 1
      · exact Finset.sum_congr rfl fun k _ => by rw [h₀ p k _ rfl, g₀ k _ q rfl]
      · exact Finset.sum_congr rfl fun k _ => by rw [h₁ p k _ rfl, g₁ k _ q rfl]
    · exact Finset.sum_congr rfl fun k _ => by rw [h₂ p k _ rfl, g₂ k _ q rfl]
  · exact Finset.sum_congr rfl fun k _ => by rw [h₃ p k _ rfl, g₃ k _ q rfl]

/-- The first layer over four matrices side by side is the first layer over the joined matrix. -/
theorem first4_eq_layer {M a b c d t H : Nat} (ht : t = a + b + c + d) (X : Mat M t) (W : Mat t H) (b₁ : Mat 1 H)
    (x₀ : Mat M a) (x₁ : Mat M b) (x₂ : Mat M c) (x₃ : Mat M d) (Wa : Mat a H) (Wb : Mat b H) (Wc : Mat c H) (Wd : Mat d H)
    (h₀ : ∀ (p : Fin M) (k : Fin a) (j : Fin t), j.val = k.val → X (ix2 p j) = x₀ (ix2 p k))
    (h₁ : ∀ (p : Fin M) (k : Fin b) (j : Fin t), j.val = a + k.val → X (ix2 p j) = x₁ (ix2 p k))
    (h₂ : ∀ (p : Fin M) (k : Fin c) (j : Fin t), j.val = a + b + k.val → X (ix2 p j) = x₂ (ix2 p k))
    (h₃ : ∀ (p : Fin M) (k : Fin d) (j : Fin t), j.val = a + b + c + k.val → X (ix2 p j) = x₃ (ix2 p k))
    (g₀ : ∀ (k : Fin a) (j : Fin t) (q : Fin H), j.val = k.val → W (ix2 j q) = Wa (ix2 k q))
    (g₁ : ∀ (k : Fin b) (j : Fin t) (q : Fin H), j.val = a + k.val → W (ix2 j q) = Wb (ix2 k q))
    (g₂ : ∀ (k : Fin c) (j : Fin t) (q : Fin H), j.val = a + b + k.val → W (ix2 j q) = Wc (ix2 k q))
    (g₃ : ∀ (k : Fin d) (j : Fin t) (q : Fin H), j.val = a + b + c + k.val → W (ix2 j q) = Wd (ix2 k q)) :
    first4 x₀ x₁ x₂ x₃ Wa Wb Wc Wd b₁ = layer X W b₁ := by
  funext i
  obtain ⟨p, q, rfl⟩ : ∃ (p : Fin M) (q : Fin H), i = ix2 p q := ⟨i 0, i 1, eq_ix2 i⟩
  show relu (_ + b₁ (ix2 (0 : Fin 1) q)) = relu (mm X W (ix2 p q) + b₁ (ix2 (0 : Fin 1) q))
  rw [mm_split4 ht X W x₀ x₁ x₂ x₃ Wa Wb Wc Wd h₀ h₁ h₂ h₃ g₀ g₁ g₂ g₃ p q]

/-- Hence the two arrangements of the network agree. -/
theorem net4_eq_net {M a b c d t H N : Nat} (ht : t = a + b + c + d) (X : Mat M t) (W : Mat t H) (b₁ : Mat 1 H)
    (W₂ : Mat H H) (b₂ : Mat 1 H) (W₃ : Mat H N) (b₃ : Mat 1 N)
    (x₀ : Mat M a) (x₁ : Mat M b) (x₂ : Mat M c) (x₃ : Mat M d) (Wa : Mat a H) (Wb : Mat b H) (Wc : Mat c H) (Wd : Mat d H)
    (h₀ : ∀ (p : Fin M) (k : Fin a) (j : Fin t), j.val = k.val → X (ix2 p j) = x₀ (ix2 p k))
    (h₁ : ∀ (p : Fin M) (k : Fin b) (j : Fin t), j.val = a + k.val → X (ix2 p j) = x₁ (ix2 p k))
    (h₂ : ∀ (p : Fin M) (k : Fin c) (j : Fin t), j.val = a + b + k.val → X (ix2 p j) = x₂ (ix2 p k))
    (h₃ : ∀ (p : Fin M) (k : Fin d) (j : Fin t), j.val = a + b + c + k.val → X (ix2 p j) = x₃ (ix2 p k))
    (g₀ : ∀ (k : Fin a) (j : Fin t) (q : Fin H), j.val = k.val → W (ix2 j q) = Wa (ix2 k q))
    (g₁ : ∀ (k : Fin b) (j : Fin t) (q : Fin H), j.val = a + k.val → W (ix2 j q) = Wb (ix2 k q))
    (g₂ : ∀ (k : Fin c) (j : Fin t) (q : Fin H), j.val = a + b + k.val → W (ix2 j q) = Wc (ix2 k q))
    (g₃ : ∀ (k : Fin d) (j : Fin t) (q : Fin H), j.val = a + b + c + k.val → W (ix2 j q) = Wd (ix2 k q)) :
    net4 x₀ x₁ x₂ x₃ Wa Wb Wc Wd b₁ W₂ b₂ W₃ b₃ = net X W b₁ W₂ b₂ W₃ b₃ := by
  unfold net4 net
  rw [first4_eq_layer ht X W b₁ x₀ x₁ x₂ x₃ Wa Wb Wc Wd h₀ h₁ h₂ h₃ g₀ g₁ g₂ g₃]

/-! ## Row-locality -/

theorem layer_rows {M M' K N : Nat} (x : Mat M K) (x' : Mat M' K) (W : Mat K N) (b : Mat 1 N) (p : Fin M) (p' : Fin M')
    (q : Fin N) (h : ∀ k, x (ix2 p k) = x' (ix2 p' k)) : layer x W b (ix2 p q) = layer x' W b (ix2 p' q) := by
  show relu (dense x W b (ix2 p q)) = relu (dense x' W b (ix2 p' q))
  rw [dense_rows x x' W b p p' q h]

theorem first4_rows {M M' a b c d H : Nat} (x₀ : Mat M a) (x₁ : Mat M b) (x₂ : Mat M c) (x₃ : Mat M d)
    (y₀ : Mat M' a) (y₁ : Mat M' b) (y₂ : Mat M' c) (y₃ : Mat M' d) (Wa : Mat a H) (Wb : Mat b H) (Wc : Mat c H)
    (Wd : Mat d H) (b₁ : Mat 1 H) (p : Fin M) (p' : Fin M') (q : Fin H)
    (h₀ : ∀ k, x₀ (ix2 p k) = y₀ (ix2 p' k)) (h₁ : ∀ k, x₁ (ix2 p k) = y₁ (ix2 p' k))
    (h₂ : ∀ k, x₂ (ix2 p k) = y₂ (ix2 p' k)) (h₃ : ∀ k, x₃ (ix2 p k) = y₃ (ix2 p' k)) :
    first4 x₀ x₁ x₂ x₃ Wa Wb Wc Wd b₁ (ix2 p q) = first4 y₀ y₁ y₂ y₃ Wa Wb Wc Wd b₁ (ix2 p' q) := by
  show relu ((((mm x₀ Wa (ix2 p q) + mm x₁ Wb (ix2 p q)) + mm x₂ Wc (ix2 p q)) + mm x₃ Wd (ix2 p q)) + b₁ (ix2 (0 : Fin 1) q))
    = relu ((((mm y₀ Wa (ix2 p' q) + mm y₁ Wb (ix2 p' q)) + mm y₂ Wc (ix2 p' q)) + mm y₃ Wd (ix2 p' q)) + b₁ (ix2 (0 : Fin 1) q))
  rw [mm_rows x₀ y₀ Wa p p' q h₀, mm_rows x₁ y₁ Wb p p' q h₁, mm_rows x₂ y₂ Wc p p' q h₂, mm_rows x₃ y₃ Wd p p' q h₃]

/-- Row `p` of the network's result over a tile of rows is row `p'` of its result over the whole matrices, when the
    tile's row `p` is the matrices' row `p'`. -/
theorem net4_rows {M M' a b c d H N : Nat} (x₀ : Mat M a) (x₁ : Mat M b) (x₂ : Mat M c) (x₃ : Mat M d)
    (y₀ : Mat M' a) (y₁ : Mat M' b) (y₂ : Mat M' c) (y₃ : Mat M' d) (Wa : Mat a H) (Wb : Mat b H) (Wc : Mat c H)
    (Wd : Mat d H) (b₁ : Mat 1 H) (W₂ : Mat H H) (b₂ : Mat 1 H) (W₃ : Mat H N) (b₃ : Mat 1 N) (p : Fin M) (p' : Fin M')
    (q : Fin N)
    (h₀ : ∀ k, x₀ (ix2 p k) = y₀ (ix2 p' k)) (h₁ : ∀ k, x₁ (ix2 p k) = y₁ (ix2 p' k))
    (h₂ : ∀ k, x₂ (ix2 p k) = y₂ (ix2 p' k)) (h₃ : ∀ k, x₃ (ix2 p k) = y₃ (ix2 p' k)) :
    net4 x₀ x₁ x₂ x₃ Wa Wb Wc Wd b₁ W₂ b₂ W₃ b₃ (ix2 p q) = net4 y₀ y₁ y₂ y₃ Wa Wb Wc Wd b₁ W₂ b₂ W₃ b₃ (ix2 p' q) :=
  dense_rows _ _ W₃ b₃ p p' q fun k =>
    layer_rows _ _ W₂ b₂ p p' k fun k' => first4_rows x₀ x₁ x₂ x₃ y₀ y₁ y₂ y₃ Wa Wb Wc Wd b₁ p p' k' h₀ h₁ h₂ h₃

/-- The same between an entry of the result over a tile and the entry of the result over the whole matrices it sits at:
    same column, and the tile's row there is the matrices' row. -/
theorem net4_at {B M a b c d H N : Nat} (x₀ : Mat B a) (x₁ : Mat B b) (x₂ : Mat B c) (x₃ : Mat B d)
    (y₀ : Mat M a) (y₁ : Mat M b) (y₂ : Mat M c) (y₃ : Mat M d) (Wa : Mat a H) (Wb : Mat b H) (Wc : Mat c H)
    (Wd : Mat d H) (b₁ : Mat 1 H) (W₂ : Mat H H) (b₂ : Mat 1 H) (W₃ : Mat H N) (b₃ : Mat 1 N)
    (j : (⟨2, ![B, N]⟩ : Shape).Idx) (i : (⟨2, ![M, N]⟩ : Shape).Idx) (hq : i 1 = j 1)
    (h₀ : ∀ k, x₀ (ix2 (j 0) k) = y₀ (ix2 (i 0) k)) (h₁ : ∀ k, x₁ (ix2 (j 0) k) = y₁ (ix2 (i 0) k))
    (h₂ : ∀ k, x₂ (ix2 (j 0) k) = y₂ (ix2 (i 0) k)) (h₃ : ∀ k, x₃ (ix2 (j 0) k) = y₃ (ix2 (i 0) k)) :
    net4 x₀ x₁ x₂ x₃ Wa Wb Wc Wd b₁ W₂ b₂ W₃ b₃ j = net4 y₀ y₁ y₂ y₃ Wa Wb Wc Wd b₁ W₂ b₂ W₃ b₃ i := by
  obtain ⟨p, q, rfl⟩ : ∃ (p : Fin B) (q : Fin N), j = ix2 p q := ⟨j 0, j 1, eq_ix2 j⟩
  obtain ⟨p', q', rfl⟩ : ∃ (p' : Fin M) (q' : Fin N), i = ix2 p' q' := ⟨i 0, i 1, eq_ix2 i⟩
  have e : q' = q := hq
  subst e
  exact net4_rows x₀ x₁ x₂ x₃ y₀ y₁ y₂ y₃ Wa Wb Wc Wd b₁ W₂ b₂ W₃ b₃ p p' q' h₀ h₁ h₂ h₃

end Cert.StageNet

end
-- ==== Proof.KernelTile.lean ====
/-
  What the kernel's body stores, as a tile of the network.

  At the extended reals the body's arithmetic — four products of the tile's four input blocks with the four groups of
  rows of the first weight, summed, plus the bias row, rectified; the product with the second weight plus its bias
  row, rectified; the product with the third weight plus its bias — is `net4` of the loaded blocks: a change of float
  format is the identity, a product into the zero accumulator is rows times columns, and a one-row bias broadcast
  over the tile adds that row to every row.
-/
import proofs.«157430_j12979391169442_2_alg».proof.Proof.Gen.KernelIdeal.Skeleton
import proofs.«157430_j12979391169442_2_alg».proof.Proof.StageNet

noncomputable section

namespace Cert.KernelIdeal.Tile

open Cert.KernelIdeal Cert.KernelIdeal.Gen Idealize.ShloMosaic Idealize.ShloMosaic.ValueIdx Cert.Spec Cert.StageNet

/-- A rectified tile in the narrower format fed to a dense layer is the dense layer of the rectified values. -/
theorem dense_of_relu {M K N : Nat} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (z : FVec Ideal ⟨2, ![M, K]⟩ .f32) (W : FVec Ideal ⟨2, ![K, N]⟩ .bf16) (b : FVec Ideal ⟨2, ![1, N]⟩ .f32)
    (hb : (⟨2, ![1, N]⟩ : Shape).Broadcasts ⟨2, ![M, N]⟩) (ht : FTy.bf16.bits < FTy.f32.bits) :
    addf (FloatOps.matmul D none
        (truncf .bf16 (maximumf z (broadcast ⟨2, ![M, K]⟩ (Scalar.ofBits (F := Ideal) .f32 0x00000000#32))) ht) W
        (constant ⟨2, ![M, N]⟩ .f32 0x00000000#32)) (broadcastTo ⟨2, ![M, N]⟩ b hb)
      = dense (fun i => relu (z i)) W b :=
  dense_vec D hlb hln hlc hrb hrn hrc _ W b hb

/-- The body's stored value is the network over the tile's blocks. -/
theorem payload_eq (x0 : Vec Ideal S2048x32 .bf16) (x1 x2 x3 : Vec Ideal S2048x128 .bf16) (wa : Vec Ideal S32x1024 .bf16)
    (wb wc wd : Vec Ideal S128x1024 .bf16) (b1 : Vec Ideal S1x1024 .f32) (w2 : Vec Ideal S1024x1024 .bf16)
    (b2 : Vec Ideal S1x1024 .f32) (w3 : Vec Ideal S1024x1 .bf16) (b3 : Vec Ideal S1x1 .f32) :
    k0_pay1 (F := Ideal) (k0_pay2 (F := Ideal) x0 wa x1 wb x2 wc x3 wd b1 w2) b2 w3 b3
      = net4 x0 x1 x2 x3 wa wb wc wd b1 w2 b2 w3 b3 := by
  unfold k0_pay1 k0_pay2
  simp only [shapeCast_self]
  rw [dense_of_relu dot_S2048x1024_S1024x1_S2048x1_1_0_0_1_n_n rfl rfl rfl rfl rfl rfl,
    dense_of_relu dot_S2048x1024_S1024x1024_S2048x1024_1_0_0_1_n_n rfl rfl rfl rfl rfl rfl]
  simp only [matmul_eq_mm dot_S2048x32_S32x1024_S2048x1024_1_0_0_1_n_n rfl rfl rfl rfl rfl rfl,
    matmul_eq_mm dot_S2048x128_S128x1024_S2048x1024_1_0_0_1_n_n rfl rfl rfl rfl rfl rfl]
  have hb : ∀ i : S2048x1024.Idx, broadcastTo S2048x1024 b1 broadcasts_S1x1024_S2048x1024 i = b1 (ix2 (0 : Fin 1) (i 1)) :=
    fun i => (congrArg (broadcastTo S2048x1024 b1 broadcasts_S1x1024_S2048x1024) (eq_ix2 i)).trans
      (broadcastTo_1b_ab_apply b1 broadcasts_S1x1024_S2048x1024 (i 0) (i 1))
  show dense (fun i => relu (dense (fun i => relu ((((mm x0 wa i + mm x1 wb i) + mm x2 wc i) + mm x3 wd i)
      + broadcastTo S2048x1024 b1 broadcasts_S1x1024_S2048x1024 i)) w2 b2 i)) w3 b3
    = dense (fun i => relu (dense (fun i => relu ((((mm x0 wa i + mm x1 wb i) + mm x2 wc i) + mm x3 wd i)
      + b1 (ix2 (0 : Fin 1) (i 1)))) w2 b2 i)) w3 b3
  simp only [hb]

end Cert.KernelIdeal.Tile

end
-- ==== Proof.KernelBlocks.lean ====
/-
  The staged matrices, the network over them, and each window's block read off its array.

  The grid has 64 points; point `t` stages rows `2048·t … 2048·t + 2047` of the four gathered input matrices and the
  whole of each weight and bias, and writes back rows `2048·t … 2048·t + 2047` of the one-column output.  `scores` is the
  network over the whole staged matrices.  The index maps are decided once over the 64 points; a block read at an
  entry is then the array read at the entry it sits at.
-/
import proofs.«157430_j12979391169442_2_alg».proof.Proof.Gen.KernelIdeal.Frame
import proofs.«157430_j12979391169442_2_alg».proof.Proof.KernelTile
import Idealize.ShloMosaic.Lib.Pipeline.Value
import Idealize.ShloMosaic.Lib.StableHlo.Run

set_option maxRecDepth 16384

noncomputable section

namespace Cert.KernelIdeal.Scores

open Cert.KernelIdeal Cert.KernelIdeal.Gen Idealize.ShloMosaic Idealize.ShloMosaic.TcCoe Idealize.SL.Sem
open Idealize.ShloMosaic.ValueIdx Cert.Spec Cert.StageNet
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The network over the whole staged matrices, as the region finds them: one score per selected node. -/
def scores (c : Dev nD) : S131072x1.Idx → EReal :=
  net4 (M := 131072) (a := 32) (b := 128) (c := 128) (d := 128) (H := 1024) (N := 1)
    (V m c main_v7) (V m c main_v15) (V m c main_v30) (V m c main_v48) (V m c main_v50) (V m c main_v52)
    (V m c main_v54) (V m c main_v56) (V m c main_v59) (V m c main_v57) (V m c main_v60) (V m c main_v58) (V m c main_v61)

/-! ## The printed index maps, decided over the 64 points -/

theorem idx_out : ∀ t : Fin cfg0.N, win0_13.index t (0 : Fin 2) ≤ 63 ∧ win0_13.index t (1 : Fin 2) = 0 :=
  (by decide +kernel : ∀ t : Fin grid0.N, _)
theorem idx_onto : ∀ q : Fin 64, ∃ t : Fin cfg0.N, win0_13.index t = ![q.val, 0] :=
  (by decide +kernel : ∀ q : Fin 64, ∃ t : Fin grid0.N, win0_13.index t = ![q.val, 0])
theorem idx_rows0 : ∀ t : Fin cfg0.N, win0_0.index t (0 : Fin 2) = win0_13.index t (0 : Fin 2) ∧ win0_0.index t (1 : Fin 2) = 0 :=
  (by decide +kernel : ∀ t : Fin grid0.N, _)
theorem idx_rows1 : ∀ t : Fin cfg0.N, win0_1.index t (0 : Fin 2) = win0_13.index t (0 : Fin 2) ∧ win0_1.index t (1 : Fin 2) = 0 :=
  (by decide +kernel : ∀ t : Fin grid0.N, _)
theorem idx_rows2 : ∀ t : Fin cfg0.N, win0_2.index t (0 : Fin 2) = win0_13.index t (0 : Fin 2) ∧ win0_2.index t (1 : Fin 2) = 0 :=
  (by decide +kernel : ∀ t : Fin grid0.N, _)
theorem idx_rows3 : ∀ t : Fin cfg0.N, win0_3.index t (0 : Fin 2) = win0_13.index t (0 : Fin 2) ∧ win0_3.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_whole5 : ∀ t : Fin cfg0.N, win0_5.index t (0 : Fin 2) = 0 ∧ win0_5.index t (1 : Fin 2) = 0 :=
  (by decide +kernel : ∀ t : Fin grid0.N, _)
theorem idx_whole6 : ∀ t : Fin cfg0.N, win0_6.index t (0 : Fin 2) = 0 ∧ win0_6.index t (1 : Fin 2) = 0 :=
  (by decide +kernel : ∀ t : Fin grid0.N, _)
theorem idx_whole7 : ∀ t : Fin cfg0.N, win0_7.index t (0 : Fin 2) = 0 ∧ win0_7.index t (1 : Fin 2) = 0 :=
  (by decide +kernel : ∀ t : Fin grid0.N, _)
theorem idx_whole8 : ∀ t : Fin cfg0.N, win0_8.index t (0 : Fin 2) = 0 ∧ win0_8.index t (1 : Fin 2) = 0 :=
  (by decide +kernel : ∀ t : Fin grid0.N, _)
theorem idx_whole9 : ∀ t : Fin cfg0.N, win0_9.index t (0 : Fin 2) = 0 ∧ win0_9.index t (1 : Fin 2) = 0 :=
  (by decide +kernel : ∀ t : Fin grid0.N, _)
theorem idx_whole10 : ∀ t : Fin cfg0.N, win0_10.index t (0 : Fin 2) = 0 ∧ win0_10.index t (1 : Fin 2) = 0 :=
  (by decide +kernel : ∀ t : Fin grid0.N, _)
theorem idx_whole11 : ∀ t : Fin cfg0.N, win0_11.index t (0 : Fin 2) = 0 ∧ win0_11.index t (1 : Fin 2) = 0 :=
  (by decide +kernel : ∀ t : Fin grid0.N, _)
theorem idx_whole12 : ∀ t : Fin cfg0.N, win0_12.index t (0 : Fin 2) = 0 ∧ win0_12.index t (1 : Fin 2) = 0 :=
  (by decide +kernel : ∀ t : Fin grid0.N, _)

/-! ## Each input window's block at a point, read off ANY array of the window's shape

Which entry of its array a block's entry is depends on the window's index map alone, not on what the array holds; so
each read is stated for an arbitrary array `A` of the window's shape and then taken at the staged array. -/

/-- Row `y 0` of point `t`'s block of input 0 is row `2048·t + y 0` of the array. -/
theorem read_rows0 (A : S131072x32.Idx → EReal) (t : Fin cfg0.N) (y : S2048x32.Idx) (i : S131072x32.Idx)
    (h0 : (i 0).val = win0_13.index t (0 : Fin 2) * 2048 + (y 0).val) (h1 : (i 1).val = (y 1).val) :
    ((cfg0.win 0).blk t).view.read (Elt Ideal) A y = A i := by
  obtain ⟨e0, e1⟩ := idx_rows0 t
  show A (((cfg0.win 0).blk t).view.emb y) = A i
  refine congrArg A (funext fun a => Fin.ext ?_)
  match a with
  | ⟨0, _⟩ => show win0_0.index t (0 : Fin 2) * 2048 + 1 * (y 0).val = (i 0).val; omega
  | ⟨1, _⟩ => show win0_0.index t (1 : Fin 2) * 32 + 1 * (y 1).val = (i 1).val; omega
theorem rows0 (c : Dev nD) (t : Fin cfg0.N) (y : S2048x32.Idx) (i : S131072x32.Idx)
    (h0 : (i 0).val = win0_13.index t (0 : Fin 2) * 2048 + (y 0).val) (h1 : (i 1).val = (y 1).val) :
    iblk m c 0 t y = V m c main_v7 i :=
  read_rows0 (V m c main_v7) t y i h0 h1

/-- Row `y 0` of point `t`'s block of input 1 is row `2048·t + y 0` of the array. -/
theorem read_rows1 (A : S131072x128.Idx → EReal) (t : Fin cfg0.N) (y : S2048x128.Idx) (i : S131072x128.Idx)
    (h0 : (i 0).val = win0_13.index t (0 : Fin 2) * 2048 + (y 0).val) (h1 : (i 1).val = (y 1).val) :
    ((cfg0.win 1).blk t).view.read (Elt Ideal) A y = A i := by
  obtain ⟨e0, e1⟩ := idx_rows1 t
  show A (((cfg0.win 1).blk t).view.emb y) = A i
  refine congrArg A (funext fun a => Fin.ext ?_)
  match a with
  | ⟨0, _⟩ => show win0_1.index t (0 : Fin 2) * 2048 + 1 * (y 0).val = (i 0).val; omega
  | ⟨1, _⟩ => show win0_1.index t (1 : Fin 2) * 128 + 1 * (y 1).val = (i 1).val; omega
theorem rows1 (c : Dev nD) (t : Fin cfg0.N) (y : S2048x128.Idx) (i : S131072x128.Idx)
    (h0 : (i 0).val = win0_13.index t (0 : Fin 2) * 2048 + (y 0).val) (h1 : (i 1).val = (y 1).val) :
    iblk m c 1 t y = V m c main_v15 i :=
  read_rows1 (V m c main_v15) t y i h0 h1

/-- Row `y 0` of point `t`'s block of input 2 is row `2048·t + y 0` of the array. -/
theorem read_rows2 (A : S131072x128.Idx → EReal) (t : Fin cfg0.N) (y : S2048x128.Idx) (i : S131072x128.Idx)
    (h0 : (i 0).val = win0_13.index t (0 : Fin 2) * 2048 + (y 0).val) (h1 : (i 1).val = (y 1).val) :
    ((cfg0.win 2).blk t).view.read (Elt Ideal) A y = A i := by
  obtain ⟨e0, e1⟩ := idx_rows2 t
  show A (((cfg0.win 2).blk t).view.emb y) = A i
  refine congrArg A (funext fun a => Fin.ext ?_)
  match a with
  | ⟨0, _⟩ => show win0_2.index t (0 : Fin 2) * 2048 + 1 * (y 0).val = (i 0).val; omega
  | ⟨1, _⟩ => show win0_2.index t (1 : Fin 2) * 128 + 1 * (y 1).val = (i 1).val; omega
theorem rows2 (c : Dev nD) (t : Fin cfg0.N) (y : S2048x128.Idx) (i : S131072x128.Idx)
    (h0 : (i 0).val = win0_13.index t (0 : Fin 2) * 2048 + (y 0).val) (h1 : (i 1).val = (y 1).val) :
    iblk m c 2 t y = V m c main_v30 i :=
  read_rows2 (V m c main_v30) t y i h0 h1

/-- Row `y 0` of point `t`'s block of input 3 is row `2048·t + y 0` of the array. -/
theorem read_rows3 (A : S131072x128.Idx → EReal) (t : Fin cfg0.N) (y : S2048x128.Idx) (i : S131072x128.Idx)
    (h0 : (i 0).val = win0_13.index t (0 : Fin 2) * 2048 + (y 0).val) (h1 : (i 1).val = (y 1).val) :
    ((cfg0.win 3).blk t).view.read (Elt Ideal) A y = A i := by
  obtain ⟨e0, e1⟩ := idx_rows3 t
  show A (((cfg0.win 3).blk t).view.emb y) = A i
  refine congrArg A (funext fun a => Fin.ext ?_)
  match a with
  | ⟨0, _⟩ => show win0_3.index t (0 : Fin 2) * 2048 + 1 * (y 0).val = (i 0).val; omega
  | ⟨1, _⟩ => show win0_3.index t (1 : Fin 2) * 128 + 1 * (y 1).val = (i 1).val; omega
theorem rows3 (c : Dev nD) (t : Fin cfg0.N) (y : S2048x128.Idx) (i : S131072x128.Idx)
    (h0 : (i 0).val = win0_13.index t (0 : Fin 2) * 2048 + (y 0).val) (h1 : (i 1).val = (y 1).val) :
    iblk m c 3 t y = V m c main_v48 i :=
  read_rows3 (V m c main_v48) t y i h0 h1

/-- Every point's block of input 4 is the whole array. -/
theorem read_whole4 (A : S32x1024.Idx → EReal) (t : Fin cfg0.N) : ((cfg0.win 4).blk t).view.read (Elt Ideal) A = A := by
  obtain ⟨e0, e1⟩ := idx_whole4 t
  funext y
  show A (((cfg0.win 4).blk t).view.emb y) = A y
  refine congrArg A (funext fun a => Fin.ext ?_)
  match a with
  | ⟨0, _⟩ => show win0_4.index t (0 : Fin 2) * 32 + 1 * (y 0).val = (y 0).val; omega
  | ⟨1, _⟩ => show win0_4.index t (1 : Fin 2) * 1024 + 1 * (y 1).val = (y 1).val; omega
theorem whole4 (c : Dev nD) (t : Fin cfg0.N) : iblk m c 4 t = (V m c main_v50 : S32x1024.Idx → EReal) :=
  read_whole4 (V m c main_v50) t

/-- Every point's block of input 5 is the whole array. -/
theorem read_whole5 (A : S128x1024.Idx → EReal) (t : Fin cfg0.N) : ((cfg0.win 5).blk t).view.read (Elt Ideal) A = A := by
  obtain ⟨e0, e1⟩ := idx_whole5 t
  funext y
  show A (((cfg0.win 5).blk t).view.emb y) = A y
  refine congrArg A (funext fun a => Fin.ext ?_)
  match a with
  | ⟨0, _⟩ => show win0_5.index t (0 : Fin 2) * 128 + 1 * (y 0).val = (y 0).val; omega
  | ⟨1, _⟩ => show win0_5.index t (1 : Fin 2) * 1024 + 1 * (y 1).val = (y 1).val; omega
theorem whole5 (c : Dev nD) (t : Fin cfg0.N) : iblk m c 5 t = (V m c main_v52 : S128x1024.Idx → EReal) :=
  read_whole5 (V m c main_v52) t

/-- Every point's block of input 6 is the whole array. -/
theorem read_whole6 (A : S128x1024.Idx → EReal) (t : Fin cfg0.N) : ((cfg0.win 6).blk t).view.read (Elt Ideal) A = A := by
  obtain ⟨e0, e1⟩ := idx_whole6 t
  funext y
  show A (((cfg0.win 6).blk t).view.emb y) = A y
  refine congrArg A (funext fun a => Fin.ext ?_)
  match a with
  | ⟨0, _⟩ => show win0_6.index t (0 : Fin 2) * 128 + 1 * (y 0).val = (y 0).val; omega
  | ⟨1, _⟩ => show win0_6.index t (1 : Fin 2) * 1024 + 1 * (y 1).val = (y 1).val; omega
theorem whole6 (c : Dev nD) (t : Fin cfg0.N) : iblk m c 6 t = (V m c main_v54 : S128x1024.Idx → EReal) :=
  read_whole6 (V m c main_v54) t

/-- Every point's block of input 7 is the whole array. -/
theorem read_whole7 (A : S128x1024.Idx → EReal) (t : Fin cfg0.N) : ((cfg0.win 7).blk t).view.read (Elt Ideal) A = A := by
  obtain ⟨e0, e1⟩ := idx_whole7 t
  funext y
  show A (((cfg0.win 7).blk t).view.emb y) = A y
  refine congrArg A (funext fun a => Fin.ext ?_)
  match a with
  | ⟨0, _⟩ => show win0_7.index t (0 : Fin 2) * 128 + 1 * (y 0).val = (y 0).val; omega
  | ⟨1, _⟩ => show win0_7.index t (1 : Fin 2) * 1024 + 1 * (y 1).val = (y 1).val; omega
theorem whole7 (c : Dev nD) (t : Fin cfg0.N) : iblk m c 7 t = (V m c main_v56 : S128x1024.Idx → EReal) :=
  read_whole7 (V m c main_v56) t

/-- Every point's block of input 8 is the whole array. -/
theorem read_whole8 (A : S1x1024.Idx → EReal) (t : Fin cfg0.N) : ((cfg0.win 8).blk t).view.read (Elt Ideal) A = A := by
  obtain ⟨e0, e1⟩ := idx_whole8 t
  funext y
  show A (((cfg0.win 8).blk t).view.emb y) = A y
  refine congrArg A (funext fun a => Fin.ext ?_)
  match a with
  | ⟨0, _⟩ => show win0_8.index t (0 : Fin 2) * 1 + 1 * (y 0).val = (y 0).val; omega
  | ⟨1, _⟩ => show win0_8.index t (1 : Fin 2) * 1024 + 1 * (y 1).val = (y 1).val; omega
theorem whole8 (c : Dev nD) (t : Fin cfg0.N) : iblk m c 8 t = (V m c main_v59 : S1x1024.Idx → EReal) :=
  read_whole8 (V m c main_v59) t

/-- Every point's block of input 9 is the whole array. -/
theorem read_whole9 (A : S1024x1024.Idx → EReal) (t : Fin cfg0.N) : ((cfg0.win 9).blk t).view.read (Elt Ideal) A = A := by
  obtain ⟨e0, e1⟩ := idx_whole9 t
  funext y
  show A (((cfg0.win 9).blk t).view.emb y) = A y
  refine congrArg A (funext fun a => Fin.ext ?_)
  match a with
  | ⟨0, _⟩ => show win0_9.index t (0 : Fin 2) * 1024 + 1 * (y 0).val = (y 0).val; omega
  | ⟨1, _⟩ => show win0_9.index t (1 : Fin 2) * 1024 + 1 * (y 1).val = (y 1).val; omega
theorem whole9 (c : Dev nD) (t : Fin cfg0.N) : iblk m c 9 t = (V m c main_v57 : S1024x1024.Idx → EReal) :=
  read_whole9 (V m c main_v57) t

/-- Every point's block of input 10 is the whole array. -/
theorem read_whole10 (A : S1x1024.Idx → EReal) (t : Fin cfg0.N) : ((cfg0.win 10).blk t).view.read (Elt Ideal) A = A := by
  obtain ⟨e0, e1⟩ := idx_whole10 t
  funext y
  show A (((cfg0.win 10).blk t).view.emb y) = A y
  refine congrArg A (funext fun a => Fin.ext ?_)
  match a with
  | ⟨0, _⟩ => show win0_10.index t (0 : Fin 2) * 1 + 1 * (y 0).val = (y 0).val; omega
  | ⟨1, _⟩ => show win0_10.index t (1 : Fin 2) * 1024 + 1 * (y 1).val = (y 1).val; omega
theorem whole10 (c : Dev nD) (t : Fin cfg0.N) : iblk m c 10 t = (V m c main_v60 : S1x1024.Idx → EReal) :=
  read_whole10 (V m c main_v60) t

/-- Every point's block of input 11 is the whole array. -/
theorem read_whole11 (A : S1024x1.Idx → EReal) (t : Fin cfg0.N) : ((cfg0.win 11).blk t).view.read (Elt Ideal) A = A := by
  obtain ⟨e0, e1⟩ := idx_whole11 t
  funext y
  show A (((cfg0.win 11).blk t).view.emb y) = A y
  refine congrArg A (funext fun a => Fin.ext ?_)
  match a with
  | ⟨0, _⟩ => show win0_11.index t (0 : Fin 2) * 1024 + 1 * (y 0).val = (y 0).val; omega
  | ⟨1, _⟩ => show win0_11.index t (1 : Fin 2) * 1 + 1 * (y 1).val = (y 1).val; omega
theorem whole11 (c : Dev nD) (t : Fin cfg0.N) : iblk m c 11 t = (V m c main_v58 : S1024x1.Idx → EReal) :=
  read_whole11 (V m c main_v58) t

/-- Every point's block of input 12 is the whole array. -/
theorem read_whole12 (A : S1x1.Idx → EReal) (t : Fin cfg0.N) : ((cfg0.win 12).blk t).view.read (Elt Ideal) A = A := by
  obtain ⟨e0, e1⟩ := idx_whole12 t
  funext y
  show A (((cfg0.win 12).blk t).view.emb y) = A y
  refine congrArg A (funext fun a => Fin.ext ?_)
  match a with
  | ⟨0, _⟩ => show win0_12.index t (0 : Fin 2) * 1 + 1 * (y 0).val = (y 0).val; omega
  | ⟨1, _⟩ => show win0_12.index t (1 : Fin 2) * 1 + 1 * (y 1).val = (y 1).val; omega
theorem whole12 (c : Dev nD) (t : Fin cfg0.N) : iblk m c 12 t = (V m c main_v61 : S1x1.Idx → EReal) :=
  read_whole12 (V m c main_v61) t

end Cert.KernelIdeal.Scores

end
-- ==== Proof.KernelScores.lean ====
/-
  The kernel's output array after the run.

  What point `t` writes back is the network over its tile (the body's stored value), and by row-locality that is rows
  `2048·t … 2048·t + 2047` of `scores`.  The 64 blocks cover the output array, so after the run the array IS `scores`.
-/
import proofs.«157430_j12979391169442_2_alg».proof.Proof.KernelBlocks

set_option maxRecDepth 16384

noncomputable section

namespace Cert.KernelIdeal.Scores

open Cert.KernelIdeal Cert.KernelIdeal.Gen Idealize.ShloMosaic Idealize.ShloMosaic.TcCoe Idealize.SL.Sem
open Idealize.ShloMosaic.ValueIdx Cert.Spec Cert.StageNet
open Idealize.ShloMosaic.Pipeline (Dat)

variable (m : (ℓ : Loc nD τ sig) → Buf (Elt Ideal) ℓ) (ρ : Dev nD → PrngReg)

/-- What the body leaves in the output's buffer, from blocks of literal shapes: its one covering store's value. -/
theorem out_eq (x0 : Vec Ideal S2048x32 .bf16) (x1 x2 x3 : Vec Ideal S2048x128 .bf16) (wa : Vec Ideal S32x1024 .bf16)
    (wb wc wd : Vec Ideal S128x1024 .bf16) (b1 : Vec Ideal S1x1024 .f32) (w2 : Vec Ideal S1024x1024 .bf16)
    (b2 : Vec Ideal S1x1024 .f32) (w3 : Vec Ideal S1024x1 .bf16) (b3 : Vec Ideal S1x1 .f32) :
    out0_13 (F := Ideal) x0 x1 x2 x3 wa wb wc wd b1 w2 b2 w3 b3 = net4 x0 x1 x2 x3 wa wb wc wd b1 w2 b2 w3 b3 := by
  unfold out0_13
  rw [View.canon_unit_zero hz]
  simp only [View.ld_unit_zero (S := S2048x32) hz, View.ld_unit_zero (S := S2048x128) hz, View.ld_unit_zero (S := S32x1024) hz,
    View.ld_unit_zero (S := S128x1024) hz, View.ld_unit_zero (S := S1x1024) hz, View.ld_unit_zero (S := S1024x1024) hz,
    View.ld_unit_zero (S := S1024x1) hz, View.ld_unit_zero (S := S1x1) hz]
  exact Cert.KernelIdeal.Tile.payload_eq x0 x1 x2 x3 wa wb wc wd b1 w2 b2 w3 b3

/-! ## What a point writes back -/

/-- WHAT POINT `t` WRITES BACK is block `t` of `scores`. -/
theorem flushed_eq (c : Dev nD) (t : Fin cfg0.N) :
    (dats m 0 c).flushed 13 t = ((cfg0.win 13).blk t).view.read (Elt Ideal) (scores m c) := by
  show (cfg0.win 13).cut (grid0.coords t) ((dats m 0 c).after 13 t) = _
  rw [after0_13, out_eq, whole4 m c t, whole5 m c t, whole6 m c t, whole7 m c t, whole8 m c t, whole9 m c t, whole10 m c t, whole11 m c t, whole12 m c t]
  obtain ⟨e0, e1⟩ := idx_out t
  funext j
  show net4 (M := 2048) (a := 32) (b := 128) (c := 128) (d := 128) (H := 1024) (N := 1)
      (iblk m c 0 t) (iblk m c 1 t) (iblk m c 2 t) (iblk m c 3 t) (V m c main_v50) (V m c main_v52)
      (V m c main_v54) (V m c main_v56) (V m c main_v59) (V m c main_v57) (V m c main_v60) (V m c main_v58) (V m c main_v61) j
    = scores m c (((cfg0.win 13).blk t).view.emb j)
  have r0 : ((((cfg0.win 13).blk t).view.emb j) 0).val = win0_13.index t (0 : Fin 2) * 2048 + (j 0).val := by
    show win0_13.index t (0 : Fin 2) * 2048 + 1 * (j 0).val = _; omega
  have r1 : ((((cfg0.win 13).blk t).view.emb j) 1).val = (j 1).val := by
    show win0_13.index t (1 : Fin 2) * 1 + 1 * (j 1).val = _; omega
  exact net4_at (iblk m c 0 t) (iblk m c 1 t) (iblk m c 2 t) (iblk m c 3 t)
    (V m c main_v7) (V m c main_v15) (V m c main_v30) (V m c main_v48) (V m c main_v50) (V m c main_v52)
    (V m c main_v54) (V m c main_v56) (V m c main_v59) (V m c main_v57) (V m c main_v60) (V m c main_v58) (V m c main_v61)
    j (((cfg0.win 13).blk t).view.emb j) (Fin.ext r1)
    (fun k => rows0 m c t (ix2 (j 0) k) (ix2 ((((cfg0.win 13).blk t).view.emb j) 0) k) r0 rfl)
    (fun k => rows1 m c t (ix2 (j 0) k) (ix2 ((((cfg0.win 13).blk t).view.emb j) 0) k) r0 rfl)
    (fun k => rows2 m c t (ix2 (j 0) k) (ix2 ((((cfg0.win 13).blk t).view.emb j) 0) k) r0 rfl)
    (fun k => rows3 m c t (ix2 (j 0) k) (ix2 ((((cfg0.win 13).blk t).view.emb j) 0) k) r0 rfl)

/-! ## The blocks cover the array -/

/-- An index of the output array is in point `t`'s block iff each coordinate is in the block's range on its axis. -/
theorem mem_blk (t : Fin cfg0.N) (i : S131072x1.Idx) :
    i ∈ ((cfg0.win 13).blk t).view.set ↔ ∀ a : Fin 2, win0_13.index t a * S2048x1.size a ≤ (i a).val ∧ (i a).val < win0_13.index t a * S2048x1.size a + S2048x1.size a := by
  show i ∈ ((View.whole main_v62).slice (win0_13.rect t)).set ↔ _
  rw [View.set_slice_whole, Rect.mem_set_unit]
  exact Iff.rfl

/-- Every row of the output array is in some point's block: row `r` in point `r / 2048`'s. -/
theorem covered (i : S131072x1.Idx) :
    ∃ t : Fin cfg0.N, (cfg0.win 13).flush t = true ∧ i ∈ ((cfg0.win 13).blk t).view.set := by
  have hi0 : (i 0).val < 131072 := (i 0).isLt
  have hi1 : (i 1).val < 1 := (i 1).isLt
  obtain ⟨t, ht⟩ := idx_onto ⟨(i 0).val / 2048, by omega⟩
  have q0 : win0_13.index t (0 : Fin 2) = (i 0).val / 2048 := congrFun ht 0
  have q1 : win0_13.index t (1 : Fin 2) = 0 := congrFun ht 1
  refine ⟨t, flush0_13 t, ?_⟩
  rw [mem_blk]
  intro a
  match a with
  | ⟨0, _⟩ => show win0_13.index t (0 : Fin 2) * 2048 ≤ (i 0).val ∧ (i 0).val < win0_13.index t (0 : Fin 2) * 2048 + 2048; omega
  | ⟨1, _⟩ => show win0_13.index t (1 : Fin 2) * 1 ≤ (i 1).val ∧ (i 1).val < win0_13.index t (1 : Fin 2) * 1 + 1; omega

/-- THE ARRAY after the run is `scores`. -/
theorem final (c : Dev nD) : (dats m 0 c).arrAt 13 cfg0.N = scores m c :=
  (dats m 0 c).arrAt_eq_of_cover 13 (scores m c) (fun t _ => flushed_eq m c t) covered

end Cert.KernelIdeal.Scores

end
-- ==== Proof.KernelRun.lean ====
/-
  The kernel program's run, read: its result is `scores` as a vector.

  After the region one host operation reads the `[131072, 1]` output array as a vector of 131072 entries.  The frame run
  leaves the output array at what the 64 write-backs make of it, which is `scores`, every other buffer as the host
  operations leave it, and the thirteen arguments as launched.
-/
import proofs.«157430_j12979391169442_2_alg».proof.Proof.KernelScores
import Idealize.ShloMosaic.Lib.StableHlo.Run

set_option maxRecDepth 16384

noncomputable section

namespace Cert.KernelIdeal.Scores

open Cert.KernelIdeal Cert.KernelIdeal.Gen Idealize.ShloMosaic Idealize.ShloMosaic.TcCoe Idealize.SL.Sem
open Idealize.ShloMosaic.ValueIdx Cert.Spec Cert.StageNet Idealize.ShloMosaic.StableHlo
open Idealize.ShloMosaic.Pipeline (Dat)

variable (m : (ℓ : Loc nD τ sig) → Buf (Elt Ideal) ℓ) (ρ : Dev nD → PrngReg)

/-- The region leaves its output array at `scores`. -/
theorem region_out (c : Dev nD) :
    Pipeline.withArrays spec0 c (V0 m c) (fun w => (dats m 0 c).arrAt w cfg0.N) (Proc.devRef .tc main_v62) = scores m c :=
  (Pipeline.withArrays_arr spec0 launch0.win.arr_inj c _ _ 13).trans (final m c)

/-- The program's result after the host operation that follows the region: `scores` read as a vector. -/
theorem result_eq (c : Dev nD) :
    Pipeline.afterTail₀ cfgs (dats m) 0 (V0 m) [hostOps1] c main_v63
      = shapeCast S131072 (scores m c) shapeCasts_S131072x1_S131072 := by
  unfold Pipeline.afterTail₀
  show StableHlo.after hostOps1 _ (Proc.devRef .tc main_v63) = _
  after_results
  rw [region_out m c]
  rfl

/-- Every weakly fair execution of the kernel program terminates with its result at `scores` read as a vector and its
    arguments unchanged. -/
theorem run : θ_run defs (onTc (τ := τ) (main (F := Ideal))) ⟨m, fun _ => 0, ρ⟩ fun r => ∀ c : Dev nD,
      r.2.mem ((c.tc : Thread nD τ).loc main_v63) = shapeCast S131072 (scores m c) shapeCasts_S131072x1_S131072
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨((h c).2 main_v63 (Pipeline.mem_restRefs_of main_v63 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩)
    (run_main m ρ)

end Cert.KernelIdeal.Scores

end
-- ==== Proof.RefRun.lean ====
/-
  The reference program's host computation as one straight line.

  Its entry function is printed in two consecutive windows, and the helper functions it calls (the rotation by one, the two
  running sums, the bounds-checked row selection, the two rectifiers) are printed once each and applied at their
  calls.  Here every statement is listed in order, a helper's statements at its call over that call's own buffers, as
  consecutive stretches: one per run of the entry function's own statements and one per call.  The entry function is
  the stretches run one after another, hence one straight line, and a straight line of host operations always
  terminates with every buffer at the fold of the operations' results over the contents it started with.
-/
import proofs.«157430_j12979391169442_2_alg».proof.Proof.Gen.ReferenceIdeal
import Idealize.ShloMosaic.Lib.StableHlo.Run
import Idealize.ShloMosaic.Lib.Pipeline.Regions

set_option maxRecDepth 4096

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The stretches -/

/-- 36 operations of the entry function itself, in order. -/
abbrev stretchA0 : List (HloOp τ sig (Elt F)) :=
  ( StableHlo.nullary main_c (constantI S_ 32 0#32)
  :: StableHlo.unary main_c main_v0 (broadcastInDim S131072 ![] bcast_S_S131072 : (⟨S_, .i32⟩ : BufTy).Contents (Elt F) → (⟨S131072, .i32⟩ : BufTy).Contents (Elt F))
  :: StableHlo.binary main_arg5 main_v0 main_v1 (cmpi .slt : (⟨S131072, .i32⟩ : BufTy).Contents (Elt F) → (⟨S131072, .i32⟩ : BufTy).Contents (Elt F) → (⟨S131072, .i1⟩ : BufTy).Contents (Elt F))
  :: StableHlo.nullary main_c_0 (constantI S_ 32 262144#32)
  :: StableHlo.unary main_c_0 main_v2 (broadcastInDim S131072 ![] bcast_S_S131072 : (⟨S_, .i32⟩ : BufTy).Contents (Elt F) → (⟨S131072, .i32⟩ : BufTy).Contents (Elt F))
  :: StableHlo.binary main_arg5 main_v2 main_v3 (addi : (⟨S131072, .i32⟩ : BufTy).Contents (Elt F) → (⟨S131072, .i32⟩ : BufTy).Contents (Elt F) → (⟨S131072, .i32⟩ : BufTy).Contents (Elt F))
  :: StableHlo.ternary main_v1 main_v3 main_arg5 main_v4 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: StableHlo.unary main_v4 main_v5 (broadcastInDim S131072x1 ![0] bcast_S131072_S131072x1_0 : (⟨S131072, .i32⟩ : BufTy).Contents (Elt F) → (⟨S131072x1, .i32⟩ : BufTy).Contents (Elt F))
  :: StableHlo.binary main_arg0 main_v5 main_v6 ((fun x i => Host.gather gather_S262144x32_S131072x1_S131072x32_1_0_n_n_0_1_132 x i) : (⟨S262144x32, .f32⟩ : BufTy).Contents (Elt F) → (⟨S131072x1, .i32⟩ : BufTy).Contents (Elt F) → (⟨S131072x32, .f32⟩ : BufTy).Contents (Elt F))
  :: StableHlo.nullary main_c_1 (constantI S_ 32 0#32)
  :: StableHlo.unary main_c_1 main_v7 (broadcastInDim S131072 ![] bcast_S_S131072 : (⟨S_, .i32⟩ : BufTy).Contents (Elt F) → (⟨S131072, .i32⟩ : BufTy).Contents (Elt F))
  :: StableHlo.binary main_arg5 main_v7 main_v8 (cmpi .slt : (⟨S131072, .i32⟩ : BufTy).Contents (Elt F) → (⟨S131072, .i32⟩ : BufTy).Contents (Elt F) → (⟨S131072, .i1⟩ : BufTy).Contents (Elt F))
  :: StableHlo.nullary main_c_2 (constantI S_ 32 262144#32)
  :: StableHlo.unary main_c_2 main_v9 (broadcastInDim S131072 ![] bcast_S_S131072 : (⟨S_, .i32⟩ : BufTy).Contents (Elt F) → (⟨S131072, .i32⟩ : BufTy).Contents (Elt F))
  :: StableHlo.binary main_arg5 main_v9 main_v10 (addi : (⟨S131072, .i32⟩ : BufTy).Contents (Elt F) → (⟨S131072, .i32⟩ : BufTy).Contents (Elt F) → (⟨S131072, .i32⟩ : BufTy).Contents (Elt F))
  :: StableHlo.ternary main_v8 main_v10 main_arg5 main_v11 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: StableHlo.unary main_v11 main_v12 (broadcastInDim S131072x1 ![0] bcast_S131072_S131072x1_0 : (⟨S131072, .i32⟩ : BufTy).Contents (Elt F) → (⟨S131072x1, .i32⟩ : BufTy).Contents (Elt F))
  :: StableHlo.binary main_arg1 main_v12 main_v13 ((fun x i => Host.gather gather_S262144x128_S131072x1_S131072x128_1_0_n_n_0_1_1128 x i) : (⟨S262144x128, .f32⟩ : BufTy).Contents (Elt F) → (⟨S131072x1, .i32⟩ : BufTy).Contents (Elt F) → (⟨S131072x128, .f32⟩ : BufTy).Contents (Elt F))
  :: StableHlo.nullary main_c_3 (constantI S_ 32 0#32)
  :: StableHlo.unary main_c_3 main_v14 (broadcastInDim S131072 ![] bcast_S_S131072 : (⟨S_, .i32⟩ : BufTy).Contents (Elt F) → (⟨S131072, .i32⟩ : BufTy).Contents (Elt F))
  :: StableHlo.binary main_arg5 main_v14 main_v15 (cmpi .slt : (⟨S131072, .i32⟩ : BufTy).Contents (Elt F) → (⟨S131072, .i32⟩ : BufTy).Contents (Elt F) → (⟨S131072, .i1⟩ : BufTy).Contents (Elt F))
  :: StableHlo.nullary main_c_4 (constantI S_ 32 262144#32)
  :: StableHlo.unary main_c_4 main_v16 (broadcastInDim S131072 ![] bcast_S_S131072 : (⟨S_, .i32⟩ : BufTy).Contents (Elt F) → (⟨S131072, .i32⟩ : BufTy).Contents (Elt F))
  :: StableHlo.binary main_arg5 main_v16 main_v17 (addi : (⟨S131072, .i32⟩ : BufTy).Contents (Elt F) → (⟨S131072, .i32⟩ : BufTy).Contents (Elt F) → (⟨S131072, .i32⟩ : BufTy).Contents (Elt F))
  :: StableHlo.ternary main_v15 main_v17 main_arg5 main_v18 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: StableHlo.unary main_v18 main_v19 (broadcastInDim S131072x1 ![0] bcast_S131072_S131072x1_0 : (⟨S131072, .i32⟩ : BufTy).Contents (Elt F) → (⟨S131072x1, .i32⟩ : BufTy).Contents (Elt F))
  :: StableHlo.binary main_arg4 main_v19 main_v20 ((fun x i => Host.gather gather_S262144_S131072x1_S131072_n_0_n_n_0_1_1 x i) : (⟨S262144, .i32⟩ : BufTy).Contents (Elt F) → (⟨S131072x1, .i32⟩ : BufTy).Contents (Elt F) → (⟨S131072, .i32⟩ : BufTy).Contents (Elt F))
  :: StableHlo.nullary main_c_5 (constantI S_ 32 0#32)
  :: StableHlo.unary main_c_5 main_v21 (broadcastInDim S131072 ![] bcast_S_S131072 : (⟨S_, .i32⟩ : BufTy).Contents (Elt F) → (⟨S131072, .i32⟩ : BufTy).Contents (Elt F))
  :: StableHlo.binary main_v20 main_v21 main_v22 (cmpi .slt : (⟨S131072, .i32⟩ : BufTy).Contents (Elt F) → (⟨S131072, .i32⟩ : BufTy).Contents (Elt F) → (⟨S131072, .i1⟩ : BufTy).Contents (Elt F))
  :: StableHlo.nullary main_c_6 (constantI S_ 32 1024#32)
  :: StableHlo.unary main_c_6 main_v23 (broadcastInDim S131072 ![] bcast_S_S131072 : (⟨S_, .i32⟩ : BufTy).Contents (Elt F) → (⟨S131072, .i32⟩ : BufTy).Contents (Elt F))
  :: StableHlo.binary main_v20 main_v23 main_v24 (addi : (⟨S131072, .i32⟩ : BufTy).Contents (Elt F) → (⟨S131072, .i32⟩ : BufTy).Contents (Elt F) → (⟨S131072, .i32⟩ : BufTy).Contents (Elt F))
  :: StableHlo.ternary main_v22 main_v24 main_v20 main_v25 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: StableHlo.unary main_v25 main_v26 (broadcastInDim S131072x1 ![0] bcast_S131072_S131072x1_0 : (⟨S131072, .i32⟩ : BufTy).Contents (Elt F) → (⟨S131072x1, .i32⟩ : BufTy).Contents (Elt F))
  :: StableHlo.binary main_arg2 main_v26 main_v27 ((fun x i => Host.gather gather_S1024x128_S131072x1_S131072x128_1_0_n_n_0_1_1128 x i) : (⟨S1024x128, .f32⟩ : BufTy).Contents (Elt F) → (⟨S131072x1, .i32⟩ : BufTy).Contents (Elt F) → (⟨S131072x128, .f32⟩ : BufTy).Contents (Elt F))
  :: [] )
theorem stretchA0_sub : (stretchA0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem stretchA0_fresh : (stretchA0 : List (HloOp τ sig (Elt F))).Forall fun op => op.fresh = ∅ := by
  simp only [List.Forall]; repeat' constructor

/-- 3 operations of a called helper, at the call's buffers, in order. -/
abbrev stretchA1 : List (HloOp τ sig (Elt F)) :=
  ( StableHlo.TRef.unary (.of main_arg6 : StableHlo.TRef sig ⟨S1024, .i32⟩) main_call0.v0 (extractStridedSlice S1 ![1023] · slices_S1024_S1_1023)
  :: StableHlo.TRef.unary (.of main_arg6 : StableHlo.TRef sig ⟨S1024, .i32⟩) main_call0.v1 (extractStridedSlice S1023 ![0] · slices_S1024_S1023_0)
  :: StableHlo.TRef.binary main_call0.v0 main_call0.v1 main_call0.v2 (fun a b => concatenate S1024 0 [⟨S1, a⟩, ⟨S1023, b⟩] concatenates_S1_S1023_S1024_d0)
  :: [] )
theorem stretchA1_sub : (stretchA1 : List (HloOp τ sig (Elt F))).Forall fun op => op.bufs ⊆ tcRefs τ sig :=
  ⟨unary_bufs_sub .., unary_bufs_sub .., binary_bufs_sub ..⟩
theorem stretchA1_fresh : (stretchA1 : List (HloOp τ sig (Elt F))).Forall fun op => op.fresh = ∅ := by
  simp only [List.Forall]; repeat' constructor

/-- 4 operations of the entry function itself, in order. -/
abbrev stretchA2 : List (HloOp τ sig (Elt F)) :=
  ( StableHlo.nullary main_c_7 (constantI S_ 32 0#32)
  :: StableHlo.unary main_c_7 main_v29 (broadcastInDim S1 ![] bcast_S_S1 : (⟨S_, .i32⟩ : BufTy).Contents (Elt F) → (⟨S1, .i32⟩ : BufTy).Contents (Elt F))
  :: StableHlo.nullary main_c_8 (constantI S_ 32 0#32)
  :: StableHlo.ternary main_v28 main_v29 main_c_8 main_v30 ((fun x i u => Host.scatter scatter_S1024_S1_S__n_0_0_0 (fun _ b => b) x i u) : (⟨S1024, .i32⟩ : BufTy).Contents (Elt F) → (⟨S1, .i32⟩ : BufTy).Contents (Elt F) → (⟨S_, .i32⟩ : BufTy).Contents (Elt F) → (⟨S1024, .i32⟩ : BufTy).Contents (Elt F))
  :: [] )
theorem stretchA2_sub : (stretchA2 : List (HloOp τ sig (Elt F))).Forall fun op => op.bufs ⊆ tcRefs τ sig :=
  ⟨nullary_bufs_sub .., unary_bufs_sub .., nullary_bufs_sub .., ternary_bufs_sub ..⟩
theorem stretchA2_fresh : (stretchA2 : List (HloOp τ sig (Elt F))).Forall fun op => op.fresh = ∅ := by
  simp only [List.Forall]; repeat' constructor

/-- 3 operations of a called helper, at the call's buffers, in order. -/
abbrev stretchA3 : List (HloOp τ sig (Elt F)) :=
  ( StableHlo.TRef.nullary main_call1.call0.c (constantI S_ 32 0#32)
  :: StableHlo.TRef.unary main_call1.call0.c main_call1.call0.v0 (broadcastInDim S_ ![] bcast_S_S_)
  :: StableHlo.TRef.binary (.of main_v30 : StableHlo.TRef sig ⟨S1024, .i32⟩) main_call1.call0.v0 main_call1.call0.v1 (fun x v => Host.reduceWindow IntOp.addi ![1024] ![1] ![1023] ![0] x v reduceWindows_S1024_S1024_w1024s1p1023_0 h_S_)
  :: [] )
theorem stretchA3_sub : (stretchA3 : List (HloOp τ sig (Elt F))).Forall fun op => op.bufs ⊆ tcRefs τ sig :=
  ⟨nullary_bufs_sub .., unary_bufs_sub .., binary_bufs_sub ..⟩
theorem stretchA3_fresh : (stretchA3 : List (HloOp τ sig (Elt F))).Forall fun op => op.fresh = ∅ := by
  simp only [List.Forall]; repeat' constructor

/-- 13 operations of the entry function itself, in order. -/
abbrev stretchA4 : List (HloOp τ sig (Elt F)) :=
  ( StableHlo.nullary main_c_9 (constantI S_ 32 0#32)
  :: StableHlo.unary main_c_9 main_v32 (broadcastInDim S131072 ![] bcast_S_S131072 : (⟨S_, .i32⟩ : BufTy).Contents (Elt F) → (⟨S131072, .i32⟩ : BufTy).Contents (Elt F))
  :: StableHlo.nullary main_c_10 (constantI S_ 32 0#32)
  :: StableHlo.unary main_c_10 main_v33 (broadcastInDim S1024 ![] bcast_S_S1024 : (⟨S_, .i32⟩ : BufTy).Contents (Elt F) → (⟨S1024, .i32⟩ : BufTy).Contents (Elt F))
  :: StableHlo.binary main_v31 main_v33 main_v34 (cmpi .slt : (⟨S1024, .i32⟩ : BufTy).Contents (Elt F) → (⟨S1024, .i32⟩ : BufTy).Contents (Elt F) → (⟨S1024, .i1⟩ : BufTy).Contents (Elt F))
  :: StableHlo.nullary main_c_11 (constantI S_ 32 131072#32)
  :: StableHlo.unary main_c_11 main_v35 (broadcastInDim S1024 ![] bcast_S_S1024 : (⟨S_, .i32⟩ : BufTy).Contents (Elt F) → (⟨S1024, .i32⟩ : BufTy).Contents (Elt F))
  :: StableHlo.binary main_v31 main_v35 main_v36 (addi : (⟨S1024, .i32⟩ : BufTy).Contents (Elt F) → (⟨S1024, .i32⟩ : BufTy).Contents (Elt F) → (⟨S1024, .i32⟩ : BufTy).Contents (Elt F))
  :: StableHlo.ternary main_v34 main_v36 main_v31 main_v37 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v37 main_v38 (broadcastInDim S1024x1 ![0] bcast_S1024_S1024x1_0 : (⟨S1024, .i32⟩ : BufTy).Contents (Elt F) → (⟨S1024x1, .i32⟩ : BufTy).Contents (Elt F))
  :: StableHlo.nullary main_c_12 (constantI S_ 32 1#32)
  :: StableHlo.unary main_c_12 main_v39 (broadcastInDim S1024 ![] bcast_S_S1024 : (⟨S_, .i32⟩ : BufTy).Contents (Elt F) → (⟨S1024, .i32⟩ : BufTy).Contents (Elt F))
  :: StableHlo.ternary main_v32 main_v38 main_v39 main_v40 ((fun x i u => Host.scatter scatter_S131072_S1024x1_S1024_n_0_0_1 IntOp.addi x i u) : (⟨S131072, .i32⟩ : BufTy).Contents (Elt F) → (⟨S1024x1, .i32⟩ : BufTy).Contents (Elt F) → (⟨S1024, .i32⟩ : BufTy).Contents (Elt F) → (⟨S131072, .i32⟩ : BufTy).Contents (Elt F))
  :: [] )
theorem stretchA4_sub : (stretchA4 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
theorem stretchA4_fresh : (stretchA4 : List (HloOp τ sig (Elt F))).Forall fun op => op.fresh = ∅ := by
  simp only [List.Forall]; repeat' constructor

/-- 3 operations of a called helper, at the call's buffers, in order. -/
abbrev stretchA5 : List (HloOp τ sig (Elt F)) :=
  ( StableHlo.TRef.nullary main_call2.call0.c (constantI S_ 32 0#32)
  :: StableHlo.TRef.unary main_call2.call0.c main_call2.call0.v0 (broadcastInDim S_ ![] bcast_S_S_)
  :: StableHlo.TRef.binary (.of main_v40 : StableHlo.TRef sig ⟨S131072, .i32⟩) main_call2.call0.v0 main_call2.call0.v1 (fun x v => Host.reduceWindow IntOp.addi ![131072] ![1] ![131071] ![0] x v reduceWindows_S131072_S131072_w131072s1p131071_0 h_S_)
  :: [] )
theorem stretchA5_sub : (stretchA5 : List (HloOp τ sig (Elt F))).Forall fun op => op.bufs ⊆ tcRefs τ sig :=
  ⟨nullary_bufs_sub .., unary_bufs_sub .., binary_bufs_sub ..⟩
theorem stretchA5_fresh : (stretchA5 : List (HloOp τ sig (Elt F))).Forall fun op => op.fresh = ∅ := by
  simp only [List.Forall]; repeat' constructor

/-- 3 operations of the entry function itself, in order. -/
abbrev stretchA6 : List (HloOp τ sig (Elt F)) :=
  ( StableHlo.nullary main_c_13 (constantI S_ 32 1#32)
  :: StableHlo.unary main_c_13 main_v42 (broadcastInDim S131072 ![] bcast_S_S131072 : (⟨S_, .i32⟩ : BufTy).Contents (Elt F) → (⟨S131072, .i32⟩ : BufTy).Contents (Elt F))
  :: StableHlo.binary main_v41 main_v42 main_v43 (subi : (⟨S131072, .i32⟩ : BufTy).Contents (Elt F) → (⟨S131072, .i32⟩ : BufTy).Contents (Elt F) → (⟨S131072, .i32⟩ : BufTy).Contents (Elt F))
  :: [] )
theorem stretchA6_sub : (stretchA6 : List (HloOp τ sig (Elt F))).Forall fun op => op.bufs ⊆ tcRefs τ sig :=
  ⟨nullary_bufs_sub .., unary_bufs_sub .., binary_bufs_sub ..⟩
theorem stretchA6_fresh : (stretchA6 : List (HloOp τ sig (Elt F))).Forall fun op => op.fresh = ∅ := by
  simp only [List.Forall]; repeat' constructor

/-- 23 operations of a called helper, at the call's buffers, in order. -/
abbrev stretchA7 : List (HloOp τ sig (Elt F)) :=
  ( StableHlo.TRef.nullary main_call3.c (constantI S_ 32 0#32)
  :: StableHlo.TRef.unary main_call3.c main_call3.v0 (broadcastInDim S131072 ![] bcast_S_S131072)
  :: StableHlo.TRef.binary (.of main_v43 : StableHlo.TRef sig ⟨S131072, .i32⟩) main_call3.v0 main_call3.v1 (cmpi .slt)
  :: StableHlo.TRef.nullary main_call3.c_0 (constantI S_ 32 1024#32)
  :: StableHlo.TRef.unary main_call3.c_0 main_call3.v2 (broadcastInDim S131072 ![] bcast_S_S131072)
  :: StableHlo.TRef.binary (.of main_v43 : StableHlo.TRef sig ⟨S131072, .i32⟩) main_call3.v2 main_call3.v3 addi
  :: StableHlo.TRef.ternary main_call3.v1 main_call3.v3 (.of main_v43 : StableHlo.TRef sig ⟨S131072, .i32⟩) main_call3.call0.v0 select
  :: StableHlo.TRef.unary main_call3.call0.v0 main_call3.v5 (broadcastInDim S131072x1 ![0] bcast_S131072_S131072x1_0)
  :: StableHlo.TRef.nullary main_call3.c_1 (constantI S1 32 1023#32)
  :: StableHlo.TRef.nullary main_call3.c_2 (constantI S_ 32 0#32)
  :: StableHlo.TRef.unary main_call3.c_2 main_call3.v6 (broadcastInDim S131072x1 ![] bcast_S_S131072x1)
  :: StableHlo.TRef.binary main_call3.v5 main_call3.v6 main_call3.v7 (cmpi .sge)
  :: StableHlo.TRef.unary main_call3.c_1 main_call3.v8 (broadcastInDim S1x1 ![1] bcast_S1_S1x1_1)
  :: StableHlo.TRef.unary main_call3.v8 main_call3.v9 (broadcastInDim S131072x1 ![0, 1] bcast_S1x1_S131072x1_0_1)
  :: StableHlo.TRef.binary main_call3.v5 main_call3.v9 main_call3.v10 (cmpi .sle)
  :: StableHlo.TRef.binary main_call3.v7 main_call3.v10 main_call3.v11 andi
  :: StableHlo.TRef.nullary main_call3.c_3 (constantI S_ 1 1#1)
  :: StableHlo.TRef.binary main_call3.v11 main_call3.c_3 main_call3.v12 (fun x v => Host.reduce IntOp.andi x v reducesTo_S131072x1_S131072_d1 h_S_)
  :: StableHlo.TRef.binary (.of main_arg3 : StableHlo.TRef sig ⟨S1024x128, .f32⟩) main_call3.v5 main_call3.v13 (fun x i => Host.gather gather_S1024x128_S131072x1_S131072x128_1_0_n_n_0_1_1128 x i)
  :: StableHlo.TRef.unary main_call3.v12 main_call3.v14 (broadcastInDim S131072x128 ![0] bcast_S131072_S131072x128_0)
  :: StableHlo.TRef.nullary main_call3.cst (constant S_ .f32 0x7FC00000#32)
  :: StableHlo.TRef.unary main_call3.cst main_call3.v15 (broadcastInDim S131072x128 ![] bcast_S_S131072x128)
  :: StableHlo.TRef.ternary main_call3.v14 main_call3.v13 main_call3.v15 main_call3.v16 select
  :: [] )
theorem stretchA7_sub : (stretchA7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem stretchA7_fresh : (stretchA7 : List (HloOp τ sig (Elt F))).Forall fun op => op.fresh = ∅ := by
  simp only [List.Forall]; repeat' constructor

/-- 5 operations of the entry function itself, in order. -/
abbrev stretchB0 : List (HloOp τ sig (Elt F)) :=
  ( StableHlo.nary ![main_v6, main_v13, main_v27, main_v44] main_v45 (fun u => concatenate S131072x416 1 [⟨S131072x32, u 0⟩, ⟨S131072x128, u 1⟩, ⟨S131072x128, u 2⟩, ⟨S131072x128, u 3⟩] concatenates_S131072x32_S131072x128_S131072x128_S131072x128_S131072x416_d1)
  :: StableHlo.binary main_v45 main_arg7 main_v46 ((fun l r => Host.dotGeneral dot_S131072x416_S416x1024_S131072x1024_1_0_0_1_n_n none l r) : (⟨S131072x416, .f32⟩ : BufTy).Contents (Elt F) → (⟨S416x1024, .f32⟩ : BufTy).Contents (Elt F) → (⟨S131072x1024, .f32⟩ : BufTy).Contents (Elt F))
  :: StableHlo.unary main_arg8 main_v47 (broadcastInDim S1x1024 ![1] bcast_S1024_S1x1024_1 : (⟨S1024, .f32⟩ : BufTy).Contents (Elt F) → (⟨S1x1024, .f32⟩ : BufTy).Contents (Elt F))
  :: StableHlo.unary main_v47 main_v48 (broadcastInDim S131072x1024 ![0, 1] bcast_S1x1024_S131072x1024_0_1 : (⟨S1x1024, .f32⟩ : BufTy).Contents (Elt F) → (⟨S131072x1024, .f32⟩ : BufTy).Contents (Elt F))
  :: StableHlo.binary main_v46 main_v48 main_v49 (addf : (⟨S131072x1024, .f32⟩ : BufTy).Contents (Elt F) → (⟨S131072x1024, .f32⟩ : BufTy).Contents (Elt F) → (⟨S131072x1024, .f32⟩ : BufTy).Contents (Elt F))
  :: [] )
theorem stretchB0_sub : (stretchB0 : List (HloOp τ sig (Elt F))).Forall fun op => op.bufs ⊆ tcRefs τ sig :=
  ⟨nary_bufs_sub .., binary_bufs_sub .., unary_bufs_sub .., unary_bufs_sub .., binary_bufs_sub ..⟩
theorem stretchB0_fresh : (stretchB0 : List (HloOp τ sig (Elt F))).Forall fun op => op.fresh = ∅ := by
  simp only [List.Forall]; repeat' constructor

/-- 3 operations of a called helper, at the call's buffers, in order. -/
abbrev stretchB1 : List (HloOp τ sig (Elt F)) :=
  ( StableHlo.TRef.nullary main_call4.cst (constant S_ .f32 0x00000000#32)
  :: StableHlo.TRef.unary main_call4.cst main_call4.v0 (broadcastInDim S131072x1024 ![] bcast_S_S131072x1024)
  :: StableHlo.TRef.binary (.of main_v49 : StableHlo.TRef sig ⟨S131072x1024, .f32⟩) main_call4.v0 main_call4.v1 maximumf
  :: [] )
theorem stretchB1_sub : (stretchB1 : List (HloOp τ sig (Elt F))).Forall fun op => op.bufs ⊆ tcRefs τ sig :=
  ⟨nullary_bufs_sub .., unary_bufs_sub .., binary_bufs_sub ..⟩
theorem stretchB1_fresh : (stretchB1 : List (HloOp τ sig (Elt F))).Forall fun op => op.fresh = ∅ := by
  simp only [List.Forall]; repeat' constructor

/-- 4 operations of the entry function itself, in order. -/
abbrev stretchB2 : List (HloOp τ sig (Elt F)) :=
  ( StableHlo.binary main_v50 main_arg9 main_v51 ((fun l r => Host.dotGeneral dot_S131072x1024_S1024x1024_S131072x1024_1_0_0_1_n_n none l r) : (⟨S131072x1024, .f32⟩ : BufTy).Contents (Elt F) → (⟨S1024x1024, .f32⟩ : BufTy).Contents (Elt F) → (⟨S131072x1024, .f32⟩ : BufTy).Contents (Elt F))
  :: StableHlo.unary main_arg10 main_v52 (broadcastInDim S1x1024 ![1] bcast_S1024_S1x1024_1 : (⟨S1024, .f32⟩ : BufTy).Contents (Elt F) → (⟨S1x1024, .f32⟩ : BufTy).Contents (Elt F))
  :: StableHlo.unary main_v52 main_v53 (broadcastInDim S131072x1024 ![0, 1] bcast_S1x1024_S131072x1024_0_1 : (⟨S1x1024, .f32⟩ : BufTy).Contents (Elt F) → (⟨S131072x1024, .f32⟩ : BufTy).Contents (Elt F))
  :: StableHlo.binary main_v51 main_v53 main_v54 (addf : (⟨S131072x1024, .f32⟩ : BufTy).Contents (Elt F) → (⟨S131072x1024, .f32⟩ : BufTy).Contents (Elt F) → (⟨S131072x1024, .f32⟩ : BufTy).Contents (Elt F))
  :: [] )
theorem stretchB2_sub : (stretchB2 : List (HloOp τ sig (Elt F))).Forall fun op => op.bufs ⊆ tcRefs τ sig :=
  ⟨binary_bufs_sub .., unary_bufs_sub .., unary_bufs_sub .., binary_bufs_sub ..⟩
theorem stretchB2_fresh : (stretchB2 : List (HloOp τ sig (Elt F))).Forall fun op => op.fresh = ∅ := by
  simp only [List.Forall]; repeat' constructor

/-- 3 operations of a called helper, at the call's buffers, in order. -/
abbrev stretchB3 : List (HloOp τ sig (Elt F)) :=
  ( StableHlo.TRef.nullary main_call5.cst (constant S_ .f32 0x00000000#32)
  :: StableHlo.TRef.unary main_call5.cst main_call5.v0 (broadcastInDim S131072x1024 ![] bcast_S_S131072x1024)
  :: StableHlo.TRef.binary (.of main_v54 : StableHlo.TRef sig ⟨S131072x1024, .f32⟩) main_call5.v0 main_call5.v1 maximumf
  :: [] )
theorem stretchB3_sub : (stretchB3 : List (HloOp τ sig (Elt F))).Forall fun op => op.bufs ⊆ tcRefs τ sig :=
  ⟨nullary_bufs_sub .., unary_bufs_sub .., binary_bufs_sub ..⟩
theorem stretchB3_fresh : (stretchB3 : List (HloOp τ sig (Elt F))).Forall fun op => op.fresh = ∅ := by
  simp only [List.Forall]; repeat' constructor

/-- 5 operations of the entry function itself, in order. -/
abbrev stretchB4 : List (HloOp τ sig (Elt F)) :=
  ( StableHlo.binary main_v55 main_arg11 main_v56 ((fun l r => Host.dotGeneral dot_S131072x1024_S1024x1_S131072x1_1_0_0_1_n_n none l r) : (⟨S131072x1024, .f32⟩ : BufTy).Contents (Elt F) → (⟨S1024x1, .f32⟩ : BufTy).Contents (Elt F) → (⟨S131072x1, .f32⟩ : BufTy).Contents (Elt F))
  :: StableHlo.unary main_arg12 main_v57 (broadcastInDim S1x1 ![1] bcast_S1_S1x1_1 : (⟨S1, .f32⟩ : BufTy).Contents (Elt F) → (⟨S1x1, .f32⟩ : BufTy).Contents (Elt F))
  :: StableHlo.unary main_v57 main_v58 (broadcastInDim S131072x1 ![0, 1] bcast_S1x1_S131072x1_0_1 : (⟨S1x1, .f32⟩ : BufTy).Contents (Elt F) → (⟨S131072x1, .f32⟩ : BufTy).Contents (Elt F))
  :: StableHlo.binary main_v56 main_v58 main_v59 (addf : (⟨S131072x1, .f32⟩ : BufTy).Contents (Elt F) → (⟨S131072x1, .f32⟩ : BufTy).Contents (Elt F) → (⟨S131072x1, .f32⟩ : BufTy).Contents (Elt F))
  :: StableHlo.reshape main_v59 main_v60 rfl shapeCasts_S131072x1_S131072
  :: [] )
theorem stretchB4_sub : (stretchB4 : List (HloOp τ sig (Elt F))).Forall fun op => op.bufs ⊆ tcRefs τ sig :=
  ⟨binary_bufs_sub .., unary_bufs_sub .., unary_bufs_sub .., binary_bufs_sub .., reshape_bufs_sub ..⟩
theorem stretchB4_fresh : (stretchB4 : List (HloOp τ sig (Elt F))).Forall fun op => op.fresh = ∅ := by
  simp only [List.Forall]; repeat' constructor

/-! ## The entry function is the stretches in order -/

/-- The first window is its stretches run in order, the last one in tail position. -/
theorem window0_chain (c : Dev nD) : main_part0 (F := F) c = (Pipeline.chainK
  [ seq stretchA0,
    seq stretchA1,
    seq stretchA2,
    seq stretchA3,
    seq stretchA4,
    seq stretchA5,
    seq stretchA6 ]
  (seq stretchA7) : Prog (TpuEff nD τ sig (Elt F) (Pipeline.Sig Λ₀ (Fin 0) fun p => (pcfgs (F := F) p).Adm) .tc) PUnit) := by
  chain_rfl

/-- The second window is its stretches run in order. -/
theorem window1_chain (c : Dev nD) : main_part1 (F := F) c = (Pipeline.chain
  [ seq stretchB0,
    seq stretchB1,
    seq stretchB2,
    seq stretchB3,
    seq stretchB4 ] : Prog (TpuEff nD τ sig (Elt F) (Pipeline.Sig Λ₀ (Fin 0) fun p => (pcfgs (F := F) p).Adm) .tc) PUnit) := by
  chain_rfl

/-- Lines run one after another are their concatenation run as one line. -/
theorem chain_lines (ls : List (List (HloOp τ sig (Elt F)))) :
    (Pipeline.chain (ls.map fun l => (seq l : Prog (TpuEff nD τ sig (Elt F) (Pipeline.Sig Λ₀ (Fin 0) fun p => (pcfgs (F := F) p).Adm) .tc) PUnit)) : Prog (TpuEff nD τ sig (Elt F) (Pipeline.Sig Λ₀ (Fin 0) fun p => (pcfgs (F := F) p).Adm) .tc) PUnit) = seq ls.flatten := by
  induction ls with
  | nil => rfl
  | cons l ls ih => simp only [List.map_cons, Pipeline.chain_cons, List.flatten_cons, seq_append, ih]

/-- A property of every operation of every line is one of every operation of their concatenation. -/
theorem forall_flatten {α : Type} {P : α → Prop} (ls : List (List α)) (h : ls.Forall fun l => l.Forall P) :
    ls.flatten.Forall P := by
  rw [List.forall_iff_forall_mem]
  intro x hx
  obtain ⟨l, hl, hxl⟩ := List.mem_flatten.mp hx
  exact (List.forall_iff_forall_mem.mp ((List.forall_iff_forall_mem.mp h) l hl)) x hxl

/-- The stretches, in order. -/
abbrev stretches : List (List (HloOp τ sig (Elt F))) :=
  [ stretchA0, stretchA1, stretchA2, stretchA3, stretchA4, stretchA5, stretchA6, stretchA7, stretchB0, stretchB1, stretchB2, stretchB3, stretchB4 ]

/-- Every statement of the reference, in order. -/
abbrev ops : List (HloOp τ sig (Elt F)) := (stretches (F := F)).flatten

theorem main_eq (c : Dev nD) : main (F := F) c = seq ops := by
  show (main_part0 (F := F) c >>= fun _ => main_part1 (F := F) c) = _
  rewrite [window1_chain, window0_chain, Pipeline.chainK_bind_chain]
  exact chain_lines stretches

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_flatten _ (by simp only [List.Forall]; exact ⟨stretchA0_sub, stretchA1_sub, stretchA2_sub, stretchA3_sub, stretchA4_sub, stretchA5_sub, stretchA6_sub, stretchA7_sub, stretchB0_sub, stretchB1_sub, stretchB2_sub, stretchB3_sub, stretchB4_sub⟩)

theorem ops_fresh : (ops : List (HloOp τ sig (Elt F))).Forall fun op => op.fresh = ∅ :=
  forall_flatten _ (by simp only [List.Forall]; exact ⟨stretchA0_fresh, stretchA1_fresh, stretchA2_fresh, stretchA3_fresh, stretchA4_fresh, stretchA5_fresh, stretchA6_fresh, stretchA7_fresh, stretchB0_fresh, stretchB1_fresh, stretchB2_fresh, stretchB3_fresh, stretchB4_fresh⟩)

/-- From any memory with zero counters every weakly fair execution of the reference terminates, and every final state
    has each buffer at the fold of the statements' results over the contents it was launched with. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.HandRun

end
-- ==== Proof.RefScores.lean ====
/-
  The reference's result, read: the network over the four gathered pieces joined along their columns.

  The reference's line is its gathering part (the four row selections, among them the repetition of the per-graph
  rows by the counts) followed by its network part: the four pieces joined into one `[131072, 416]` matrix, three
  dense layers with the bias vectors broadcast over the rows, a rectifier after the first two, and the one-column
  result read as a vector.  The network part over ANY contents of the buffers is `net` of the joined pieces; the
  gathering part writes none of the arguments.
-/
import proofs.«157430_j12979391169442_2_alg».proof.Proof.RefRun
import proofs.«157430_j12979391169442_2_alg».proof.Proof.StageNet

set_option maxRecDepth 16384

noncomputable section

namespace Cert.ReferenceIdeal.RefScores

open Cert.ReferenceIdeal Cert.ReferenceIdeal.Gen Cert.ReferenceIdeal.HandRun Idealize.ShloMosaic Idealize.ShloMosaic.TcCoe Idealize.SL.Sem Idealize.ShloMosaic.StableHlo
open Idealize.ShloMosaic.ValueIdx Cert.Spec Cert.StageNet

/-- Two lines' folds compose. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The gathering part: the first window's statements. -/
abbrev glueOps : List (HloOp τ sig (Elt Ideal)) := [stretchA0, stretchA1, stretchA2, stretchA3, stretchA4, stretchA5, stretchA6, stretchA7].flatten
/-- The network part: the second window's statements. -/
abbrev netOps : List (HloOp τ sig (Elt Ideal)) := [stretchB0, stretchB1, stretchB2, stretchB3, stretchB4].flatten

theorem ops_split : (ops : List (HloOp τ sig (Elt Ideal))) = glueOps ++ netOps :=
  List.flatten_append (L₁ := [stretchA0, stretchA1, stretchA2, stretchA3, stretchA4, stretchA5, stretchA6, stretchA7]) (L₂ := [stretchB0, stretchB1, stretchB2, stretchB3, stretchB4])

/-- The host's rectifier, against a broadcast zero, entry by entry. -/
theorem host_relu {s : Shape} (z : FVec Ideal s .f32) (h : (⟨0, ![]⟩ : Shape).BroadcastsInDim s ![]) :
    maximumf z (broadcastInDim s ![] h (constant (F := Ideal) ⟨0, ![]⟩ .f32 0x00000000#32)) = fun i => relu (z i) := by
  funext i
  show max (z i) (broadcastInDim s ![] h (constant (F := Ideal) ⟨0, ![]⟩ .f32 0x00000000#32) i) = relu (z i)
  rw [broadcastInDim_scalar_apply]
  rfl

/-- The four pieces joined along their columns, at any contents of the buffers. -/
def joined (W : Valuation τ sig (Elt Ideal)) : S131072x416.Idx → EReal :=
  concatenate S131072x416 1 [⟨S131072x32, W (Proc.devRef .tc main_v6)⟩, ⟨S131072x128, W (Proc.devRef .tc main_v13)⟩,
    ⟨S131072x128, W (Proc.devRef .tc main_v27)⟩, ⟨S131072x128, W (Proc.devRef .tc main_v44)⟩]
    concatenates_S131072x32_S131072x128_S131072x128_S131072x128_S131072x416_d1

set_option maxHeartbeats 1600000 in
/-- The network part, over any contents: the network of the joined pieces, read as a vector. -/
theorem net_value (W : Valuation τ sig (Elt Ideal)) :
    after netOps W (Proc.devRef .tc main_v60)
      = shapeCast S131072 (net (joined W) (W (Proc.devRef .tc main_arg7)) (row (W (Proc.devRef .tc main_arg8))) (W (Proc.devRef .tc main_arg9))
          (row (W (Proc.devRef .tc main_arg10))) (W (Proc.devRef .tc main_arg11)) (row (W (Proc.devRef .tc main_arg12)))) shapeCasts_S131072x1_S131072 := by
  simp only [netOps, stretchB0, stretchB1, stretchB2, stretchB3, stretchB4, List.flatten_cons, List.flatten_nil, List.append_nil, List.cons_append, List.nil_append]
  after_results_simp
  show (fun i => shapeCast S131072
      (addf (Host.dotGeneral dot_S131072x1024_S1024x1_S131072x1_1_0_0_1_n_n none
        (maximumf (addf (Host.dotGeneral dot_S131072x1024_S1024x1024_S131072x1024_1_0_0_1_n_n none
          (maximumf (addf (Host.dotGeneral dot_S131072x416_S416x1024_S131072x1024_1_0_0_1_n_n none (joined W) (W (Proc.devRef .tc main_arg7)))
            (broadcastInDim S131072x1024 ![0, 1] bcast_S1x1024_S131072x1024_0_1 (broadcastInDim S1x1024 ![1] bcast_S1024_S1x1024_1 (W (Proc.devRef .tc main_arg8))))) (broadcastInDim S131072x1024 ![] bcast_S_S131072x1024 (constant (F := Ideal) S_ .f32 0x00000000#32)))
          (W (Proc.devRef .tc main_arg9)))
          (broadcastInDim S131072x1024 ![0, 1] bcast_S1x1024_S131072x1024_0_1 (broadcastInDim S1x1024 ![1] bcast_S1024_S1x1024_1 (W (Proc.devRef .tc main_arg10))))) (broadcastInDim S131072x1024 ![] bcast_S_S131072x1024 (constant (F := Ideal) S_ .f32 0x00000000#32)))
        (W (Proc.devRef .tc main_arg11)))
        (broadcastInDim S131072x1 ![0, 1] bcast_S1x1_S131072x1_0_1 (broadcastInDim S1x1 ![1] bcast_S1_S1x1_1 (W (Proc.devRef .tc main_arg12)))))
      shapeCasts_S131072x1_S131072 i) = _
  rw [host_dense dot_S131072x416_S416x1024_S131072x1024_1_0_0_1_n_n rfl rfl rfl rfl rfl rfl, host_relu, host_dense dot_S131072x1024_S1024x1024_S131072x1024_1_0_0_1_n_n rfl rfl rfl rfl rfl rfl, host_relu,
    host_dense dot_S131072x1024_S1024x1_S131072x1_1_0_0_1_n_n rfl rfl rfl rfl rfl rfl]
  rfl

/-! ## The gathering part writes no argument -/

theorem glue_arg7 (L : Valuation τ sig (Elt Ideal)) : after glueOps L (Proc.devRef .tc main_arg7) = L (Proc.devRef .tc main_arg7) :=
  after_of_forall_not_mem (b := Proc.devRef .tc main_arg7) _ _ (List.forall_iff_forall_mem.mp (by
    simp only [glueOps, stretchA0, stretchA1, stretchA2, stretchA3, stretchA4, stretchA5, stretchA6, stretchA7, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

theorem glue_arg8 (L : Valuation τ sig (Elt Ideal)) : after glueOps L (Proc.devRef .tc main_arg8) = L (Proc.devRef .tc main_arg8) :=
  after_of_forall_not_mem (b := Proc.devRef .tc main_arg8) _ _ (List.forall_iff_forall_mem.mp (by
    simp only [glueOps, stretchA0, stretchA1, stretchA2, stretchA3, stretchA4, stretchA5, stretchA6, stretchA7, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

theorem glue_arg9 (L : Valuation τ sig (Elt Ideal)) : after glueOps L (Proc.devRef .tc main_arg9) = L (Proc.devRef .tc main_arg9) :=
  after_of_forall_not_mem (b := Proc.devRef .tc main_arg9) _ _ (List.forall_iff_forall_mem.mp (by
    simp only [glueOps, stretchA0, stretchA1, stretchA2, stretchA3, stretchA4, stretchA5, stretchA6, stretchA7, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

theorem glue_arg10 (L : Valuation τ sig (Elt Ideal)) : after glueOps L (Proc.devRef .tc main_arg10) = L (Proc.devRef .tc main_arg10) :=
  after_of_forall_not_mem (b := Proc.devRef .tc main_arg10) _ _ (List.forall_iff_forall_mem.mp (by
    simp only [glueOps, stretchA0, stretchA1, stretchA2, stretchA3, stretchA4, stretchA5, stretchA6, stretchA7, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

theorem glue_arg11 (L : Valuation τ sig (Elt Ideal)) : after glueOps L (Proc.devRef .tc main_arg11) = L (Proc.devRef .tc main_arg11) :=
  after_of_forall_not_mem (b := Proc.devRef .tc main_arg11) _ _ (List.forall_iff_forall_mem.mp (by
    simp only [glueOps, stretchA0, stretchA1, stretchA2, stretchA3, stretchA4, stretchA5, stretchA6, stretchA7, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

theorem glue_arg12 (L : Valuation τ sig (Elt Ideal)) : after glueOps L (Proc.devRef .tc main_arg12) = L (Proc.devRef .tc main_arg12) :=
  after_of_forall_not_mem (b := Proc.devRef .tc main_arg12) _ _ (List.forall_iff_forall_mem.mp (by
    simp only [glueOps, stretchA0, stretchA1, stretchA2, stretchA3, stretchA4, stretchA5, stretchA6, stretchA7, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

/-- The reference's result over any launch contents: the network of the pieces its gathering part leaves, read as a
    vector, over the weight and bias arguments as launched. -/
theorem value (L : Valuation τ sig (Elt Ideal)) :
    after ops L (Proc.devRef .tc main_v60)
      = shapeCast S131072 (net (joined (after glueOps L)) (L (Proc.devRef .tc main_arg7)) (row (L (Proc.devRef .tc main_arg8))) (L (Proc.devRef .tc main_arg9))
          (row (L (Proc.devRef .tc main_arg10))) (L (Proc.devRef .tc main_arg11)) (row (L (Proc.devRef .tc main_arg12)))) shapeCasts_S131072x1_S131072 := by
  rw [ops_split, after_append, net_value, glue_arg7, glue_arg8, glue_arg9, glue_arg10, glue_arg11, glue_arg12]

/-! ## No statement writes an argument -/

theorem kept_arg0 (L : Valuation τ sig (Elt Ideal)) : after ops L (Proc.devRef .tc main_arg0) = L (Proc.devRef .tc main_arg0) :=
  after_of_forall_not_mem (b := Proc.devRef .tc main_arg0) _ _ (List.forall_iff_forall_mem.mp (by
    simp only [ops, stretches, stretchA0, stretchA1, stretchA2, stretchA3, stretchA4, stretchA5, stretchA6, stretchA7, stretchB0, stretchB1, stretchB2, stretchB3, stretchB4, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

theorem kept_arg1 (L : Valuation τ sig (Elt Ideal)) : after ops L (Proc.devRef .tc main_arg1) = L (Proc.devRef .tc main_arg1) :=
  after_of_forall_not_mem (b := Proc.devRef .tc main_arg1) _ _ (List.forall_iff_forall_mem.mp (by
    simp only [ops, stretches, stretchA0, stretchA1, stretchA2, stretchA3, stretchA4, stretchA5, stretchA6, stretchA7, stretchB0, stretchB1, stretchB2, stretchB3, stretchB4, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

theorem kept_arg2 (L : Valuation τ sig (Elt Ideal)) : after ops L (Proc.devRef .tc main_arg2) = L (Proc.devRef .tc main_arg2) :=
  after_of_forall_not_mem (b := Proc.devRef .tc main_arg2) _ _ (List.forall_iff_forall_mem.mp (by
    simp only [ops, stretches, stretchA0, stretchA1, stretchA2, stretchA3, stretchA4, stretchA5, stretchA6, stretchA7, stretchB0, stretchB1, stretchB2, stretchB3, stretchB4, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

theorem kept_arg3 (L : Valuation τ sig (Elt Ideal)) : after ops L (Proc.devRef .tc main_arg3) = L (Proc.devRef .tc main_arg3) :=
  after_of_forall_not_mem (b := Proc.devRef .tc main_arg3) _ _ (List.forall_iff_forall_mem.mp (by
    simp only [ops, stretches, stretchA0, stretchA1, stretchA2, stretchA3, stretchA4, stretchA5, stretchA6, stretchA7, stretchB0, stretchB1, stretchB2, stretchB3, stretchB4, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

theorem kept_arg4 (L : Valuation τ sig (Elt Ideal)) : after ops L (Proc.devRef .tc main_arg4) = L (Proc.devRef .tc main_arg4) :=
  after_of_forall_not_mem (b := Proc.devRef .tc main_arg4) _ _ (List.forall_iff_forall_mem.mp (by
    simp only [ops, stretches, stretchA0, stretchA1, stretchA2, stretchA3, stretchA4, stretchA5, stretchA6, stretchA7, stretchB0, stretchB1, stretchB2, stretchB3, stretchB4, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

theorem kept_arg5 (L : Valuation τ sig (Elt Ideal)) : after ops L (Proc.devRef .tc main_arg5) = L (Proc.devRef .tc main_arg5) :=
  after_of_forall_not_mem (b := Proc.devRef .tc main_arg5) _ _ (List.forall_iff_forall_mem.mp (by
    simp only [ops, stretches, stretchA0, stretchA1, stretchA2, stretchA3, stretchA4, stretchA5, stretchA6, stretchA7, stretchB0, stretchB1, stretchB2, stretchB3, stretchB4, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

theorem kept_arg6 (L : Valuation τ sig (Elt Ideal)) : after ops L (Proc.devRef .tc main_arg6) = L (Proc.devRef .tc main_arg6) :=
  after_of_forall_not_mem (b := Proc.devRef .tc main_arg6) _ _ (List.forall_iff_forall_mem.mp (by
    simp only [ops, stretches, stretchA0, stretchA1, stretchA2, stretchA3, stretchA4, stretchA5, stretchA6, stretchA7, stretchB0, stretchB1, stretchB2, stretchB3, stretchB4, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

theorem kept_arg7 (L : Valuation τ sig (Elt Ideal)) : after ops L (Proc.devRef .tc main_arg7) = L (Proc.devRef .tc main_arg7) :=
  after_of_forall_not_mem (b := Proc.devRef .tc main_arg7) _ _ (List.forall_iff_forall_mem.mp (by
    simp only [ops, stretches, stretchA0, stretchA1, stretchA2, stretchA3, stretchA4, stretchA5, stretchA6, stretchA7, stretchB0, stretchB1, stretchB2, stretchB3, stretchB4, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

theorem kept_arg8 (L : Valuation τ sig (Elt Ideal)) : after ops L (Proc.devRef .tc main_arg8) = L (Proc.devRef .tc main_arg8) :=
  after_of_forall_not_mem (b := Proc.devRef .tc main_arg8) _ _ (List.forall_iff_forall_mem.mp (by
    simp only [ops, stretches, stretchA0, stretchA1, stretchA2, stretchA3, stretchA4, stretchA5, stretchA6, stretchA7, stretchB0, stretchB1, stretchB2, stretchB3, stretchB4, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

theorem kept_arg9 (L : Valuation τ sig (Elt Ideal)) : after ops L (Proc.devRef .tc main_arg9) = L (Proc.devRef .tc main_arg9) :=
  after_of_forall_not_mem (b := Proc.devRef .tc main_arg9) _ _ (List.forall_iff_forall_mem.mp (by
    simp only [ops, stretches, stretchA0, stretchA1, stretchA2, stretchA3, stretchA4, stretchA5, stretchA6, stretchA7, stretchB0, stretchB1, stretchB2, stretchB3, stretchB4, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

theorem kept_arg10 (L : Valuation τ sig (Elt Ideal)) : after ops L (Proc.devRef .tc main_arg10) = L (Proc.devRef .tc main_arg10) :=
  after_of_forall_not_mem (b := Proc.devRef .tc main_arg10) _ _ (List.forall_iff_forall_mem.mp (by
    simp only [ops, stretches, stretchA0, stretchA1, stretchA2, stretchA3, stretchA4, stretchA5, stretchA6, stretchA7, stretchB0, stretchB1, stretchB2, stretchB3, stretchB4, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

theorem kept_arg11 (L : Valuation τ sig (Elt Ideal)) : after ops L (Proc.devRef .tc main_arg11) = L (Proc.devRef .tc main_arg11) :=
  after_of_forall_not_mem (b := Proc.devRef .tc main_arg11) _ _ (List.forall_iff_forall_mem.mp (by
    simp only [ops, stretches, stretchA0, stretchA1, stretchA2, stretchA3, stretchA4, stretchA5, stretchA6, stretchA7, stretchB0, stretchB1, stretchB2, stretchB3, stretchB4, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

theorem kept_arg12 (L : Valuation τ sig (Elt Ideal)) : after ops L (Proc.devRef .tc main_arg12) = L (Proc.devRef .tc main_arg12) :=
  after_of_forall_not_mem (b := Proc.devRef .tc main_arg12) _ _ (List.forall_iff_forall_mem.mp (by
    simp only [ops, stretches, stretchA0, stretchA1, stretchA2, stretchA3, stretchA4, stretchA5, stretchA6, stretchA7, stretchB0, stretchB1, stretchB2, stretchB3, stretchB4, List.flatten_cons, List.flatten_nil, List.append_nil, List.cons_append, List.nil_append, List.Forall, nullary_writes, unary_writes, binary_writes, ternary_writes, quaternary_writes, reshape_writes, binaryIndexed_writes, nary_writes, Finset.mem_singleton]
    repeat' apply And.intro
    all_goals exact devRef_ne_of_ne (by decide)))

end Cert.ReferenceIdeal.RefScores

end
-- ==== Proof.LibJoinedColumns4.lean ====
/-
  Four arrays of the same number of rows joined along their columns — `[N, a]`, `[N, b]`, `[N, c]`, `[N, d]` into
  `[N, a + b + c + d]`, what `concatenate(…, axis = 1)` of four matrices prints as — read at one entry: a column in
  the first `a` reads the first array, one in the next `b` the second at the column less `a`, one in the next `c` the
  third at the column less `a + b`, one in the last `d` the fourth at the column less `a + b + c`.  Generic in the
  extents and in the element type.
-/
import Idealize.ShloMosaic.Lib.Pipeline.Value
import Idealize.ShloMosaic.Lib.ValueIdx

noncomputable section

namespace Cert.LibJoinedColumns4

open Idealize.ShloMosaic Idealize.ShloMosaic.ValueIdx

section Joined

variable {α : Type} {N a b c d t : Nat}
  (A : (⟨2, ![N, a]⟩ : Shape).Idx → α) (B : (⟨2, ![N, b]⟩ : Shape).Idx → α) (C : (⟨2, ![N, c]⟩ : Shape).Idx → α)
  (D : (⟨2, ![N, d]⟩ : Shape).Idx → α)
  (h : Shape.Concatenates ([(⟨(⟨2, ![N, a]⟩ : Shape), A⟩ : (s : Shape) × (s.Idx → α)), ⟨(⟨2, ![N, b]⟩ : Shape), B⟩,
        ⟨(⟨2, ![N, c]⟩ : Shape), C⟩, ⟨(⟨2, ![N, d]⟩ : Shape), D⟩].map (·.1)) ⟨2, ![N, t]⟩ 1)

/-- A column in the first array's stretch reads the first array. -/
theorem joined4_first (r : Fin N) (k : Fin a) (j : Fin t) (hj : j.val = k.val) :
    concatenate ⟨2, ![N, t]⟩ 1 [⟨(⟨2, ![N, a]⟩ : Shape), A⟩, ⟨(⟨2, ![N, b]⟩ : Shape), B⟩, ⟨(⟨2, ![N, c]⟩ : Shape), C⟩,
      ⟨(⟨2, ![N, d]⟩ : Shape), D⟩] h (ix2 r j) = A (ix2 r k) := by
  refine concatenate_apply_piece (1 : Fin 2) _ h (ix2 r j) 0 (by show 0 < 4; omega) ⟨2, ![N, a]⟩ A rfl rfl 0 rfl (ix2 r k) ?_ ?_
  · intro e he
    match e with
    | ⟨0, _⟩ => rfl
    | ⟨1, _⟩ => exact absurd rfl he
  · show 0 + k.val = j.val; omega

/-- A column in the second array's stretch reads the second array. -/
theorem joined4_second (r : Fin N) (k : Fin b) (j : Fin t) (hj : j.val = a + k.val) :
    concatenate ⟨2, ![N, t]⟩ 1 [⟨(⟨2, ![N, a]⟩ : Shape), A⟩, ⟨(⟨2, ![N, b]⟩ : Shape), B⟩, ⟨(⟨2, ![N, c]⟩ : Shape), C⟩,
      ⟨(⟨2, ![N, d]⟩ : Shape), D⟩] h (ix2 r j) = B (ix2 r k) := by
  refine concatenate_apply_piece (1 : Fin 2) _ h (ix2 r j) 1 (by show 1 < 4; omega) ⟨2, ![N, b]⟩ B rfl rfl a ?_ (ix2 r k) ?_ ?_
  · show a + 0 = a; omega
  · intro e he
    match e with
    | ⟨0, _⟩ => rfl
    | ⟨1, _⟩ => exact absurd rfl he
  · show a + k.val = j.val; omega

/-- A column in the third array's stretch reads the third array. -/
theorem joined4_third (r : Fin N) (k : Fin c) (j : Fin t) (hj : j.val = a + b + k.val) :
    concatenate ⟨2, ![N, t]⟩ 1 [⟨(⟨2, ![N, a]⟩ : Shape), A⟩, ⟨(⟨2, ![N, b]⟩ : Shape), B⟩, ⟨(⟨2, ![N, c]⟩ : Shape), C⟩,
      ⟨(⟨2, ![N, d]⟩ : Shape), D⟩] h (ix2 r j) = C (ix2 r k) := by
  refine concatenate_apply_piece (1 : Fin 2) _ h (ix2 r j) 2 (by show 2 < 4; omega) ⟨2, ![N, c]⟩ C rfl rfl (a + b) ?_ (ix2 r k) ?_ ?_
  · show a + (b + 0) = a + b; omega
  · intro e he
    match e with
    | ⟨0, _⟩ => rfl
    | ⟨1, _⟩ => exact absurd rfl he
  · show a + b + k.val = j.val; omega

/-- A column in the fourth array's stretch reads the fourth array. -/
theorem joined4_fourth (r : Fin N) (k : Fin d) (j : Fin t) (hj : j.val = a + b + c + k.val) :
    concatenate ⟨2, ![N, t]⟩ 1 [⟨(⟨2, ![N, a]⟩ : Shape), A⟩, ⟨(⟨2, ![N, b]⟩ : Shape), B⟩, ⟨(⟨2, ![N, c]⟩ : Shape), C⟩,
      ⟨(⟨2, ![N, d]⟩ : Shape), D⟩] h (ix2 r j) = D (ix2 r k) := by
  refine concatenate_apply_piece (1 : Fin 2) _ h (ix2 r j) 3 (by show 3 < 4; omega) ⟨2, ![N, d]⟩ D rfl rfl (a + b + c) ?_ (ix2 r k) ?_ ?_
  · show a + (b + (c + 0)) = a + b + c; omega
  · intro e he
    match e with
    | ⟨0, _⟩ => rfl
    | ⟨1, _⟩ => exact absurd rfl he
  · show a + b + c + k.val = j.val; omega

end Joined

end Cert.LibJoinedColumns4

end
-- ==== Proof.Bridge.lean ====
/-
  The two programs' host parts agree, and so do their results.

  Before its region the kernel program runs the same gathering as the reference — the three row selections by the
  stage indices (one of them feeding a fourth, by graph), the rotation of the counts by one, a running sum, a
  scatter of ones, a second running sum and the bounds-checked selection of the per-graph rows — stretch by stretch
  the same operations on buffers of other names, plus changes of float format that are the identity on the extended
  reals.  So from contents that agree on the arguments each stretch leaves agreeing contents in the buffers the next
  one reads, and the four gathered pieces agree.  The kernel program's four weight matrices are the four consecutive
  groups of rows of the reference's first weight, its bias rows the bias vectors laid out as one row.  Hence the
  network over four pieces side by side (the kernel's) is the network over the joined pieces (the reference's).
-/
import proofs.«157430_j12979391169442_2_alg».proof.Proof.RefScores
import proofs.«157430_j12979391169442_2_alg».proof.Proof.Gen.KernelIdeal.Frame
import proofs.«157430_j12979391169442_2_alg».proof.Proof.KernelRun
import proofs.«157430_j12979391169442_2_alg».proof.Proof.LibJoinedColumns4
import Idealize.ShloMosaic.PureOps.Ideal

set_option maxRecDepth 16384

noncomputable section

namespace Cert.Bridge

open Idealize.ShloMosaic Idealize.ShloMosaic.TcCoe Idealize.SL.Sem Idealize.ShloMosaic.StableHlo

/-- Contents of the kernel program's buffers, and of the reference's. -/
abbrev KV := Valuation Cert.KernelIdeal.τ Cert.KernelIdeal.sig (Elt Ideal)
abbrev RV := Valuation Cert.ReferenceIdeal.τ Cert.ReferenceIdeal.sig (Elt Ideal)

/-- The kernel program's host operations before its region. -/
abbrev kPrefix : List (HloOp Cert.KernelIdeal.τ Cert.KernelIdeal.sig (Elt Ideal)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8]

open Idealize.ShloMosaic.ValueIdx Cert.Spec Cert.StageNet

/-! ## Prefixes of the two lines, one stretch at a time -/

abbrev kPre0 : List (HloOp Cert.KernelIdeal.τ Cert.KernelIdeal.sig (Elt Ideal)) := Cert.KernelIdeal.Gen.hostOps0
abbrev kPre1 : List (HloOp Cert.KernelIdeal.τ Cert.KernelIdeal.sig (Elt Ideal)) := kPre0 ++ Cert.KernelIdeal.Gen.hostOps0_1
abbrev kPre2 : List (HloOp Cert.KernelIdeal.τ Cert.KernelIdeal.sig (Elt Ideal)) := kPre1 ++ Cert.KernelIdeal.Gen.hostOps0_2
abbrev kPre3 : List (HloOp Cert.KernelIdeal.τ Cert.KernelIdeal.sig (Elt Ideal)) := kPre2 ++ Cert.KernelIdeal.Gen.hostOps0_3
abbrev kPre4 : List (HloOp Cert.KernelIdeal.τ Cert.KernelIdeal.sig (Elt Ideal)) := kPre3 ++ Cert.KernelIdeal.Gen.hostOps0_4
abbrev kPre5 : List (HloOp Cert.KernelIdeal.τ Cert.KernelIdeal.sig (Elt Ideal)) := kPre4 ++ Cert.KernelIdeal.Gen.hostOps0_5
abbrev kPre6 : List (HloOp Cert.KernelIdeal.τ Cert.KernelIdeal.sig (Elt Ideal)) := kPre5 ++ Cert.KernelIdeal.Gen.hostOps0_6
abbrev kPre7 : List (HloOp Cert.KernelIdeal.τ Cert.KernelIdeal.sig (Elt Ideal)) := kPre6 ++ Cert.KernelIdeal.Gen.hostOps0_7
abbrev rPre0 : List (HloOp Cert.ReferenceIdeal.τ Cert.ReferenceIdeal.sig (Elt Ideal)) := Cert.ReferenceIdeal.HandRun.stretchA0
abbrev rPre1 : List (HloOp Cert.ReferenceIdeal.τ Cert.ReferenceIdeal.sig (Elt Ideal)) := rPre0 ++ Cert.ReferenceIdeal.HandRun.stretchA1
abbrev rPre2 : List (HloOp Cert.ReferenceIdeal.τ Cert.ReferenceIdeal.sig (Elt Ideal)) := rPre1 ++ Cert.ReferenceIdeal.HandRun.stretchA2
abbrev rPre3 : List (HloOp Cert.ReferenceIdeal.τ Cert.ReferenceIdeal.sig (Elt Ideal)) := rPre2 ++ Cert.ReferenceIdeal.HandRun.stretchA3
abbrev rPre4 : List (HloOp Cert.ReferenceIdeal.τ Cert.ReferenceIdeal.sig (Elt Ideal)) := rPre3 ++ Cert.ReferenceIdeal.HandRun.stretchA4
abbrev rPre5 : List (HloOp Cert.ReferenceIdeal.τ Cert.ReferenceIdeal.sig (Elt Ideal)) := rPre4 ++ Cert.ReferenceIdeal.HandRun.stretchA5
abbrev rPre6 : List (HloOp Cert.ReferenceIdeal.τ Cert.ReferenceIdeal.sig (Elt Ideal)) := rPre5 ++ Cert.ReferenceIdeal.HandRun.stretchA6
abbrev rPre7 : List (HloOp Cert.ReferenceIdeal.τ Cert.ReferenceIdeal.sig (Elt Ideal)) := rPre6 ++ Cert.ReferenceIdeal.HandRun.stretchA7
/-- The kernel program's stretches after the first, and the reference's. -/
abbrev kRest : List (HloOp Cert.KernelIdeal.τ Cert.KernelIdeal.sig (Elt Ideal)) := List.flatten [Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8]
abbrev rRest : List (HloOp Cert.ReferenceIdeal.τ Cert.ReferenceIdeal.sig (Elt Ideal)) := List.flatten [Cert.ReferenceIdeal.HandRun.stretchA1, Cert.ReferenceIdeal.HandRun.stretchA2, Cert.ReferenceIdeal.HandRun.stretchA3, Cert.ReferenceIdeal.HandRun.stretchA4, Cert.ReferenceIdeal.HandRun.stretchA5, Cert.ReferenceIdeal.HandRun.stretchA6, Cert.ReferenceIdeal.HandRun.stretchA7]

theorem kPrefix_last : kPrefix = kPre7 ++ Cert.KernelIdeal.Gen.hostOps0_8 := by
  simp only [kPrefix, kPre7, kPre6, kPre5, kPre4, kPre3, kPre2, kPre1, kPre0, List.flatten_cons, List.flatten_nil, List.append_nil, List.append_assoc]
theorem kPrefix_first : kPrefix = Cert.KernelIdeal.Gen.hostOps0 ++ kRest := rfl
theorem glue_last : Cert.ReferenceIdeal.RefScores.glueOps = rPre7 := by
  simp only [Cert.ReferenceIdeal.RefScores.glueOps, rPre7, rPre6, rPre5, rPre4, rPre3, rPre2, rPre1, rPre0, List.flatten_cons, List.flatten_nil, List.append_nil, List.append_assoc]
theorem glue_first : Cert.ReferenceIdeal.RefScores.glueOps = Cert.ReferenceIdeal.HandRun.stretchA0 ++ rRest := rfl

/-! ## Stretch by stretch: agreeing contents in, agreeing contents out -/

set_option maxHeartbeats 3200000 in
theorem s0a (K : KV) (R : RV)
    (e0 : K (Proc.devRef .tc Cert.KernelIdeal.main_arg0) = R (Proc.devRef .tc Cert.ReferenceIdeal.main_arg0))
    (e1 : K (Proc.devRef .tc Cert.KernelIdeal.main_arg5) = R (Proc.devRef .tc Cert.ReferenceIdeal.main_arg5)) :
    after Cert.KernelIdeal.Gen.hostOps0 K (Proc.devRef .tc Cert.KernelIdeal.main_v7) = after Cert.ReferenceIdeal.HandRun.stretchA0 R (Proc.devRef .tc Cert.ReferenceIdeal.main_v6) := by
  simp only [Cert.KernelIdeal.Gen.hostOps0, Cert.ReferenceIdeal.HandRun.stretchA0]
  after_results_simp
  try dsimp only
  rw [e0, e1]
  try rfl
set_option maxHeartbeats 3200000 in
theorem s0b (K : KV) (R : RV)
    (e0 : K (Proc.devRef .tc Cert.KernelIdeal.main_arg1) = R (Proc.devRef .tc Cert.ReferenceIdeal.main_arg1))
    (e1 : K (Proc.devRef .tc Cert.KernelIdeal.main_arg5) = R (Proc.devRef .tc Cert.ReferenceIdeal.main_arg5)) :
    after Cert.KernelIdeal.Gen.hostOps0 K (Proc.devRef .tc Cert.KernelIdeal.main_v15) = after Cert.ReferenceIdeal.HandRun.stretchA0 R (Proc.devRef .tc Cert.ReferenceIdeal.main_v13) := by
  simp only [Cert.KernelIdeal.Gen.hostOps0, Cert.ReferenceIdeal.HandRun.stretchA0]
  after_results_simp
  try dsimp only
  rw [e0, e1]
  try rfl
set_option maxHeartbeats 3200000 in
theorem s0c (K : KV) (R : RV)
    (e0 : K (Proc.devRef .tc Cert.KernelIdeal.main_arg2) = R (Proc.devRef .tc Cert.ReferenceIdeal.main_arg2))
    (e1 : K (Proc.devRef .tc Cert.KernelIdeal.main_arg4) = R (Proc.devRef .tc Cert.ReferenceIdeal.main_arg4))
    (e2 : K (Proc.devRef .tc Cert.KernelIdeal.main_arg5) = R (Proc.devRef .tc Cert.ReferenceIdeal.main_arg5)) :
    after Cert.KernelIdeal.Gen.hostOps0 K (Proc.devRef .tc Cert.KernelIdeal.main_v30) = after Cert.ReferenceIdeal.HandRun.stretchA0 R (Proc.devRef .tc Cert.ReferenceIdeal.main_v27) := by
  simp only [Cert.KernelIdeal.Gen.hostOps0, Cert.ReferenceIdeal.HandRun.stretchA0]
  after_results_simp
  try dsimp only
  rw [e0, e1, e2]
  try rfl
set_option maxHeartbeats 3200000 in
theorem s1 (K : KV) (R : RV)
    (e0 : K (Proc.devRef .tc Cert.KernelIdeal.main_arg6) = R (Proc.devRef .tc Cert.ReferenceIdeal.main_arg6)) :
    after Cert.KernelIdeal.Gen.hostOps0_1 K (Proc.devRef .tc Cert.KernelIdeal.main_v31) = after Cert.ReferenceIdeal.HandRun.stretchA1 R (Proc.devRef .tc Cert.ReferenceIdeal.main_v28) := by
  simp only [Cert.KernelIdeal.Gen.hostOps0_1, Cert.ReferenceIdeal.HandRun.stretchA1]
  after_results
  try dsimp only
  rw [e0]
  try rfl
set_option maxHeartbeats 3200000 in
theorem s2 (K : KV) (R : RV)
    (e0 : K (Proc.devRef .tc Cert.KernelIdeal.main_v31) = R (Proc.devRef .tc Cert.ReferenceIdeal.main_v28)) :
    after Cert.KernelIdeal.Gen.hostOps0_2 K (Proc.devRef .tc Cert.KernelIdeal.main_v33) = after Cert.ReferenceIdeal.HandRun.stretchA2 R (Proc.devRef .tc Cert.ReferenceIdeal.main_v30) := by
  simp only [Cert.KernelIdeal.Gen.hostOps0_2, Cert.ReferenceIdeal.HandRun.stretchA2]
  after_results_simp
  try dsimp only
  rw [e0]
  try rfl
set_option maxHeartbeats 3200000 in
theorem s3 (K : KV) (R : RV)
    (e0 : K (Proc.devRef .tc Cert.KernelIdeal.main_v33) = R (Proc.devRef .tc Cert.ReferenceIdeal.main_v30)) :
    after Cert.KernelIdeal.Gen.hostOps0_3 K (Proc.devRef .tc Cert.KernelIdeal.main_v34) = after Cert.ReferenceIdeal.HandRun.stretchA3 R (Proc.devRef .tc Cert.ReferenceIdeal.main_v31) := by
  simp only [Cert.KernelIdeal.Gen.hostOps0_3, Cert.ReferenceIdeal.HandRun.stretchA3]
  after_results
  try dsimp only
  rw [e0]
  try rfl
set_option maxHeartbeats 3200000 in
theorem s4 (K : KV) (R : RV)
    (e0 : K (Proc.devRef .tc Cert.KernelIdeal.main_v34) = R (Proc.devRef .tc Cert.ReferenceIdeal.main_v31)) :
    after Cert.KernelIdeal.Gen.hostOps0_4 K (Proc.devRef .tc Cert.KernelIdeal.main_v43) = after Cert.ReferenceIdeal.HandRun.stretchA4 R (Proc.devRef .tc Cert.ReferenceIdeal.main_v40) := by
  simp only [Cert.KernelIdeal.Gen.hostOps0_4, Cert.ReferenceIdeal.HandRun.stretchA4]
  after_results_simp
  try dsimp only
  rw [e0]
  try rfl
set_option maxHeartbeats 3200000 in
theorem s5 (K : KV) (R : RV)
    (e0 : K (Proc.devRef .tc Cert.KernelIdeal.main_v43) = R (Proc.devRef .tc Cert.ReferenceIdeal.main_v40)) :
    after Cert.KernelIdeal.Gen.hostOps0_5 K (Proc.devRef .tc Cert.KernelIdeal.main_v44) = after Cert.ReferenceIdeal.HandRun.stretchA5 R (Proc.devRef .tc Cert.ReferenceIdeal.main_v41) := by
  simp only [Cert.KernelIdeal.Gen.hostOps0_5, Cert.ReferenceIdeal.HandRun.stretchA5]
  after_results
  try dsimp only
  rw [e0]
  try rfl
set_option maxHeartbeats 3200000 in
theorem s6 (K : KV) (R : RV)
    (e0 : K (Proc.devRef .tc Cert.KernelIdeal.main_v44) = R (Proc.devRef .tc Cert.ReferenceIdeal.main_v41)) :
    after Cert.KernelIdeal.Gen.hostOps0_6 K (Proc.devRef .tc Cert.KernelIdeal.main_v46) = after Cert.ReferenceIdeal.HandRun.stretchA6 R (Proc.devRef .tc Cert.ReferenceIdeal.main_v43) := by
  simp only [Cert.KernelIdeal.Gen.hostOps0_6, Cert.ReferenceIdeal.HandRun.stretchA6]
  after_results_simp
  try dsimp only
  rw [e0]
  try rfl
set_option maxHeartbeats 3200000 in
theorem s7 (K : KV) (R : RV)
    (e0 : K (Proc.devRef .tc Cert.KernelIdeal.main_v46) = R (Proc.devRef .tc Cert.ReferenceIdeal.main_v43))
    (e1 : K (Proc.devRef .tc Cert.KernelIdeal.main_arg3) = R (Proc.devRef .tc Cert.ReferenceIdeal.main_arg3)) :
    after Cert.KernelIdeal.Gen.hostOps0_7 K (Proc.devRef .tc Cert.KernelIdeal.main_v47) = after Cert.ReferenceIdeal.HandRun.stretchA7 R (Proc.devRef .tc Cert.ReferenceIdeal.main_v44) := by
  simp only [Cert.KernelIdeal.Gen.hostOps0_7, Cert.ReferenceIdeal.HandRun.stretchA7, TRef.nullary, TRef.unary, TRef.binary, TRef.ternary]
  after_results_simp
  try dsimp only
  rw [e0, e1]
  try rfl

/-! ## Buffers a list of operations does not write -/

theorem keepK_arg6_first (V : KV) : after Cert.KernelIdeal.Gen.hostOps0 V (Proc.devRef .tc Cert.KernelIdeal.main_arg6) = V (Proc.devRef .tc Cert.KernelIdeal.main_arg6) :=
  after_of_forall_not_mem (b := (Proc.devRef .tc Cert.KernelIdeal.main_arg6)) _ _ (List.forall_iff_forall_mem.mp (by
    simp only [Cert.KernelIdeal.Gen.hostOps0, List.flatten_cons, List.flatten_nil, List.append_nil, List.cons_append, List.nil_append, List.append_assoc, List.Forall, nullary_writes, unary_writes, binary_writes, ternary_writes, quaternary_writes, reshape_writes, binaryIndexed_writes, nary_writes, Finset.mem_singleton]
    repeat' apply And.intro
    all_goals exact devRef_ne_of_ne (by decide)))
theorem keepR_arg6_first (V : RV) : after Cert.ReferenceIdeal.HandRun.stretchA0 V (Proc.devRef .tc Cert.ReferenceIdeal.main_arg6) = V (Proc.devRef .tc Cert.ReferenceIdeal.main_arg6) :=
  after_of_forall_not_mem (b := (Proc.devRef .tc Cert.ReferenceIdeal.main_arg6)) _ _ (List.forall_iff_forall_mem.mp (by
    simp only [Cert.ReferenceIdeal.HandRun.stretchA0, List.flatten_cons, List.flatten_nil, List.append_nil, List.cons_append, List.nil_append, List.append_assoc, List.Forall, nullary_writes, unary_writes, binary_writes, ternary_writes, quaternary_writes, reshape_writes, binaryIndexed_writes, nary_writes, Finset.mem_singleton]
    repeat' apply And.intro
    all_goals exact devRef_ne_of_ne (by decide)))
theorem keepK_arg3_pre6 (V : KV) : after kPre6 V (Proc.devRef .tc Cert.KernelIdeal.main_arg3) = V (Proc.devRef .tc Cert.KernelIdeal.main_arg3) :=
  after_of_forall_not_mem (b := (Proc.devRef .tc Cert.KernelIdeal.main_arg3)) _ _ (List.forall_iff_forall_mem.mp (by
    simp only [kPre6, kPre5, kPre4, kPre3, kPre2, kPre1, kPre0, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, List.flatten_cons, List.flatten_nil, List.append_nil, List.cons_append, List.nil_append, List.append_assoc, List.Forall, nullary_writes, unary_writes, binary_writes, ternary_writes, quaternary_writes, reshape_writes, binaryIndexed_writes, nary_writes, Finset.mem_singleton]
    repeat' apply And.intro
    all_goals exact devRef_ne_of_ne (by decide)))
theorem keepR_arg3_pre6 (V : RV) : after rPre6 V (Proc.devRef .tc Cert.ReferenceIdeal.main_arg3) = V (Proc.devRef .tc Cert.ReferenceIdeal.main_arg3) :=
  after_of_forall_not_mem (b := (Proc.devRef .tc Cert.ReferenceIdeal.main_arg3)) _ _ (List.forall_iff_forall_mem.mp (by
    simp only [rPre6, rPre5, rPre4, rPre3, rPre2, rPre1, rPre0, Cert.ReferenceIdeal.HandRun.stretchA0, Cert.ReferenceIdeal.HandRun.stretchA1, Cert.ReferenceIdeal.HandRun.stretchA2, Cert.ReferenceIdeal.HandRun.stretchA3, Cert.ReferenceIdeal.HandRun.stretchA4, Cert.ReferenceIdeal.HandRun.stretchA5, Cert.ReferenceIdeal.HandRun.stretchA6, List.flatten_cons, List.flatten_nil, List.append_nil, List.cons_append, List.nil_append, List.append_assoc, List.Forall, nullary_writes, unary_writes, binary_writes, ternary_writes, quaternary_writes, reshape_writes, binaryIndexed_writes, nary_writes, Finset.mem_singleton]
    repeat' apply And.intro
    all_goals exact devRef_ne_of_ne (by decide)))
theorem keepK_main_v7_rest (V : KV) : after kRest V (Proc.devRef .tc Cert.KernelIdeal.main_v7) = V (Proc.devRef .tc Cert.KernelIdeal.main_v7) :=
  after_of_forall_not_mem (b := (Proc.devRef .tc Cert.KernelIdeal.main_v7)) _ _ (List.forall_iff_forall_mem.mp (by
    simp only [kRest, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, List.flatten_cons, List.flatten_nil, List.append_nil, List.cons_append, List.nil_append, List.append_assoc, List.Forall, nullary_writes, unary_writes, binary_writes, ternary_writes, quaternary_writes, reshape_writes, binaryIndexed_writes, nary_writes, Finset.mem_singleton]
    repeat' apply And.intro
    all_goals exact devRef_ne_of_ne (by decide)))
theorem keepK_main_v15_rest (V : KV) : after kRest V (Proc.devRef .tc Cert.KernelIdeal.main_v15) = V (Proc.devRef .tc Cert.KernelIdeal.main_v15) :=
  after_of_forall_not_mem (b := (Proc.devRef .tc Cert.KernelIdeal.main_v15)) _ _ (List.forall_iff_forall_mem.mp (by
    simp only [kRest, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, List.flatten_cons, List.flatten_nil, List.append_nil, List.cons_append, List.nil_append, List.append_assoc, List.Forall, nullary_writes, unary_writes, binary_writes, ternary_writes, quaternary_writes, reshape_writes, binaryIndexed_writes, nary_writes, Finset.mem_singleton]
    repeat' apply And.intro
    all_goals exact devRef_ne_of_ne (by decide)))
theorem keepK_main_v30_rest (V : KV) : after kRest V (Proc.devRef .tc Cert.KernelIdeal.main_v30) = V (Proc.devRef .tc Cert.KernelIdeal.main_v30) :=
  after_of_forall_not_mem (b := (Proc.devRef .tc Cert.KernelIdeal.main_v30)) _ _ (List.forall_iff_forall_mem.mp (by
    simp only [kRest, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, List.flatten_cons, List.flatten_nil, List.append_nil, List.cons_append, List.nil_append, List.append_assoc, List.Forall, nullary_writes, unary_writes, binary_writes, ternary_writes, quaternary_writes, reshape_writes, binaryIndexed_writes, nary_writes, Finset.mem_singleton]
    repeat' apply And.intro
    all_goals exact devRef_ne_of_ne (by decide)))
theorem keepR_main_v6_rest (V : RV) : after rRest V (Proc.devRef .tc Cert.ReferenceIdeal.main_v6) = V (Proc.devRef .tc Cert.ReferenceIdeal.main_v6) :=
  after_of_forall_not_mem (b := (Proc.devRef .tc Cert.ReferenceIdeal.main_v6)) _ _ (List.forall_iff_forall_mem.mp (by
    simp only [rRest, Cert.ReferenceIdeal.HandRun.stretchA1, Cert.ReferenceIdeal.HandRun.stretchA2, Cert.ReferenceIdeal.HandRun.stretchA3, Cert.ReferenceIdeal.HandRun.stretchA4, Cert.ReferenceIdeal.HandRun.stretchA5, Cert.ReferenceIdeal.HandRun.stretchA6, Cert.ReferenceIdeal.HandRun.stretchA7, List.flatten_cons, List.flatten_nil, List.append_nil, List.cons_append, List.nil_append, List.append_assoc, List.Forall, nullary_writes, unary_writes, binary_writes, ternary_writes, quaternary_writes, reshape_writes, binaryIndexed_writes, nary_writes, Finset.mem_singleton]
    repeat' apply And.intro
    all_goals exact devRef_ne_of_ne (by decide)))
theorem keepR_main_v13_rest (V : RV) : after rRest V (Proc.devRef .tc Cert.ReferenceIdeal.main_v13) = V (Proc.devRef .tc Cert.ReferenceIdeal.main_v13) :=
  after_of_forall_not_mem (b := (Proc.devRef .tc Cert.ReferenceIdeal.main_v13)) _ _ (List.forall_iff_forall_mem.mp (by
    simp only [rRest, Cert.ReferenceIdeal.HandRun.stretchA1, Cert.ReferenceIdeal.HandRun.stretchA2, Cert.ReferenceIdeal.HandRun.stretchA3, Cert.ReferenceIdeal.HandRun.stretchA4, Cert.ReferenceIdeal.HandRun.stretchA5, Cert.ReferenceIdeal.HandRun.stretchA6, Cert.ReferenceIdeal.HandRun.stretchA7, List.flatten_cons, List.flatten_nil, List.append_nil, List.cons_append, List.nil_append, List.append_assoc, List.Forall, nullary_writes, unary_writes, binary_writes, ternary_writes, quaternary_writes, reshape_writes, binaryIndexed_writes, nary_writes, Finset.mem_singleton]
    repeat' apply And.intro
    all_goals exact devRef_ne_of_ne (by decide)))
theorem keepR_main_v27_rest (V : RV) : after rRest V (Proc.devRef .tc Cert.ReferenceIdeal.main_v27) = V (Proc.devRef .tc Cert.ReferenceIdeal.main_v27) :=
  after_of_forall_not_mem (b := (Proc.devRef .tc Cert.ReferenceIdeal.main_v27)) _ _ (List.forall_iff_forall_mem.mp (by
    simp only [rRest, Cert.ReferenceIdeal.HandRun.stretchA1, Cert.ReferenceIdeal.HandRun.stretchA2, Cert.ReferenceIdeal.HandRun.stretchA3, Cert.ReferenceIdeal.HandRun.stretchA4, Cert.ReferenceIdeal.HandRun.stretchA5, Cert.ReferenceIdeal.HandRun.stretchA6, Cert.ReferenceIdeal.HandRun.stretchA7, List.flatten_cons, List.flatten_nil, List.append_nil, List.cons_append, List.nil_append, List.append_assoc, List.Forall, nullary_writes, unary_writes, binary_writes, ternary_writes, quaternary_writes, reshape_writes, binaryIndexed_writes, nary_writes, Finset.mem_singleton]
    repeat' apply And.intro
    all_goals exact devRef_ne_of_ne (by decide)))
theorem keepK_arg7_pre7 (V : KV) : after kPre7 V (Proc.devRef .tc Cert.KernelIdeal.main_arg7) = V (Proc.devRef .tc Cert.KernelIdeal.main_arg7) :=
  after_of_forall_not_mem (b := (Proc.devRef .tc Cert.KernelIdeal.main_arg7)) _ _ (List.forall_iff_forall_mem.mp (by
    simp only [kPre7, kPre6, kPre5, kPre4, kPre3, kPre2, kPre1, kPre0, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, List.flatten_cons, List.flatten_nil, List.append_nil, List.cons_append, List.nil_append, List.append_assoc, List.Forall, nullary_writes, unary_writes, binary_writes, ternary_writes, quaternary_writes, reshape_writes, binaryIndexed_writes, nary_writes, Finset.mem_singleton]
    repeat' apply And.intro
    all_goals exact devRef_ne_of_ne (by decide)))
theorem keepK_arg8_pre7 (V : KV) : after kPre7 V (Proc.devRef .tc Cert.KernelIdeal.main_arg8) = V (Proc.devRef .tc Cert.KernelIdeal.main_arg8) :=
  after_of_forall_not_mem (b := (Proc.devRef .tc Cert.KernelIdeal.main_arg8)) _ _ (List.forall_iff_forall_mem.mp (by
    simp only [kPre7, kPre6, kPre5, kPre4, kPre3, kPre2, kPre1, kPre0, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, List.flatten_cons, List.flatten_nil, List.append_nil, List.cons_append, List.nil_append, List.append_assoc, List.Forall, nullary_writes, unary_writes, binary_writes, ternary_writes, quaternary_writes, reshape_writes, binaryIndexed_writes, nary_writes, Finset.mem_singleton]
    repeat' apply And.intro
    all_goals exact devRef_ne_of_ne (by decide)))
theorem keepK_arg9_pre7 (V : KV) : after kPre7 V (Proc.devRef .tc Cert.KernelIdeal.main_arg9) = V (Proc.devRef .tc Cert.KernelIdeal.main_arg9) :=
  after_of_forall_not_mem (b := (Proc.devRef .tc Cert.KernelIdeal.main_arg9)) _ _ (List.forall_iff_forall_mem.mp (by
    simp only [kPre7, kPre6, kPre5, kPre4, kPre3, kPre2, kPre1, kPre0, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, List.flatten_cons, List.flatten_nil, List.append_nil, List.cons_append, List.nil_append, List.append_assoc, List.Forall, nullary_writes, unary_writes, binary_writes, ternary_writes, quaternary_writes, reshape_writes, binaryIndexed_writes, nary_writes, Finset.mem_singleton]
    repeat' apply And.intro
    all_goals exact devRef_ne_of_ne (by decide)))
theorem keepK_arg10_pre7 (V : KV) : after kPre7 V (Proc.devRef .tc Cert.KernelIdeal.main_arg10) = V (Proc.devRef .tc Cert.KernelIdeal.main_arg10) :=
  after_of_forall_not_mem (b := (Proc.devRef .tc Cert.KernelIdeal.main_arg10)) _ _ (List.forall_iff_forall_mem.mp (by
    simp only [kPre7, kPre6, kPre5, kPre4, kPre3, kPre2, kPre1, kPre0, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, List.flatten_cons, List.flatten_nil, List.append_nil, List.cons_append, List.nil_append, List.append_assoc, List.Forall, nullary_writes, unary_writes, binary_writes, ternary_writes, quaternary_writes, reshape_writes, binaryIndexed_writes, nary_writes, Finset.mem_singleton]
    repeat' apply And.intro
    all_goals exact devRef_ne_of_ne (by decide)))
theorem keepK_arg11_pre7 (V : KV) : after kPre7 V (Proc.devRef .tc Cert.KernelIdeal.main_arg11) = V (Proc.devRef .tc Cert.KernelIdeal.main_arg11) :=
  after_of_forall_not_mem (b := (Proc.devRef .tc Cert.KernelIdeal.main_arg11)) _ _ (List.forall_iff_forall_mem.mp (by
    simp only [kPre7, kPre6, kPre5, kPre4, kPre3, kPre2, kPre1, kPre0, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, List.flatten_cons, List.flatten_nil, List.append_nil, List.cons_append, List.nil_append, List.append_assoc, List.Forall, nullary_writes, unary_writes, binary_writes, ternary_writes, quaternary_writes, reshape_writes, binaryIndexed_writes, nary_writes, Finset.mem_singleton]
    repeat' apply And.intro
    all_goals exact devRef_ne_of_ne (by decide)))
theorem keepK_arg12_pre7 (V : KV) : after kPre7 V (Proc.devRef .tc Cert.KernelIdeal.main_arg12) = V (Proc.devRef .tc Cert.KernelIdeal.main_arg12) :=
  after_of_forall_not_mem (b := (Proc.devRef .tc Cert.KernelIdeal.main_arg12)) _ _ (List.forall_iff_forall_mem.mp (by
    simp only [kPre7, kPre6, kPre5, kPre4, kPre3, kPre2, kPre1, kPre0, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, List.flatten_cons, List.flatten_nil, List.append_nil, List.cons_append, List.nil_append, List.append_assoc, List.Forall, nullary_writes, unary_writes, binary_writes, ternary_writes, quaternary_writes, reshape_writes, binaryIndexed_writes, nary_writes, Finset.mem_singleton]
    repeat' apply And.intro
    all_goals exact devRef_ne_of_ne (by decide)))

/-! ## The chain of stretches up to the repeated per-graph rows -/

theorem chain1 (K : KV) (R : RV) (e6 : K (Proc.devRef .tc Cert.KernelIdeal.main_arg6) = R (Proc.devRef .tc Cert.ReferenceIdeal.main_arg6)) :
    after kPre1 K (Proc.devRef .tc Cert.KernelIdeal.main_v31) = after rPre1 R (Proc.devRef .tc Cert.ReferenceIdeal.main_v28) := by
  rw [after_append, after_append]
  exact s1 _ _ ((keepK_arg6_first K).trans (e6.trans (keepR_arg6_first R).symm))
theorem chain2 (K : KV) (R : RV) (e6 : K (Proc.devRef .tc Cert.KernelIdeal.main_arg6) = R (Proc.devRef .tc Cert.ReferenceIdeal.main_arg6)) :
    after kPre2 K (Proc.devRef .tc Cert.KernelIdeal.main_v33) = after rPre2 R (Proc.devRef .tc Cert.ReferenceIdeal.main_v30) := by
  rw [after_append, after_append]
  exact s2 _ _ (chain1 K R e6)
theorem chain3 (K : KV) (R : RV) (e6 : K (Proc.devRef .tc Cert.KernelIdeal.main_arg6) = R (Proc.devRef .tc Cert.ReferenceIdeal.main_arg6)) :
    after kPre3 K (Proc.devRef .tc Cert.KernelIdeal.main_v34) = after rPre3 R (Proc.devRef .tc Cert.ReferenceIdeal.main_v31) := by
  rw [after_append, after_append]
  exact s3 _ _ (chain2 K R e6)
theorem chain4 (K : KV) (R : RV) (e6 : K (Proc.devRef .tc Cert.KernelIdeal.main_arg6) = R (Proc.devRef .tc Cert.ReferenceIdeal.main_arg6)) :
    after kPre4 K (Proc.devRef .tc Cert.KernelIdeal.main_v43) = after rPre4 R (Proc.devRef .tc Cert.ReferenceIdeal.main_v40) := by
  rw [after_append, after_append]
  exact s4 _ _ (chain3 K R e6)
theorem chain5 (K : KV) (R : RV) (e6 : K (Proc.devRef .tc Cert.KernelIdeal.main_arg6) = R (Proc.devRef .tc Cert.ReferenceIdeal.main_arg6)) :
    after kPre5 K (Proc.devRef .tc Cert.KernelIdeal.main_v44) = after rPre5 R (Proc.devRef .tc Cert.ReferenceIdeal.main_v41) := by
  rw [after_append, after_append]
  exact s5 _ _ (chain4 K R e6)
theorem chain6 (K : KV) (R : RV) (e6 : K (Proc.devRef .tc Cert.KernelIdeal.main_arg6) = R (Proc.devRef .tc Cert.ReferenceIdeal.main_arg6)) :
    after kPre6 K (Proc.devRef .tc Cert.KernelIdeal.main_v46) = after rPre6 R (Proc.devRef .tc Cert.ReferenceIdeal.main_v43) := by
  rw [after_append, after_append]
  exact s6 _ _ (chain5 K R e6)
set_option maxHeartbeats 1600000 in
theorem chain7 (K : KV) (R : RV) (e6 : K (Proc.devRef .tc Cert.KernelIdeal.main_arg6) = R (Proc.devRef .tc Cert.ReferenceIdeal.main_arg6)) (e3 : K (Proc.devRef .tc Cert.KernelIdeal.main_arg3) = R (Proc.devRef .tc Cert.ReferenceIdeal.main_arg3)) :
    after kPre7 K (Proc.devRef .tc Cert.KernelIdeal.main_v47) = after rPre7 R (Proc.devRef .tc Cert.ReferenceIdeal.main_v44) := by
  rw [after_append, after_append]
  have h3 : after kPre6 K (Proc.devRef .tc Cert.KernelIdeal.main_arg3) = after rPre6 R (Proc.devRef .tc Cert.ReferenceIdeal.main_arg3) :=
    (keepK_arg3_pre6 K).trans (e3.trans (keepR_arg3_pre6 R).symm)
  exact s7 (after kPre6 K) (after rPre6 R) (chain6 K R e6) h3

/-! ## The kernel program's last stretch: format changes, row groups of the first weight, bias rows -/

theorem last_v48 (V : KV) : after Cert.KernelIdeal.Gen.hostOps0_8 V (Proc.devRef .tc Cert.KernelIdeal.main_v48) = V (Proc.devRef .tc Cert.KernelIdeal.main_v47) := by
  simp only [Cert.KernelIdeal.Gen.hostOps0_8]
  after_results_simp
  rfl
theorem last_v50 (V : KV) : after Cert.KernelIdeal.Gen.hostOps0_8 V (Proc.devRef .tc Cert.KernelIdeal.main_v50) = extractStridedSlice Cert.KernelIdeal.S32x1024 ![0, 0] (V (Proc.devRef .tc Cert.KernelIdeal.main_arg7)) Cert.KernelIdeal.Gen.slices_S416x1024_S32x1024_0_0 := by
  simp only [Cert.KernelIdeal.Gen.hostOps0_8]
  after_results_simp
  rfl
theorem last_v52 (V : KV) : after Cert.KernelIdeal.Gen.hostOps0_8 V (Proc.devRef .tc Cert.KernelIdeal.main_v52) = extractStridedSlice Cert.KernelIdeal.S128x1024 ![32, 0] (V (Proc.devRef .tc Cert.KernelIdeal.main_arg7)) Cert.KernelIdeal.Gen.slices_S416x1024_S128x1024_32_0 := by
  simp only [Cert.KernelIdeal.Gen.hostOps0_8]
  after_results_simp
  rfl
theorem last_v54 (V : KV) : after Cert.KernelIdeal.Gen.hostOps0_8 V (Proc.devRef .tc Cert.KernelIdeal.main_v54) = extractStridedSlice Cert.KernelIdeal.S128x1024 ![160, 0] (V (Proc.devRef .tc Cert.KernelIdeal.main_arg7)) Cert.KernelIdeal.Gen.slices_S416x1024_S128x1024_160_0 := by
  simp only [Cert.KernelIdeal.Gen.hostOps0_8]
  after_results_simp
  rfl
theorem last_v56 (V : KV) : after Cert.KernelIdeal.Gen.hostOps0_8 V (Proc.devRef .tc Cert.KernelIdeal.main_v56) = extractStridedSlice Cert.KernelIdeal.S128x1024 ![288, 0] (V (Proc.devRef .tc Cert.KernelIdeal.main_arg7)) Cert.KernelIdeal.Gen.slices_S416x1024_S128x1024_288_0 := by
  simp only [Cert.KernelIdeal.Gen.hostOps0_8]
  after_results_simp
  rfl
theorem last_v57 (V : KV) : after Cert.KernelIdeal.Gen.hostOps0_8 V (Proc.devRef .tc Cert.KernelIdeal.main_v57) = V (Proc.devRef .tc Cert.KernelIdeal.main_arg9) := by
  simp only [Cert.KernelIdeal.Gen.hostOps0_8]
  after_results_simp
  rfl
theorem last_v58 (V : KV) : after Cert.KernelIdeal.Gen.hostOps0_8 V (Proc.devRef .tc Cert.KernelIdeal.main_v58) = V (Proc.devRef .tc Cert.KernelIdeal.main_arg11) := by
  simp only [Cert.KernelIdeal.Gen.hostOps0_8]
  after_results_simp
  rfl
theorem last_v59 (V : KV) : after Cert.KernelIdeal.Gen.hostOps0_8 V (Proc.devRef .tc Cert.KernelIdeal.main_v59) = row (V (Proc.devRef .tc Cert.KernelIdeal.main_arg8)) := by
  simp only [Cert.KernelIdeal.Gen.hostOps0_8]
  after_results_simp
  exact shapeCast_row (V (Proc.devRef .tc Cert.KernelIdeal.main_arg8)) Cert.KernelIdeal.Gen.shapeCasts_S1024_S1x1024
theorem last_v60 (V : KV) : after Cert.KernelIdeal.Gen.hostOps0_8 V (Proc.devRef .tc Cert.KernelIdeal.main_v60) = row (V (Proc.devRef .tc Cert.KernelIdeal.main_arg10)) := by
  simp only [Cert.KernelIdeal.Gen.hostOps0_8]
  after_results_simp
  exact shapeCast_row (V (Proc.devRef .tc Cert.KernelIdeal.main_arg10)) Cert.KernelIdeal.Gen.shapeCasts_S1024_S1x1024
theorem last_v61 (V : KV) : after Cert.KernelIdeal.Gen.hostOps0_8 V (Proc.devRef .tc Cert.KernelIdeal.main_v61) = row (V (Proc.devRef .tc Cert.KernelIdeal.main_arg12)) := by
  simp only [Cert.KernelIdeal.Gen.hostOps0_8]
  after_results_simp
  exact shapeCast_row (V (Proc.devRef .tc Cert.KernelIdeal.main_arg12)) Cert.KernelIdeal.Gen.shapeCasts_S1_S1x1

/-! ## The kernel program's staged arrays: the reference's four pieces, and the weight and bias arguments -/

theorem piece0 (K : KV) (R : RV) (e0 : K (Proc.devRef .tc Cert.KernelIdeal.main_arg0) = R (Proc.devRef .tc Cert.ReferenceIdeal.main_arg0)) (e5 : K (Proc.devRef .tc Cert.KernelIdeal.main_arg5) = R (Proc.devRef .tc Cert.ReferenceIdeal.main_arg5)) :
    after kPrefix K (Proc.devRef .tc Cert.KernelIdeal.main_v7) = after Cert.ReferenceIdeal.RefScores.glueOps R (Proc.devRef .tc Cert.ReferenceIdeal.main_v6) := by
  rw [kPrefix_first, after_append, keepK_main_v7_rest, glue_first, after_append, keepR_main_v6_rest]
  exact s0a K R e0 e5
theorem piece1 (K : KV) (R : RV) (e1 : K (Proc.devRef .tc Cert.KernelIdeal.main_arg1) = R (Proc.devRef .tc Cert.ReferenceIdeal.main_arg1)) (e5 : K (Proc.devRef .tc Cert.KernelIdeal.main_arg5) = R (Proc.devRef .tc Cert.ReferenceIdeal.main_arg5)) :
    after kPrefix K (Proc.devRef .tc Cert.KernelIdeal.main_v15) = after Cert.ReferenceIdeal.RefScores.glueOps R (Proc.devRef .tc Cert.ReferenceIdeal.main_v13) := by
  rw [kPrefix_first, after_append, keepK_main_v15_rest, glue_first, after_append, keepR_main_v13_rest]
  exact s0b K R e1 e5
theorem piece2 (K : KV) (R : RV) (e2 : K (Proc.devRef .tc Cert.KernelIdeal.main_arg2) = R (Proc.devRef .tc Cert.ReferenceIdeal.main_arg2)) (e4 : K (Proc.devRef .tc Cert.KernelIdeal.main_arg4) = R (Proc.devRef .tc Cert.ReferenceIdeal.main_arg4))
    (e5 : K (Proc.devRef .tc Cert.KernelIdeal.main_arg5) = R (Proc.devRef .tc Cert.ReferenceIdeal.main_arg5)) :
    after kPrefix K (Proc.devRef .tc Cert.KernelIdeal.main_v30) = after Cert.ReferenceIdeal.RefScores.glueOps R (Proc.devRef .tc Cert.ReferenceIdeal.main_v27) := by
  rw [kPrefix_first, after_append, keepK_main_v30_rest, glue_first, after_append, keepR_main_v27_rest]
  exact s0c K R e2 e4 e5
theorem piece3 (K : KV) (R : RV) (e3 : K (Proc.devRef .tc Cert.KernelIdeal.main_arg3) = R (Proc.devRef .tc Cert.ReferenceIdeal.main_arg3)) (e6 : K (Proc.devRef .tc Cert.KernelIdeal.main_arg6) = R (Proc.devRef .tc Cert.ReferenceIdeal.main_arg6)) :
    after kPrefix K (Proc.devRef .tc Cert.KernelIdeal.main_v48) = after Cert.ReferenceIdeal.RefScores.glueOps R (Proc.devRef .tc Cert.ReferenceIdeal.main_v44) := by
  rw [kPrefix_last, after_append, last_v48, glue_last]
  exact chain7 K R e6 e3

theorem staged_v50 (K : KV) : after kPrefix K (Proc.devRef .tc Cert.KernelIdeal.main_v50) = extractStridedSlice Cert.KernelIdeal.S32x1024 ![0, 0] (K (Proc.devRef .tc Cert.KernelIdeal.main_arg7)) Cert.KernelIdeal.Gen.slices_S416x1024_S32x1024_0_0 := by
  rw [kPrefix_last, after_append, last_v50, keepK_arg7_pre7]
theorem staged_v52 (K : KV) : after kPrefix K (Proc.devRef .tc Cert.KernelIdeal.main_v52) = extractStridedSlice Cert.KernelIdeal.S128x1024 ![32, 0] (K (Proc.devRef .tc Cert.KernelIdeal.main_arg7)) Cert.KernelIdeal.Gen.slices_S416x1024_S128x1024_32_0 := by
  rw [kPrefix_last, after_append, last_v52, keepK_arg7_pre7]
theorem staged_v54 (K : KV) : after kPrefix K (Proc.devRef .tc Cert.KernelIdeal.main_v54) = extractStridedSlice Cert.KernelIdeal.S128x1024 ![160, 0] (K (Proc.devRef .tc Cert.KernelIdeal.main_arg7)) Cert.KernelIdeal.Gen.slices_S416x1024_S128x1024_160_0 := by
  rw [kPrefix_last, after_append, last_v54, keepK_arg7_pre7]
theorem staged_v56 (K : KV) : after kPrefix K (Proc.devRef .tc Cert.KernelIdeal.main_v56) = extractStridedSlice Cert.KernelIdeal.S128x1024 ![288, 0] (K (Proc.devRef .tc Cert.KernelIdeal.main_arg7)) Cert.KernelIdeal.Gen.slices_S416x1024_S128x1024_288_0 := by
  rw [kPrefix_last, after_append, last_v56, keepK_arg7_pre7]
theorem staged_v57 (K : KV) : after kPrefix K (Proc.devRef .tc Cert.KernelIdeal.main_v57) = K (Proc.devRef .tc Cert.KernelIdeal.main_arg9) := by
  rw [kPrefix_last, after_append, last_v57, keepK_arg9_pre7]
theorem staged_v58 (K : KV) : after kPrefix K (Proc.devRef .tc Cert.KernelIdeal.main_v58) = K (Proc.devRef .tc Cert.KernelIdeal.main_arg11) := by
  rw [kPrefix_last, after_append, last_v58, keepK_arg11_pre7]
theorem staged_v59 (K : KV) : after kPrefix K (Proc.devRef .tc Cert.KernelIdeal.main_v59) = row (K (Proc.devRef .tc Cert.KernelIdeal.main_arg8)) := by
  rw [kPrefix_last, after_append, last_v59, keepK_arg8_pre7]
theorem staged_v60 (K : KV) : after kPrefix K (Proc.devRef .tc Cert.KernelIdeal.main_v60) = row (K (Proc.devRef .tc Cert.KernelIdeal.main_arg10)) := by
  rw [kPrefix_last, after_append, last_v60, keepK_arg10_pre7]
theorem staged_v61 (K : KV) : after kPrefix K (Proc.devRef .tc Cert.KernelIdeal.main_v61) = row (K (Proc.devRef .tc Cert.KernelIdeal.main_arg12)) := by
  rw [kPrefix_last, after_append, last_v61, keepK_arg12_pre7]

/-- A group of consecutive rows of a matrix, read at an entry. -/
theorem rows_group_apply {t a N off : Nat} (x : Mat t N) (h : (⟨2, ![t, N]⟩ : Shape).Slices ![off, 0] ⟨2, ![a, N]⟩)
    (k : Fin a) (j : Fin t) (q : Fin N) (hj : j.val = off + k.val) :
    extractStridedSlice ⟨2, ![a, N]⟩ ![off, 0] x h (ix2 k q) = x (ix2 j q) :=
  extractStridedSlice_apply _ x h (ix2 k q) (ix2 j q) fun ax => by
    match ax with
    | ⟨0, _⟩ => exact hj
    | ⟨1, _⟩ => show q.val = 0 + q.val; omega

/-- THE TWO NETWORKS AGREE: over contents that agree on the thirteen arguments, the network over the kernel program's
    staged arrays is the network over the reference's joined pieces and its weight and bias arguments. -/
theorem scores_agree (K : KV) (R : RV)
    (e0 : K (Proc.devRef .tc Cert.KernelIdeal.main_arg0) = R (Proc.devRef .tc Cert.ReferenceIdeal.main_arg0))
    (e1 : K (Proc.devRef .tc Cert.KernelIdeal.main_arg1) = R (Proc.devRef .tc Cert.ReferenceIdeal.main_arg1))
    (e2 : K (Proc.devRef .tc Cert.KernelIdeal.main_arg2) = R (Proc.devRef .tc Cert.ReferenceIdeal.main_arg2))
    (e3 : K (Proc.devRef .tc Cert.KernelIdeal.main_arg3) = R (Proc.devRef .tc Cert.ReferenceIdeal.main_arg3))
    (e4 : K (Proc.devRef .tc Cert.KernelIdeal.main_arg4) = R (Proc.devRef .tc Cert.ReferenceIdeal.main_arg4))
    (e5 : K (Proc.devRef .tc Cert.KernelIdeal.main_arg5) = R (Proc.devRef .tc Cert.ReferenceIdeal.main_arg5))
    (e6 : K (Proc.devRef .tc Cert.KernelIdeal.main_arg6) = R (Proc.devRef .tc Cert.ReferenceIdeal.main_arg6))
    (e7 : K (Proc.devRef .tc Cert.KernelIdeal.main_arg7) = R (Proc.devRef .tc Cert.ReferenceIdeal.main_arg7))
    (e8 : K (Proc.devRef .tc Cert.KernelIdeal.main_arg8) = R (Proc.devRef .tc Cert.ReferenceIdeal.main_arg8))
    (e9 : K (Proc.devRef .tc Cert.KernelIdeal.main_arg9) = R (Proc.devRef .tc Cert.ReferenceIdeal.main_arg9))
    (e10 : K (Proc.devRef .tc Cert.KernelIdeal.main_arg10) = R (Proc.devRef .tc Cert.ReferenceIdeal.main_arg10))
    (e11 : K (Proc.devRef .tc Cert.KernelIdeal.main_arg11) = R (Proc.devRef .tc Cert.ReferenceIdeal.main_arg11))
    (e12 : K (Proc.devRef .tc Cert.KernelIdeal.main_arg12) = R (Proc.devRef .tc Cert.ReferenceIdeal.main_arg12)) :
    net4 (M := 131072) (a := 32) (b := 128) (c := 128) (d := 128) (H := 1024) (N := 1)
      (after kPrefix K (Proc.devRef .tc Cert.KernelIdeal.main_v7)) (after kPrefix K (Proc.devRef .tc Cert.KernelIdeal.main_v15)) (after kPrefix K (Proc.devRef .tc Cert.KernelIdeal.main_v30)) (after kPrefix K (Proc.devRef .tc Cert.KernelIdeal.main_v48))
      (after kPrefix K (Proc.devRef .tc Cert.KernelIdeal.main_v50)) (after kPrefix K (Proc.devRef .tc Cert.KernelIdeal.main_v52)) (after kPrefix K (Proc.devRef .tc Cert.KernelIdeal.main_v54)) (after kPrefix K (Proc.devRef .tc Cert.KernelIdeal.main_v56))
      (after kPrefix K (Proc.devRef .tc Cert.KernelIdeal.main_v59)) (after kPrefix K (Proc.devRef .tc Cert.KernelIdeal.main_v57)) (after kPrefix K (Proc.devRef .tc Cert.KernelIdeal.main_v60)) (after kPrefix K (Proc.devRef .tc Cert.KernelIdeal.main_v58))
      (after kPrefix K (Proc.devRef .tc Cert.KernelIdeal.main_v61))
    = net (Cert.ReferenceIdeal.RefScores.joined (after Cert.ReferenceIdeal.RefScores.glueOps R)) (R (Proc.devRef .tc Cert.ReferenceIdeal.main_arg7)) (row (R (Proc.devRef .tc Cert.ReferenceIdeal.main_arg8))) (R (Proc.devRef .tc Cert.ReferenceIdeal.main_arg9))
        (row (R (Proc.devRef .tc Cert.ReferenceIdeal.main_arg10))) (R (Proc.devRef .tc Cert.ReferenceIdeal.main_arg11)) (row (R (Proc.devRef .tc Cert.ReferenceIdeal.main_arg12))) := by
  rw [staged_v59 K, staged_v60 K, staged_v61 K, staged_v57 K, staged_v58 K, e8, e9, e10, e11, e12]
  refine net4_eq_net (t := 416) rfl (Cert.ReferenceIdeal.RefScores.joined (after Cert.ReferenceIdeal.RefScores.glueOps R)) (R (Proc.devRef .tc Cert.ReferenceIdeal.main_arg7)) (row (R (Proc.devRef .tc Cert.ReferenceIdeal.main_arg8)))
    (R (Proc.devRef .tc Cert.ReferenceIdeal.main_arg9)) (row (R (Proc.devRef .tc Cert.ReferenceIdeal.main_arg10))) (R (Proc.devRef .tc Cert.ReferenceIdeal.main_arg11)) (row (R (Proc.devRef .tc Cert.ReferenceIdeal.main_arg12))) _ _ _ _ _ _ _ _ ?_ ?_ ?_ ?_ ?_ ?_ ?_ ?_
  · intro p k j hj
    rw [piece0 K R e0 e5]
    exact Cert.LibJoinedColumns4.joined4_first _ _ _ _ Cert.ReferenceIdeal.Gen.concatenates_S131072x32_S131072x128_S131072x128_S131072x128_S131072x416_d1 p k j hj
  · intro p k j hj
    rw [piece1 K R e1 e5]
    exact Cert.LibJoinedColumns4.joined4_second _ _ _ _ Cert.ReferenceIdeal.Gen.concatenates_S131072x32_S131072x128_S131072x128_S131072x128_S131072x416_d1 p k j hj
  · intro p k j hj
    rw [piece2 K R e2 e4 e5]
    exact Cert.LibJoinedColumns4.joined4_third _ _ _ _ Cert.ReferenceIdeal.Gen.concatenates_S131072x32_S131072x128_S131072x128_S131072x128_S131072x416_d1 p k j hj
  · intro p k j hj
    rw [piece3 K R e3 e6]
    exact Cert.LibJoinedColumns4.joined4_fourth _ _ _ _ Cert.ReferenceIdeal.Gen.concatenates_S131072x32_S131072x128_S131072x128_S131072x128_S131072x416_d1 p k j hj
  · intro k j q hj
    rw [staged_v50 K, e7]
    exact (rows_group_apply _ _ k j q (by omega)).symm
  · intro k j q hj
    rw [staged_v52 K, e7]
    exact (rows_group_apply _ _ k j q (by omega)).symm
  · intro k j q hj
    rw [staged_v54 K, e7]
    exact (rows_group_apply _ _ k j q (by omega)).symm
  · intro k j q hj
    rw [staged_v56 K, e7]
    exact (rows_group_apply _ _ k j q (by omega)).symm

end Cert.Bridge

end
-- ==== Proof.lean ====
/-
  The certificate: the kernel program and the reference compute the same stage scores on the extended reals.

  Both programs select rows of the node features and node embeddings by the stage indices, the graph embedding of each
  selected node through its graph index, and the global embedding of each graph repeated by the graph's count of
  stage nodes; both then score each selected node by a three-layer rectified network.  The reference joins the four
  selected pieces into one `[131072, 416]` matrix and multiplies it by the first weight; the kernel multiplies each
  piece by its own consecutive group of rows of that weight — 32, 128, 128 and 128 of the 416 — and adds the four
  products, 2048 rows at a time.  A sum over 416 terms taken in four consecutive groups is the same sum (addition of
  extended reals is commutative and associative: nothing need be finite), the kernel's changes of float format are
  the identity on the extended reals, and a row of the network's result depends on the same row of its inputs only;
  so the 64 tiles of 2048 rows the kernel writes are the reference's result.  The idealization rewrote nothing
  (`preserves` is trivial).  The frames of the two kernel programs are the generated frame certificates; the
  reference, a straight line of host operations, terminates with its arguments unwritten.
-/
import proofs.«157430_j12979391169442_2_alg».proof.Defs
import proofs.«157430_j12979391169442_2_alg».proof.Proof.Gen.Kernel
import proofs.«157430_j12979391169442_2_alg».proof.Proof.Gen.Kernel.Frame
import proofs.«157430_j12979391169442_2_alg».proof.Proof.Gen.KernelIdeal
import proofs.«157430_j12979391169442_2_alg».proof.Proof.Gen.KernelIdeal.Frame
import proofs.«157430_j12979391169442_2_alg».proof.Proof.Gen.ReferenceIdeal
import proofs.«157430_j12979391169442_2_alg».proof.Proof.Gen.Pre_finite_inputs
import proofs.«157430_j12979391169442_2_alg».proof.Proof.KernelRun
import proofs.«157430_j12979391169442_2_alg».proof.Proof.RefScores
import proofs.«157430_j12979391169442_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference runs, and none of its statements writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefScores.kept_arg0 _),
      (h c Cert.ReferenceIdeal.main_arg1).trans (Cert.ReferenceIdeal.RefScores.kept_arg1 _),
      (h c Cert.ReferenceIdeal.main_arg2).trans (Cert.ReferenceIdeal.RefScores.kept_arg2 _),
      (h c Cert.ReferenceIdeal.main_arg3).trans (Cert.ReferenceIdeal.RefScores.kept_arg3 _),
      (h c Cert.ReferenceIdeal.main_arg4).trans (Cert.ReferenceIdeal.RefScores.kept_arg4 _),
      (h c Cert.ReferenceIdeal.main_arg5).trans (Cert.ReferenceIdeal.RefScores.kept_arg5 _),
      (h c Cert.ReferenceIdeal.main_arg6).trans (Cert.ReferenceIdeal.RefScores.kept_arg6 _),
      (h c Cert.ReferenceIdeal.main_arg7).trans (Cert.ReferenceIdeal.RefScores.kept_arg7 _),
      (h c Cert.ReferenceIdeal.main_arg8).trans (Cert.ReferenceIdeal.RefScores.kept_arg8 _),
      (h c Cert.ReferenceIdeal.main_arg9).trans (Cert.ReferenceIdeal.RefScores.kept_arg9 _),
      (h c Cert.ReferenceIdeal.main_arg10).trans (Cert.ReferenceIdeal.RefScores.kept_arg10 _),
      (h c Cert.ReferenceIdeal.main_arg11).trans (Cert.ReferenceIdeal.RefScores.kept_arg11 _),
      (h c Cert.ReferenceIdeal.main_arg12).trans (Cert.ReferenceIdeal.RefScores.kept_arg12 _)⟩)
    (Cert.ReferenceIdeal.HandRun.run m ρ)

/-- The ideal pass rewrote no operation. -/
theorem preserves : Cert.preserves_Kernel_KernelIdeal := trivial

/-- From memories agreeing on the arguments both programs run; the kernel program ends with the network over its
    staged arrays read as a vector, the reference with the network over its joined pieces read as a vector, and the
    two networks agree. -/
theorem algebraic : Cert.algebraic_KernelIdeal_ReferenceIdeal := by
  intro m ρ m' ρ' _ hagree
  refine ⟨fun c => shapeCast Cert.KernelIdeal.S131072 (Cert.KernelIdeal.Scores.scores m c) Cert.KernelIdeal.Gen.shapeCasts_S131072x1_S131072,
    Cert.KernelIdeal.Scores.run m ρ, ?_⟩
  refine (θ_run Cert.ReferenceIdeal.defs _ _).mono (fun _ h c =>
    ⟨(h c Cert.ReferenceIdeal.main_v60).trans ?_,
      (h c Cert.ReferenceIdeal.main_arg0).trans (Cert.ReferenceIdeal.RefScores.kept_arg0 _),
      (h c Cert.ReferenceIdeal.main_arg1).trans (Cert.ReferenceIdeal.RefScores.kept_arg1 _),
      (h c Cert.ReferenceIdeal.main_arg2).trans (Cert.ReferenceIdeal.RefScores.kept_arg2 _),
      (h c Cert.ReferenceIdeal.main_arg3).trans (Cert.ReferenceIdeal.RefScores.kept_arg3 _),
      (h c Cert.ReferenceIdeal.main_arg4).trans (Cert.ReferenceIdeal.RefScores.kept_arg4 _),
      (h c Cert.ReferenceIdeal.main_arg5).trans (Cert.ReferenceIdeal.RefScores.kept_arg5 _),
      (h c Cert.ReferenceIdeal.main_arg6).trans (Cert.ReferenceIdeal.RefScores.kept_arg6 _),
      (h c Cert.ReferenceIdeal.main_arg7).trans (Cert.ReferenceIdeal.RefScores.kept_arg7 _),
      (h c Cert.ReferenceIdeal.main_arg8).trans (Cert.ReferenceIdeal.RefScores.kept_arg8 _),
      (h c Cert.ReferenceIdeal.main_arg9).trans (Cert.ReferenceIdeal.RefScores.kept_arg9 _),
      (h c Cert.ReferenceIdeal.main_arg10).trans (Cert.ReferenceIdeal.RefScores.kept_arg10 _),
      (h c Cert.ReferenceIdeal.main_arg11).trans (Cert.ReferenceIdeal.RefScores.kept_arg11 _),
      (h c Cert.ReferenceIdeal.main_arg12).trans (Cert.ReferenceIdeal.RefScores.kept_arg12 _)⟩)
    (Cert.ReferenceIdeal.HandRun.run m' ρ')
  obtain ⟨a0, a1, a2, a3, a4, a5, a6, a7, a8, a9, a10, a11, a12⟩ := hagree c
  rw [Cert.ReferenceIdeal.RefScores.value]
  exact congrArg (fun X => shapeCast Cert.ReferenceIdeal.S131072 X Cert.ReferenceIdeal.Gen.shapeCasts_S131072x1_S131072)
    (Cert.Bridge.scores_agree (fun b => m (c, b)) (launchContents m' c)
      a0.symm a1.symm a2.symm a3.symm a4.symm a5.symm a6.symm a7.symm a8.symm a9.symm a10.symm a11.symm a12.symm).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
